-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S2x32768 : Shape := ⟨2, ![2, 32768]⟩
abbrev S65536 : Shape := ⟨1, ![65536]⟩
abbrev S65 : Shape := ⟨1, ![65]⟩
abbrev S32768x24 : Shape := ⟨2, ![32768, 24]⟩
abbrev S32768x200 : Shape := ⟨2, ![32768, 200]⟩
abbrev S32768x32 : Shape := ⟨2, ![32768, 32]⟩
abbrev S3x1280x1280 : Shape := ⟨3, ![3, 1280, 1280]⟩
abbrev S3x1280 : Shape := ⟨2, ![3, 1280]⟩
abbrev S1280x512 : Shape := ⟨2, ![1280, 512]⟩
abbrev S512 : Shape := ⟨1, ![512]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S32768x24 : S_.BroadcastsInDim S32768x24 (![] : Fin 0 → Fin S32768x24.rank)
  reducesTo_S32768x24_S_d0_1 : S32768x24.ReducesTo [0, 1] S_
  bcast_S_S32768x200 : S_.BroadcastsInDim S32768x200 (![] : Fin 0 → Fin S32768x200.rank)
  reducesTo_S32768x200_S_d0_1 : S32768x200.ReducesTo [0, 1] S_
  bcast_S_S32768x32 : S_.BroadcastsInDim S32768x32 (![] : Fin 0 → Fin S32768x32.rank)
  reducesTo_S32768x32_S_d0_1 : S32768x32.ReducesTo [0, 1] S_
  bcast_S_S3x1280x1280 : S_.BroadcastsInDim S3x1280x1280 (![] : Fin 0 → Fin S3x1280x1280.rank)
  reducesTo_S3x1280x1280_S_d0_1_2 : S3x1280x1280.ReducesTo [0, 1, 2] S_
  bcast_S_S3x1280 : S_.BroadcastsInDim S3x1280 (![] : Fin 0 → Fin S3x1280.rank)
  reducesTo_S3x1280_S_d0_1 : S3x1280.ReducesTo [0, 1] S_
  bcast_S_S1280x512 : S_.BroadcastsInDim S1280x512 (![] : Fin 0 → Fin S1280x512.rank)
  reducesTo_S1280x512_S_d0_1 : S1280x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg12 : FVec F S512 .f32) (main_v33 : IVec S_ 1) : IVec S_ 1 :=
  let main_v34 : FVec F S512 .f32 := Host.absf main_arg12
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg9 : FVec F S3x1280x1280 .f32) (main_arg10 : FVec F S3x1280 .f32) (main_arg11 : FVec F S1280x512 .f32) (main_arg12 : FVec F S512 .f32) (main_v13 : IVec S_ 1) (main_v16 : IVec S32768x32 1) : IVec S_ 1 :=
  let main_c_5 : IVec S_ 1 := constantI S_ 1 1#1
  let main_v17 : IVec S_ 1 := (fun x v => Host.reduce IntOp.andi x v reducesTo_S32768x32_S_d0_1 h_S_) main_v16 main_c_5
  let main_v18 : IVec S_ 1 := andi main_v13 main_v17
  let main_v19 : FVec F S3x1280x1280 .f32 := Host.absf main_arg9
  let main_cst_6 : FVec F S_ .f32 := constant S_ .f32 0x7F800000#32
  let main_v20 : FVec F S3x1280x1280 .f32 := broadcastInDim S3x1280x1280 ![] bcast_S_S3x1280x1280 main_cst_6
  let main_v21 : IVec S3x1280x1280 1 := cmpf .olt main_v19 main_v20
  let main_c_7 : IVec S_ 1 := constantI S_ 1 1#1
  let main_v22 : IVec S_ 1 := (fun x v => Host.reduce IntOp.andi x v reducesTo_S3x1280x1280_S_d0_1_2 h_S_) main_v21 main_c_7
  let main_v23 : IVec S_ 1 := andi main_v18 main_v22
  let main_v24 : FVec F S3x1280 .f32 := Host.absf main_arg10
  let main_cst_8 : FVec F S_ .f32 := constant S_ .f32 0x7F800000#32
  let main_v25 : FVec F S3x1280 .f32 := broadcastInDim S3x1280 ![] bcast_S_S3x1280 main_cst_8
  let main_v26 : IVec S3x1280 1 := cmpf .olt main_v24 main_v25
  let main_c_9 : IVec S_ 1 := constantI S_ 1 1#1
  let main_v27 : IVec S_ 1 := (fun x v => Host.reduce IntOp.andi x v reducesTo_S3x1280_S_d0_1 h_S_) main_v26 main_c_9
  let main_v28 : IVec S_ 1 := andi main_v23 main_v27
  let main_v29 : FVec F S1280x512 .f32 := Host.absf main_arg11
  let main_cst_10 : FVec F S_ .f32 := constant S_ .f32 0x7F800000#32
  let main_v30 : FVec F S1280x512 .f32 := broadcastInDim S1280x512 ![] bcast_S_S1280x512 main_cst_10
  let main_v31 : IVec S1280x512 1 := cmpf .olt main_v29 main_v30
  let main_c_11 : IVec S_ 1 := constantI S_ 1 1#1
  let main_v32 : IVec S_ 1 := (fun x v => Host.reduce IntOp.andi x v reducesTo_S1280x512_S_d0_1 h_S_) main_v31 main_c_11
  let main_v33 : IVec S_ 1 := andi main_v28 main_v32
  fn_part2 (F := F) main_arg12 main_v33

def fn {F : FTy → Type} [FloatOps F] (main_arg0 : FVec F S65536x256 .f32) (main_arg1 : IVec S2x32768 32) (main_arg2 : IVec S65536 32) (main_arg3 : IVec S65 32) (main_arg4 : IVec S32768x24 32) (main_arg5 : IVec S32768x24 32) (main_arg6 : FVec F S32768x24 .f32) (main_arg7 : FVec F S32768x200 .f32) (main_arg8 : FVec F S32768x32 .f32) (main_arg9 : FVec F S3x1280x1280 .f32) (main_arg10 : FVec F S3x1280 .f32) (main_arg11 : FVec F S1280x512 .f32) (main_arg12 : FVec F S512 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S32768x24 .f32 := Host.absf main_arg6
  let main_cst_0 : FVec F S_ .f32 := constant S_ .f32 0x7F800000#32
  let main_v5 : FVec F S32768x24 .f32 := broadcastInDim S32768x24 ![] bcast_S_S32768x24 main_cst_0
  let main_v6 : IVec S32768x24 1 := cmpf .olt main_v4 main_v5
  let main_c_1 : IVec S_ 1 := constantI S_ 1 1#1
  let main_v7 : IVec S_ 1 := (fun x v => Host.reduce IntOp.andi x v reducesTo_S32768x24_S_d0_1 h_S_) main_v6 main_c_1
  let main_v8 : IVec S_ 1 := andi main_v3 main_v7
  let main_v9 : FVec F S32768x200 .f32 := Host.absf main_arg7
  let main_cst_2 : FVec F S_ .f32 := constant S_ .f32 0x7F800000#32
  let main_v10 : FVec F S32768x200 .f32 := broadcastInDim S32768x200 ![] bcast_S_S32768x200 main_cst_2
  let main_v11 : IVec S32768x200 1 := cmpf .olt main_v9 main_v10
  let main_c_3 : IVec S_ 1 := constantI S_ 1 1#1
  let main_v12 : IVec S_ 1 := (fun x v => Host.reduce IntOp.andi x v reducesTo_S32768x200_S_d0_1 h_S_) main_v11 main_c_3
  let main_v13 : IVec S_ 1 := andi main_v8 main_v12
  let main_v14 : FVec F S32768x32 .f32 := Host.absf main_arg8
  let main_cst_4 : FVec F S_ .f32 := constant S_ .f32 0x7F800000#32
  let main_v15 : FVec F S32768x32 .f32 := broadcastInDim S32768x32 ![] bcast_S_S32768x32 main_cst_4
  let main_v16 : IVec S32768x32 1 := cmpf .olt main_v14 main_v15
  fn_part1 (F := F) main_arg9 main_arg10 main_arg11 main_arg12 main_v13 main_v16
-- ==== Kernel.lean ====
abbrev S65536x256 : Shape := ⟨2, ![65536, 256]⟩
abbrev S2x32768 : Shape := ⟨2, ![2, 32768]⟩
abbrev S65536 : Shape := ⟨1, ![65536]⟩
abbrev S65 : Shape := ⟨1, ![65]⟩
abbrev S32768x24 : Shape := ⟨2, ![32768, 24]⟩
abbrev S32768x200 : Shape := ⟨2, ![32768, 200]⟩
abbrev S32768x32 : Shape := ⟨2, ![32768, 32]⟩
abbrev S3x1280x1280 : Shape := ⟨3, ![3, 1280, 1280]⟩
abbrev S3x1280 : Shape := ⟨2, ![3, 1280]⟩
abbrev S1280x512 : Shape := ⟨2, ![1280, 512]⟩
abbrev S512 : Shape := ⟨1, ![512]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S32768x256 : Shape := ⟨2, ![32768, 256]⟩
abbrev S32768x512 : Shape := ⟨2, ![32768, 512]⟩
abbrev S786432 : Shape := ⟨1, ![786432]⟩
abbrev S786432x1 : Shape := ⟨2, ![786432, 1]⟩
abbrev S786432x256 : Shape := ⟨2, ![786432, 256]⟩
abbrev S32768x24x256 : Shape := ⟨3, ![32768, 24, 256]⟩
abbrev S1024x512 : Shape := ⟨2, ![1024, 512]⟩
abbrev S1024x256 : Shape := ⟨2, ![1024, 256]⟩
abbrev S1024x1280 : Shape := ⟨2, ![1024, 1280]⟩
abbrev S1x1280x1280 : Shape := ⟨3, ![1, 1280, 1280]⟩
abbrev S1280x1280 : Shape := ⟨2, ![1280, 1280]⟩
abbrev S1x1280 : Shape := ⟨2, ![1, 1280]⟩
abbrev S1280 : Shape := ⟨1, ![1280]⟩
abbrev S1x512 : Shape := ⟨2, ![1, 512]⟩

abbrev nBuf : Space → Nat
  | .hbm => 137
  | .vmem => 14
  | .smem => 0
  | _ => 0

abbrev hbmTy0_0 (i : Nat) : BufTy := match i % 128 with
  | 0 => ⟨S65536x256, .f32⟩
  | 1 => ⟨S2x32768, .i32⟩
  | 2 => ⟨S65536, .i32⟩
  | 3 => ⟨S65, .i32⟩
  | 4 => ⟨S32768x24, .i32⟩
  | 5 => ⟨S32768x24, .i32⟩
  | 6 => ⟨S32768x24, .f32⟩
  | 7 => ⟨S32768x200, .f32⟩
  | 8 => ⟨S32768x32, .f32⟩
  | 9 => ⟨S3x1280x1280, .f32⟩
  | 10 => ⟨S3x1280, .f32⟩
  | 11 => ⟨S1280x512, .f32⟩
  | 12 => ⟨S512, .f32⟩
  | 13 => ⟨S1x32768, .i32⟩
  | 14 => ⟨S32768, .i32⟩
  | 15 => ⟨S1x32768, .i32⟩
  | 16 => ⟨S32768, .i32⟩
  | 17 => ⟨S_, .i32⟩
  | 18 => ⟨S32768, .i32⟩
  | 19 => ⟨S32768, .i1⟩
  | 20 => ⟨S_, .i32⟩
  | 21 => ⟨S32768, .i32⟩
  | 22 => ⟨S32768, .i32⟩
  | 23 => ⟨S32768, .i32⟩
  | 24 => ⟨S32768x1, .i32⟩
  | 25 => ⟨S32768x256, .f32⟩
  | 26 => ⟨S_, .i32⟩
  | 27 => ⟨S32768, .i32⟩
  | 28 => ⟨S32768, .i1⟩
  | 29 => ⟨S_, .i32⟩
  | 30 => ⟨S32768, .i32⟩
  | 31 => ⟨S32768, .i32⟩
  | 32 => ⟨S32768, .i32⟩
  | 33 => ⟨S32768x1, .i32⟩
  | 34 => ⟨S32768x256, .f32⟩
  | 35 => ⟨S32768x512, .f32⟩
  | 36 => ⟨S_, .i32⟩
  | 37 => ⟨S32768, .i32⟩
  | 38 => ⟨S32768, .i1⟩
  | 39 => ⟨S_, .i32⟩
  | 40 => ⟨S32768, .i32⟩
  | 41 => ⟨S32768, .i32⟩
  | 42 => ⟨S32768, .i32⟩
  | 43 => ⟨S32768x1, .i32⟩
  | 44 => ⟨S32768, .i32⟩
  | 45 => ⟨S_, .i32⟩
  | 46 => ⟨S32768, .i32⟩
  | 47 => ⟨S32768, .i1⟩
  | 48 => ⟨S_, .i32⟩
  | 49 => ⟨S32768, .i32⟩
  | 50 => ⟨S32768, .i32⟩
  | 51 => ⟨S32768, .i32⟩
  | 52 => ⟨S32768x1, .i32⟩
  | 53 => ⟨S32768, .i32⟩
  | 54 => ⟨S32768x1, .i32⟩
  | 55 => ⟨S32768x24, .i32⟩
  | 56 => ⟨S32768x24, .i32⟩
  | 57 => ⟨S786432, .i32⟩
  | 58 => ⟨S_, .i32⟩
  | 59 => ⟨S786432, .i32⟩
  | 60 => ⟨S786432, .i1⟩
  | 61 => ⟨S786432, .f32⟩
  | 62 => ⟨S_, .i32⟩
  | 63 => ⟨S786432, .i32⟩
  | 64 => ⟨S786432, .i1⟩
  | 65 => ⟨S_, .i32⟩
  | 66 => ⟨S786432, .i32⟩
  | 67 => ⟨S786432, .i32⟩
  | 68 => ⟨S786432, .i32⟩
  | 69 => ⟨S786432x1, .i32⟩
  | 70 => ⟨S786432x256, .f32⟩
  | 71 => ⟨S786432x1, .f32⟩
  | 72 => ⟨S786432x256, .f32⟩
  | 73 => ⟨S786432x256, .f32⟩
  | 74 => ⟨S32768x24x256, .f32⟩
  | 75 => ⟨S32768x24, .f32⟩
  | 76 => ⟨S_, .f32⟩
  | 77 => ⟨S32768x256, .f32⟩
  | 78 => ⟨S_, .f32⟩
  | 79 => ⟨S32768, .f32⟩
  | 80 => ⟨S32768x1, .f32⟩
  | 81 => ⟨S_, .f32⟩
  | 82 => ⟨S32768x1, .f32⟩
  | 83 => ⟨S32768x1, .i1⟩
  | 84 => ⟨S_, .f32⟩
  | 85 => ⟨S32768, .f32⟩
  | 86 => ⟨S32768, .f32⟩
  | 87 => ⟨S32768x1, .f32⟩
  | 88 => ⟨S32768x256, .f32⟩
  | 89 => ⟨S32768x256, .f32⟩
  | 90 => ⟨S_, .f32⟩
  | 91 => ⟨S_, .f32⟩
  | 92 => ⟨S32768x256, .i1⟩
  | 93 => ⟨S32768x256, .f32⟩
  | 94 => ⟨S32768x256, .f32⟩
  | 95 => ⟨S32768x24, .i32⟩
  | 96 => ⟨S32768x24, .i32⟩
  | 97 => ⟨S786432, .i32⟩
  | 98 => ⟨S_, .i32⟩
  | 99 => ⟨S786432, .i32⟩
  | 100 => ⟨S786432, .i1⟩
  | 101 => ⟨S786432, .f32⟩
  | 102 => ⟨S_, .i32⟩
  | 103 => ⟨S786432, .i32⟩
  | 104 => ⟨S786432, .i1⟩
  | 105 => ⟨S_, .i32⟩
  | 106 => ⟨S786432, .i32⟩
  | 107 => ⟨S786432, .i32⟩
  | 108 => ⟨S786432, .i32⟩
  | 109 => ⟨S786432x1, .i32⟩
  | 110 => ⟨S786432x256, .f32⟩
  | 111 => ⟨S786432x1, .f32⟩
  | 112 => ⟨S786432x256, .f32⟩
  | 113 => ⟨S786432x256, .f32⟩
  | 114 => ⟨S32768x24x256, .f32⟩
  | 115 => ⟨S32768x24, .f32⟩
  | 116 => ⟨S_, .f32⟩
  | 117 => ⟨S32768x256, .f32⟩
  | 118 => ⟨S_, .f32⟩
  | 119 => ⟨S32768, .f32⟩
  | 120 => ⟨S32768x1, .f32⟩
  | 121 => ⟨S_, .f32⟩
  | 122 => ⟨S32768x1, .f32⟩
  | 123 => ⟨S32768x1, .i1⟩
  | 124 => ⟨S_, .f32⟩
  | 125 => ⟨S32768, .f32⟩
  | 126 => ⟨S32768, .f32⟩
  | 127 => ⟨S32768x1, .f32⟩
  | _ => ⟨S65536x256, .f32⟩

abbrev hbmTy0_1 (i : Nat) : BufTy := match i % 128 with
  | 0 => ⟨S32768x256, .f32⟩
  | 1 => ⟨S32768x256, .f32⟩
  | 2 => ⟨S_, .f32⟩
  | 3 => ⟨S_, .f32⟩
  | 4 => ⟨S32768x256, .i1⟩
  | 5 => ⟨S32768x256, .f32⟩
  | 6 => ⟨S32768x256, .f32⟩
  | 7 => ⟨S32768x256, .f32⟩
  | 8 => ⟨S32768x512, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S3x1280x1280, .f32⟩
  | .local _ .vmem, ⟨9, _⟩ => ⟨S3x1280, .f32⟩
  | .local _ .vmem, ⟨10, _⟩ => ⟨S1280x512, .f32⟩
  | .local _ .vmem, ⟨11, _⟩ => ⟨S512, .f32⟩
  | .local _ .vmem, ⟨12, _⟩ => ⟨S1024x512, .f32⟩
  | .local _ .vmem, ⟨13, _⟩ => ⟨S1024x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_15 : Ref sig .tc := ⟨.hbm, 102, rfl⟩
abbrev main_v69 : Ref sig .tc := ⟨.hbm, 103, rfl⟩
abbrev main_v70 : Ref sig .tc := ⟨.hbm, 104, rfl⟩
abbrev main_c_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_v83 : Ref sig .tc := ⟨.hbm, 120, rfl⟩
abbrev main_cst_19 : Ref sig .tc := ⟨.hbm, 121, rfl⟩
abbrev main_v84 : Ref sig .tc := ⟨.hbm, 122, rfl⟩
abbrev main_v85 : Ref sig .tc := ⟨.hbm, 123, rfl⟩
abbrev main_cst_20 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_21 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1280x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x32768_S1x32768_0_0 : S2x32768.Slices ![0, 0] S1x32768
  shapeCasts_S1x32768_S32768 : S1x32768.ShapeCasts S32768
  slices_S2x32768_S1x32768_1_0 : S2x32768.Slices ![1, 0] S1x32768
  bcast_S_S32768 : S_.BroadcastsInDim S32768 (![] : Fin 0 → Fin S32768.rank)
  bcast_S32768_S32768x1_0 : S32768.BroadcastsInDim S32768x1 (![0] : Fin 1 → Fin S32768x1.rank)
  concatenates_S32768x256_S32768x256_S32768x512_d1 : Shape.Concatenates [S32768x256, S32768x256] S32768x512 1
  bcast_S32768x1_S32768x24_0_1 : S32768x1.BroadcastsInDim S32768x24 (![0, 1] : Fin 2 → Fin S32768x24.rank)
  shapeCasts_S32768x24_S786432 : S32768x24.ShapeCasts S786432
  bcast_S_S786432 : S_.BroadcastsInDim S786432 (![] : Fin 0 → Fin S786432.rank)
  bcast_S786432_S786432x1_0 : S786432.BroadcastsInDim S786432x1 (![0] : Fin 1 → Fin S786432x1.rank)
  bcast_S786432x1_S786432x256_0_1 : S786432x1.BroadcastsInDim S786432x256 (![0, 1] : Fin 2 → Fin S786432x256.rank)
  shapeCasts_S786432x256_S32768x24x256 : S786432x256.ShapeCasts S32768x24x256
  shapeCasts_S786432_S32768x24 : S786432.ShapeCasts S32768x24
  reducesTo_S32768x24x256_S32768x256_d1 : S32768x24x256.ReducesTo [1] S32768x256
  h_S_ : 0 < S_.numel
  reducesTo_S32768x24_S32768_d1 : S32768x24.ReducesTo [1] S32768
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  bcast_S_S32768x256 : S_.BroadcastsInDim S32768x256 (![] : Fin 0 → Fin S32768x256.rank)
  concatenates_S32768x24_S32768x200_S32768x32_S32768x256_d1 : Shape.Concatenates [S32768x24, S32768x200, S32768x32] S32768x256 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  concatenates_S1024x512_S1024x256_S1024x256_S1024x256_S1024x1280_d1 : Shape.Concatenates [S1024x512, S1024x256, S1024x256, S1024x256] S1024x1280 1
  inb_S3x1280x1280_S1x1280x1280_0_0_0 : ∀ a, (![0, 0, 0] : Fin 3 → Nat) a + S1x1280x1280.size a ≤ S3x1280x1280.size a
  h_S1x1280x1280 : 0 < S1x1280x1280.numel
  shapeCasts_S1x1280x1280_S1280x1280 : S1x1280x1280.ShapeCasts S1280x1280
  inb_S3x1280_S1x1280_0_0 : ∀ a, (![0, 0] : Fin 2 → Nat) a + S1x1280.size a ≤ S3x1280.size a
  h_S1x1280 : 0 < S1x1280.numel
  shapeCasts_S1x1280_S1280 : S1x1280.ShapeCasts S1280
  shapeCasts_S1280_S1x1280 : S1280.ShapeCasts S1x1280
  broadcasts_S1x1280_S1024x1280 : S1x1280.Broadcasts S1024x1280
  inb_S3x1280x1280_S1x1280x1280_1_0_0 : ∀ a, (![1, 0, 0] : Fin 3 → Nat) a + S1x1280x1280.size a ≤ S3x1280x1280.size a
  inb_S3x1280_S1x1280_1_0 : ∀ a, (![1, 0] : Fin 2 → Nat) a + S1x1280.size a ≤ S3x1280.size a
  inb_S3x1280x1280_S1x1280x1280_2_0_0 : ∀ a, (![2, 0, 0] : Fin 3 → Nat) a + S1x1280x1280.size a ≤ S3x1280x1280.size a
  inb_S3x1280_S1x1280_2_0 : ∀ a, (![2, 0] : Fin 2 → Nat) a + S1x1280.size a ≤ S3x1280.size a
  inb_S1280x512_S1280x512_0_0 : ∀ a, (![0, 0] : Fin 2 → Nat) a + S1280x512.size a ≤ S1280x512.size a
  h_S1280x512 : 0 < S1280x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  gather_S65536x256_S32768x1_S32768x256_1_0_n_n_0_1_1256_wf : GatherDims.WF S65536x256 S32768x1 S32768x256 [1] [0] [] [0] [] 1 ![1, 256]
  gather_S65536_S32768x1_S32768_n_0_n_n_0_1_1_wf : GatherDims.WF S65536 S32768x1 S32768 [] [0] [] [0] [] 1 ![1]
  gather_S65_S32768x1_S32768_n_0_n_n_0_1_1_wf : GatherDims.WF S65 S32768x1 S32768 [] [0] [] [0] [] 1 ![1]
  gather_S65536x256_S786432x1_S786432x256_1_0_n_n_0_1_1256_wf : GatherDims.WF S65536x256 S786432x1 S786432x256 [1] [0] [] [0] [] 1 ![1, 256]
  dot_S1024x1280_S1280x1280_S1024x1280_1_0_0_1_n_n_wf : DotDims.WF S1024x1280 S1280x1280 S1024x1280 [1] [0] [0] [1] [] []
  dot_S1024x1280_S1280x512_S1024x512_1_0_0_1_n_n_wf : DotDims.WF S1024x1280 S1280x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S32768x256.size a
  hwx0_2 : ∀ i : grid0.Coords, EltTy.bits .f32 = 32 ∨ (Rect.block (s := S32768x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S32768x256.size a
  hwx0_3 : ∀ i : grid0.Coords, EltTy.bits .f32 = 32 ∨ (Rect.block (s := S32768x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1280x1280.size a ≤ S3x1280x1280.size a
  hwx0_4 : ∀ i : grid0.Coords, EltTy.bits .f32 = 32 ∨ (Rect.block (s := S3x1280x1280) S3x1280x1280.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1280.size a ≤ S3x1280.size a
  hwx0_5 : ∀ i : grid0.Coords, EltTy.bits .f32 = 32 ∨ (Rect.block (s := S3x1280) S3x1280.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1280x512.size a ≤ S1280x512.size a
  hwx0_6 : ∀ i : grid0.Coords, EltTy.bits .f32 = 32 ∨ (Rect.block (s := S1280x512) S1280x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S32768x512.size a
  hwx0_8 : ∀ i : grid0.Coords, EltTy.bits .f32 = 32 ∨ (Rect.block (s := S32768x512) S1024x512.size (cc0_transform_8 i) (hinb0_8 i)).WholeWords (EltTy.packing .f32)

variable [Facts₀]

def gather_S65536x256_S32768x1_S32768x256_1_0_n_n_0_1_1256 : GatherDims S65536x256 S32768x1 S32768x256 where
  offsetDims := [1]
  collapsedSliceDims := [0]
  operandBatchingDims := []
  startIndicesBatchingDims := []
  startIndexMap := [0]
  indexVectorDim := 1
  sliceSizes := ![1, 256]
  wf := gather_S65536x256_S32768x1_S32768x256_1_0_n_n_0_1_1256_wf
def gather_S65536_S32768x1_S32768_n_0_n_n_0_1_1 : GatherDims S65536 S32768x1 S32768 where
  offsetDims := []
  collapsedSliceDims := [0]
  operandBatchingDims := []
  startIndicesBatchingDims := []
  startIndexMap := [0]
  indexVectorDim := 1
  sliceSizes := ![1]
  wf := gather_S65536_S32768x1_S32768_n_0_n_n_0_1_1_wf
def gather_S65_S32768x1_S32768_n_0_n_n_0_1_1 : GatherDims S65 S32768x1 S32768 where
  offsetDims := []
  collapsedSliceDims := [0]
  operandBatchingDims := []
  startIndicesBatchingDims := []
  startIndexMap := [0]
  indexVectorDim := 1
  sliceSizes := ![1]
  wf := gather_S65_S32768x1_S32768_n_0_n_n_0_1_1_wf
def gather_S65536x256_S786432x1_S786432x256_1_0_n_n_0_1_1256 : GatherDims S65536x256 S786432x1 S786432x256 where
  offsetDims := [1]
  collapsedSliceDims := [0]
  operandBatchingDims := []
  startIndicesBatchingDims := []
  startIndexMap := [0]
  indexVectorDim := 1
  sliceSizes := ![1, 256]
  wf := gather_S65536x256_S786432x1_S786432x256_1_0_n_n_0_1_1256_wf
def dot_S1024x1280_S1280x1280_S1024x1280_1_0_0_1_n_n : DotDims S1024x1280 S1280x1280 S1024x1280 where
  lhsContracting := [1]
  rhsContracting := [0]
  lhsNonContracting := [0]
  rhsNonContracting := [1]
  lhsBatch := []
  rhsBatch := []
  wf := dot_S1024x1280_S1280x1280_S1024x1280_1_0_0_1_n_n_wf
def dot_S1024x1280_S1280x512_S1024x512_1_0_0_1_n_n : DotDims S1024x1280 S1280x512 S1024x512 where
  lhsContracting := [1]
  rhsContracting := [0]
  lhsNonContracting := [0]
  rhsNonContracting := [1]
  lhsBatch := []
  rhsBatch := []
  wf := dot_S1024x1280_S1280x512_S1024x512_1_0_0_1_n_n_wf

abbrev win0_0 : Pipeline.Window sig grid0 :=
  Pipeline.Window.ofSpec (Memref.whole main_v18) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v91) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v92) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S3x1280x1280.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S3x1280.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S1280x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v93) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x256 : Shape := ⟨2, ![65536, 256]⟩
abbrev S2x32768 : Shape := ⟨2, ![2, 32768]⟩
abbrev S65536 : Shape := ⟨1, ![65536]⟩
abbrev S65 : Shape := ⟨1, ![65]⟩
abbrev S32768x24 : Shape := ⟨2, ![32768, 24]⟩
abbrev S32768x200 : Shape := ⟨2, ![32768, 200]⟩
abbrev S32768x32 : Shape := ⟨2, ![32768, 32]⟩
abbrev S3x1280x1280 : Shape := ⟨3, ![3, 1280, 1280]⟩
abbrev S3x1280 : Shape := ⟨2, ![3, 1280]⟩
abbrev S1280x512 : Shape := ⟨2, ![1280, 512]⟩
abbrev S512 : Shape := ⟨1, ![512]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S32768x256 : Shape := ⟨2, ![32768, 256]⟩
abbrev S32768x512 : Shape := ⟨2, ![32768, 512]⟩
abbrev S786432 : Shape := ⟨1, ![786432]⟩
abbrev S786432x1 : Shape := ⟨2, ![786432, 1]⟩
abbrev S786432x256 : Shape := ⟨2, ![786432, 256]⟩
abbrev S32768x1280 : Shape := ⟨2, ![32768, 1280]⟩
abbrev S1x1280x1280 : Shape := ⟨3, ![1, 1280, 1280]⟩
abbrev S1280x1280 : Shape := ⟨2, ![1280, 1280]⟩
abbrev S1x1280 : Shape := ⟨2, ![1, 1280]⟩
abbrev S1280 : Shape := ⟨1, ![1280]⟩
abbrev S1x512 : Shape := ⟨2, ![1, 512]⟩

abbrev nBuf : Space → Nat
  | .hbm => 222
  | .vmem => 0
  | .smem => 0
  | _ => 0

abbrev hbmTy0_0 (i : Nat) : BufTy := match i % 128 with
  | 0 => ⟨S65536x256, .f32⟩
  | 1 => ⟨S2x32768, .i32⟩
  | 2 => ⟨S65536, .i32⟩
  | 3 => ⟨S65, .i32⟩
  | 4 => ⟨S32768x24, .i32⟩
  | 5 => ⟨S32768x24, .i32⟩
  | 6 => ⟨S32768x24, .f32⟩
  | 7 => ⟨S32768x200, .f32⟩
  | 8 => ⟨S32768x32, .f32⟩
  | 9 => ⟨S3x1280x1280, .f32⟩
  | 10 => ⟨S3x1280, .f32⟩
  | 11 => ⟨S1280x512, .f32⟩
  | 12 => ⟨S512, .f32⟩
  | 13 => ⟨S1x32768, .i32⟩
  | 14 => ⟨S32768, .i32⟩
  | 15 => ⟨S1x32768, .i32⟩
  | 16 => ⟨S32768, .i32⟩
  | 17 => ⟨S_, .i32⟩
  | 18 => ⟨S32768, .i32⟩
  | 19 => ⟨S32768, .i1⟩
  | 20 => ⟨S_, .i32⟩
  | 21 => ⟨S32768, .i32⟩
  | 22 => ⟨S32768, .i32⟩
  | 23 => ⟨S32768, .i32⟩
  | 24 => ⟨S32768x1, .i32⟩
  | 25 => ⟨S32768x256, .f32⟩
  | 26 => ⟨S_, .i32⟩
  | 27 => ⟨S32768, .i32⟩
  | 28 => ⟨S32768, .i1⟩
  | 29 => ⟨S_, .i32⟩
  | 30 => ⟨S32768, .i32⟩
  | 31 => ⟨S32768, .i32⟩
  | 32 => ⟨S32768, .i32⟩
  | 33 => ⟨S32768x1, .i32⟩
  | 34 => ⟨S32768x256, .f32⟩
  | 35 => ⟨S32768x512, .f32⟩
  | 36 => ⟨S_, .i32⟩
  | 37 => ⟨S32768, .i32⟩
  | 38 => ⟨S32768, .i1⟩
  | 39 => ⟨S_, .i32⟩
  | 40 => ⟨S32768, .i32⟩
  | 41 => ⟨S32768, .i32⟩
  | 42 => ⟨S32768, .i32⟩
  | 43 => ⟨S32768x1, .i32⟩
  | 44 => ⟨S32768, .i32⟩
  | 45 => ⟨S_, .i32⟩
  | 46 => ⟨S32768, .i32⟩
  | 47 => ⟨S32768, .i1⟩
  | 48 => ⟨S_, .i32⟩
  | 49 => ⟨S32768, .i32⟩
  | 50 => ⟨S32768, .i32⟩
  | 51 => ⟨S32768, .i32⟩
  | 52 => ⟨S32768x1, .i32⟩
  | 53 => ⟨S32768, .i32⟩
  | 54 => ⟨S32768x1, .i32⟩
  | 55 => ⟨S32768x24, .i32⟩
  | 56 => ⟨S32768x24, .i32⟩
  | 57 => ⟨S32768, .i32⟩
  | 58 => ⟨S32768x24, .i32⟩
  | 59 => ⟨S786432, .i32⟩
  | 60 => ⟨S786432, .i32⟩
  | 61 => ⟨S_, .i32⟩
  | 62 => ⟨S786432, .i32⟩
  | 63 => ⟨S786432, .i1⟩
  | 64 => ⟨S786432, .f32⟩
  | 65 => ⟨S_, .i32⟩
  | 66 => ⟨S786432, .i32⟩
  | 67 => ⟨S786432, .i1⟩
  | 68 => ⟨S_, .i32⟩
  | 69 => ⟨S786432, .i32⟩
  | 70 => ⟨S786432, .i32⟩
  | 71 => ⟨S786432, .i32⟩
  | 72 => ⟨S786432x1, .i32⟩
  | 73 => ⟨S786432x256, .f32⟩
  | 74 => ⟨S786432x1, .f32⟩
  | 75 => ⟨S786432x256, .f32⟩
  | 76 => ⟨S786432x256, .f32⟩
  | 77 => ⟨S_, .f32⟩
  | 78 => ⟨S32768x256, .f32⟩
  | 79 => ⟨S786432x1, .i32⟩
  | 80 => ⟨S32768x256, .f32⟩
  | 81 => ⟨S_, .f32⟩
  | 82 => ⟨S32768, .f32⟩
  | 83 => ⟨S786432x1, .i32⟩
  | 84 => ⟨S32768, .f32⟩
  | 85 => ⟨S32768x1, .f32⟩
  | 86 => ⟨S_, .f32⟩
  | 87 => ⟨S32768x1, .f32⟩
  | 88 => ⟨S32768x1, .i1⟩
  | 89 => ⟨S_, .f32⟩
  | 90 => ⟨S32768, .f32⟩
  | 91 => ⟨S32768, .f32⟩
  | 92 => ⟨S32768x1, .f32⟩
  | 93 => ⟨S32768x256, .f32⟩
  | 94 => ⟨S32768x256, .f32⟩
  | 95 => ⟨S_, .f32⟩
  | 96 => ⟨S_, .f32⟩
  | 97 => ⟨S32768x256, .i1⟩
  | 98 => ⟨S32768x256, .f32⟩
  | 99 => ⟨S32768x256, .f32⟩
  | 100 => ⟨S32768x24, .i32⟩
  | 101 => ⟨S32768x24, .i32⟩
  | 102 => ⟨S32768, .i32⟩
  | 103 => ⟨S32768x24, .i32⟩
  | 104 => ⟨S786432, .i32⟩
  | 105 => ⟨S786432, .i32⟩
  | 106 => ⟨S_, .i32⟩
  | 107 => ⟨S786432, .i32⟩
  | 108 => ⟨S786432, .i1⟩
  | 109 => ⟨S786432, .f32⟩
  | 110 => ⟨S_, .i32⟩
  | 111 => ⟨S786432, .i32⟩
  | 112 => ⟨S786432, .i1⟩
  | 113 => ⟨S_, .i32⟩
  | 114 => ⟨S786432, .i32⟩
  | 115 => ⟨S786432, .i32⟩
  | 116 => ⟨S786432, .i32⟩
  | 117 => ⟨S786432x1, .i32⟩
  | 118 => ⟨S786432x256, .f32⟩
  | 119 => ⟨S786432x1, .f32⟩
  | 120 => ⟨S786432x256, .f32⟩
  | 121 => ⟨S786432x256, .f32⟩
  | 122 => ⟨S_, .f32⟩
  | 123 => ⟨S32768x256, .f32⟩
  | 124 => ⟨S786432x1, .i32⟩
  | 125 => ⟨S32768x256, .f32⟩
  | 126 => ⟨S_, .f32⟩
  | 127 => ⟨S32768, .f32⟩
  | _ => ⟨S65536x256, .f32⟩

abbrev hbmTy0_1 (i : Nat) : BufTy := match i % 128 with
  | 0 => ⟨S786432x1, .i32⟩
  | 1 => ⟨S32768, .f32⟩
  | 2 => ⟨S32768x1, .f32⟩
  | 3 => ⟨S_, .f32⟩
  | 4 => ⟨S32768x1, .f32⟩
  | 5 => ⟨S32768x1, .i1⟩
  | 6 => ⟨S_, .f32⟩
  | 7 => ⟨S32768, .f32⟩
  | 8 => ⟨S32768, .f32⟩
  | 9 => ⟨S32768x1, .f32⟩
  | 10 => ⟨S32768x256, .f32⟩
  | 11 => ⟨S32768x256, .f32⟩
  | 12 => ⟨S_, .f32⟩
  | 13 => ⟨S_, .f32⟩
  | 14 => ⟨S32768x256, .i1⟩
  | 15 => ⟨S32768x256, .f32⟩
  | 16 => ⟨S32768x256, .f32⟩
  | 17 => ⟨S32768x1280, .f32⟩
  | 18 => ⟨S1x1280x1280, .f32⟩
  | 19 => ⟨S1280x1280, .f32⟩
  | 20 => ⟨S32768x1280, .f32⟩
  | 21 => ⟨S1x1280, .f32⟩
  | 22 => ⟨S1280, .f32⟩
  | 23 => ⟨S1x1280, .f32⟩
  | 24 => ⟨S32768x1280, .f32⟩
  | 25 => ⟨S32768x1280, .f32⟩
  | 26 => ⟨S_, .f32⟩
  | 27 => ⟨S32768x1280, .f32⟩
  | 28 => ⟨S32768x1280, .i1⟩
  | 29 => ⟨S_, .f32⟩
  | 30 => ⟨S32768x1280, .f32⟩
  | 31 => ⟨S32768x1280, .i1⟩
  | 32 => ⟨S_, .f32⟩
  | 33 => ⟨S_, .f32⟩
  | 34 => ⟨S32768x1280, .f32⟩
  | 35 => ⟨S32768x1280, .f32⟩
  | 36 => ⟨S32768x1280, .f32⟩
  | 37 => ⟨S_, .f32⟩
  | 38 => ⟨S32768x1280, .f32⟩
  | 39 => ⟨S32768x1280, .f32⟩
  | 40 => ⟨S32768x1280, .f32⟩
  | 41 => ⟨S32768x1280, .f32⟩
  | 42 => ⟨S1x1280x1280, .f32⟩
  | 43 => ⟨S1280x1280, .f32⟩
  | 44 => ⟨S32768x1280, .f32⟩
  | 45 => ⟨S1x1280, .f32⟩
  | 46 => ⟨S1280, .f32⟩
  | 47 => ⟨S1x1280, .f32⟩
  | 48 => ⟨S32768x1280, .f32⟩
  | 49 => ⟨S32768x1280, .f32⟩
  | 50 => ⟨S_, .f32⟩
  | 51 => ⟨S32768x1280, .f32⟩
  | 52 => ⟨S32768x1280, .i1⟩
  | 53 => ⟨S_, .f32⟩
  | 54 => ⟨S32768x1280, .f32⟩
  | 55 => ⟨S32768x1280, .i1⟩
  | 56 => ⟨S_, .f32⟩
  | 57 => ⟨S_, .f32⟩
  | 58 => ⟨S32768x1280, .f32⟩
  | 59 => ⟨S32768x1280, .f32⟩
  | 60 => ⟨S32768x1280, .f32⟩
  | 61 => ⟨S_, .f32⟩
  | 62 => ⟨S32768x1280, .f32⟩
  | 63 => ⟨S32768x1280, .f32⟩
  | 64 => ⟨S32768x1280, .f32⟩
  | 65 => ⟨S32768x1280, .f32⟩
  | 66 => ⟨S1x1280x1280, .f32⟩
  | 67 => ⟨S1280x1280, .f32⟩
  | 68 => ⟨S32768x1280, .f32⟩
  | 69 => ⟨S1x1280, .f32⟩
  | 70 => ⟨S1280, .f32⟩
  | 71 => ⟨S1x1280, .f32⟩
  | 72 => ⟨S32768x1280, .f32⟩
  | 73 => ⟨S32768x1280, .f32⟩
  | 74 => ⟨S_, .f32⟩
  | 75 => ⟨S32768x1280, .f32⟩
  | 76 => ⟨S32768x1280, .i1⟩
  | 77 => ⟨S_, .f32⟩
  | 78 => ⟨S32768x1280, .f32⟩
  | 79 => ⟨S32768x1280, .i1⟩
  | 80 => ⟨S_, .f32⟩
  | 81 => ⟨S_, .f32⟩
  | 82 => ⟨S32768x1280, .f32⟩
  | 83 => ⟨S32768x1280, .f32⟩
  | 84 => ⟨S32768x1280, .f32⟩
  | 85 => ⟨S_, .f32⟩
  | 86 => ⟨S32768x1280, .f32⟩
  | 87 => ⟨S32768x1280, .f32⟩
  | 88 => ⟨S32768x1280, .f32⟩
  | 89 => ⟨S32768x1280, .f32⟩
  | 90 => ⟨S32768x512, .f32⟩
  | 91 => ⟨S1x512, .f32⟩
  | 92 => ⟨S32768x512, .f32⟩
  | 93 => ⟨S32768x512, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_15 : Ref sig .tc := ⟨.hbm, 110, rfl⟩
abbrev main_v77 : Ref sig .tc := ⟨.hbm, 111, rfl⟩
abbrev main_v78 : Ref sig .tc := ⟨.hbm, 112, rfl⟩
abbrev main_c_16 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_19 : Ref sig .tc := ⟨.hbm, 131, rfl⟩
abbrev main_v94 : Ref sig .tc := ⟨.hbm, 132, rfl⟩
abbrev main_v95 : Ref sig .tc := ⟨.hbm, 133, rfl⟩
abbrev main_cst_20 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_21 : Ref sig .tc := ⟨.hbm, 140, rfl⟩
abbrev main_call1_v0 : Ref sig .tc := ⟨.hbm, 141, rfl⟩
abbrev main_call1_v1 : Ref sig .tc := ⟨.hbm, 142, rfl⟩
abbrev main_call1_v2 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_call2_cst : Ref sig .tc := ⟨.hbm, 154, rfl⟩
abbrev main_call2_v0 : Ref sig .tc := ⟨.hbm, 155, rfl⟩
abbrev main_call2_v1 : Ref sig .tc := ⟨.hbm, 156, rfl⟩
abbrev main_call2_cst_0 : Ref sig .tc := ⟨.hbm, 157, rfl⟩
abbrev main_call2_v2 : Ref sig .tc := ⟨.hbm, 158, rfl⟩
abbrev main_call2_v3 : Ref sig .tc := ⟨.hbm, 159, rfl⟩
abbrev main_call2_cst_1 : Ref sig .tc := ⟨.hbm, 160, rfl⟩
abbrev main_call2_call0_v0 : Ref sig .tc := ⟨.hbm, 161, rfl⟩
abbrev main_call2_call0_v1 : Ref sig .tc := ⟨.hbm, 162, rfl⟩
abbrev main_call2_v4 : Ref sig .tc := ⟨.hbm, 163, rfl⟩
abbrev main_call2_v5 : Ref sig .tc := ⟨.hbm, 164, rfl⟩
abbrev main_call2_cst_2 : Ref sig .tc := ⟨.hbm, 165, rfl⟩
abbrev main_call2_v6 : Ref sig .tc := ⟨.hbm, 166, rfl⟩
abbrev main_call2_v7 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_call3_cst : Ref sig .tc := ⟨.hbm, 178, rfl⟩
abbrev main_call3_v0 : Ref sig .tc := ⟨.hbm, 179, rfl⟩
abbrev main_call3_v1 : Ref sig .tc := ⟨.hbm, 180, rfl⟩
abbrev main_call3_cst_0 : Ref sig .tc := ⟨.hbm, 181, rfl⟩
abbrev main_call3_v2 : Ref sig .tc := ⟨.hbm, 182, rfl⟩
abbrev main_call3_v3 : Ref sig .tc := ⟨.hbm, 183, rfl⟩
abbrev main_call3_cst_1 : Ref sig .tc := ⟨.hbm, 184, rfl⟩
abbrev main_call3_call0_v0 : Ref sig .tc := ⟨.hbm, 185, rfl⟩
abbrev main_call3_call0_v1 : Ref sig .tc := ⟨.hbm, 186, rfl⟩
abbrev main_call3_v4 : Ref sig .tc := ⟨.hbm, 187, rfl⟩
abbrev main_call3_v5 : Ref sig .tc := ⟨.hbm, 188, rfl⟩
abbrev main_call3_cst_2 : Ref sig .tc := ⟨.hbm, 189, rfl⟩
abbrev main_call3_v6 : Ref sig .tc := ⟨.hbm, 190, rfl⟩
abbrev main_call3_v7 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_call4_cst : Ref sig .tc := ⟨.hbm, 202, rfl⟩
abbrev main_call4_v0 : Ref sig .tc := ⟨.hbm, 203, rfl⟩
abbrev main_call4_v1 : Ref sig .tc := ⟨.hbm, 204, rfl⟩
abbrev main_call4_cst_0 : Ref sig .tc := ⟨.hbm, 205, rfl⟩
abbrev main_call4_v2 : Ref sig .tc := ⟨.hbm, 206, rfl⟩
abbrev main_call4_v3 : Ref sig .tc := ⟨.hbm, 207, rfl⟩
abbrev main_call4_cst_1 : Ref sig .tc := ⟨.hbm, 208, rfl⟩
abbrev main_call4_call0_v0 : Ref sig .tc := ⟨.hbm, 209, rfl⟩
abbrev main_call4_call0_v1 : Ref sig .tc := ⟨.hbm, 210, rfl⟩
abbrev main_call4_v4 : Ref sig .tc := ⟨.hbm, 211, rfl⟩
abbrev main_call4_v5 : Ref sig .tc := ⟨.hbm, 212, rfl⟩
abbrev main_call4_cst_2 : Ref sig .tc := ⟨.hbm, 213, rfl⟩
abbrev main_call4_v6 : Ref sig .tc := ⟨.hbm, 214, rfl⟩
abbrev main_call4_v7 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩

abbrev nD : Nat := 1
abbrev τ : Topo := Topo.v7x

variable {F : FTy → Type} [FloatOps F]

class Facts₀ : Prop where
  slices_S2x32768_S1x32768_0_0 : S2x32768.Slices ![0, 0] S1x32768
  shapeCasts_S1x32768_S32768 : S1x32768.ShapeCasts S32768
  slices_S2x32768_S1x32768_1_0 : S2x32768.Slices ![1, 0] S1x32768
  bcast_S_S32768 : S_.BroadcastsInDim S32768 (![] : Fin 0 → Fin S32768.rank)
  bcast_S32768_S32768x1_0 : S32768.BroadcastsInDim S32768x1 (![0] : Fin 1 → Fin S32768x1.rank)
  concatenates_S32768x256_S32768x256_S32768x512_d1 : Shape.Concatenates [S32768x256, S32768x256] S32768x512 1
  bcast_S32768x1_S32768x24_0_1 : S32768x1.BroadcastsInDim S32768x24 (![0, 1] : Fin 2 → Fin S32768x24.rank)
  bcast_S32768_S32768x24_0 : S32768.BroadcastsInDim S32768x24 (![0] : Fin 1 → Fin S32768x24.rank)
  shapeCasts_S32768x24_S786432 : S32768x24.ShapeCasts S786432
  bcast_S_S786432 : S_.BroadcastsInDim S786432 (![] : Fin 0 → Fin S786432.rank)
  bcast_S786432_S786432x1_0 : S786432.BroadcastsInDim S786432x1 (![0] : Fin 1 → Fin S786432x1.rank)
  bcast_S786432x1_S786432x256_0_1 : S786432x1.BroadcastsInDim S786432x256 (![0, 1] : Fin 2 → Fin S786432x256.rank)
  bcast_S_S32768x256 : S_.BroadcastsInDim S32768x256 (![] : Fin 0 → Fin S32768x256.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  concatenates_S32768x512_S32768x256_S32768x256_S32768x24_S32768x200_S32768x32_S32768x1280_d1 : Shape.Concatenates [S32768x512, S32768x256, S32768x256, S32768x24, S32768x200, S32768x32] S32768x1280 1
  slices_S3x1280x1280_S1x1280x1280_0_0_0 : S3x1280x1280.Slices ![0, 0, 0] S1x1280x1280
  shapeCasts_S1x1280x1280_S1280x1280 : S1x1280x1280.ShapeCasts S1280x1280
  slices_S3x1280_S1x1280_0_0 : S3x1280.Slices ![0, 0] S1x1280
  shapeCasts_S1x1280_S1280 : S1x1280.ShapeCasts S1280
  bcast_S1280_S1x1280_1 : S1280.BroadcastsInDim S1x1280 (![1] : Fin 1 → Fin S1x1280.rank)
  bcast_S1x1280_S32768x1280_0_1 : S1x1280.BroadcastsInDim S32768x1280 (![0, 1] : Fin 2 → Fin S32768x1280.rank)
  bcast_S_S32768x1280 : S_.BroadcastsInDim S32768x1280 (![] : Fin 0 → Fin S32768x1280.rank)
  slices_S3x1280x1280_S1x1280x1280_1_0_0 : S3x1280x1280.Slices ![1, 0, 0] S1x1280x1280
  slices_S3x1280_S1x1280_1_0 : S3x1280.Slices ![1, 0] S1x1280
  slices_S3x1280x1280_S1x1280x1280_2_0_0 : S3x1280x1280.Slices ![2, 0, 0] S1x1280x1280
  slices_S3x1280_S1x1280_2_0 : S3x1280.Slices ![2, 0] S1x1280
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  gather_S65536x256_S32768x1_S32768x256_1_0_n_n_0_1_1256_wf : GatherDims.WF S65536x256 S32768x1 S32768x256 [1] [0] [] [0] [] 1 ![1, 256]
  gather_S65536_S32768x1_S32768_n_0_n_n_0_1_1_wf : GatherDims.WF S65536 S32768x1 S32768 [] [0] [] [0] [] 1 ![1]
  gather_S65_S32768x1_S32768_n_0_n_n_0_1_1_wf : GatherDims.WF S65 S32768x1 S32768 [] [0] [] [0] [] 1 ![1]
  gather_S65536x256_S786432x1_S786432x256_1_0_n_n_0_1_1256_wf : GatherDims.WF S65536x256 S786432x1 S786432x256 [1] [0] [] [0] [] 1 ![1, 256]
  scatter_S32768x256_S786432x1_S786432x256_1_0_0_1_wf : ScatterDims.WF S32768x256 S786432x1 S786432x256 [1] [0] [0] 1
  scatter_S32768_S786432x1_S786432_n_0_0_1_wf : ScatterDims.WF S32768 S786432x1 S786432 [] [0] [0] 1
  dot_S32768x1280_S1280x1280_S32768x1280_1_0_0_1_n_n_wf : DotDims.WF S32768x1280 S1280x1280 S32768x1280 [1] [0] [0] [1] [] []
  dot_S32768x1280_S1280x512_S32768x512_1_0_0_1_n_n_wf : DotDims.WF S32768x1280 S1280x512 S32768x512 [1] [0] [0] [1] [] []

variable [Facts₀]

def gather_S65536x256_S32768x1_S32768x256_1_0_n_n_0_1_1256 : GatherDims S65536x256 S32768x1 S32768x256 where
  offsetDims := [1]
  collapsedSliceDims := [0]
  operandBatchingDims := []
  startIndicesBatchingDims := []
  startIndexMap := [0]
  indexVectorDim := 1
  sliceSizes := ![1, 256]
  wf := gather_S65536x256_S32768x1_S32768x256_1_0_n_n_0_1_1256_wf
def gather_S65536_S32768x1_S32768_n_0_n_n_0_1_1 : GatherDims S65536 S32768x1 S32768 where
  offsetDims := []
  collapsedSliceDims := [0]
  operandBatchingDims := []
  startIndicesBatchingDims := []
  startIndexMap := [0]
  indexVectorDim := 1
  sliceSizes := ![1]
  wf := gather_S65536_S32768x1_S32768_n_0_n_n_0_1_1_wf
def gather_S65_S32768x1_S32768_n_0_n_n_0_1_1 : GatherDims S65 S32768x1 S32768 where
  offsetDims := []
  collapsedSliceDims := [0]
  operandBatchingDims := []
  startIndicesBatchingDims := []
  startIndexMap := [0]
  indexVectorDim := 1
  sliceSizes := ![1]
  wf := gather_S65_S32768x1_S32768_n_0_n_n_0_1_1_wf
def gather_S65536x256_S786432x1_S786432x256_1_0_n_n_0_1_1256 : GatherDims S65536x256 S786432x1 S786432x256 where
  offsetDims := [1]
  collapsedSliceDims := [0]
  operandBatchingDims := []
  startIndicesBatchingDims := []
  startIndexMap := [0]
  indexVectorDim := 1
  sliceSizes := ![1, 256]
  wf := gather_S65536x256_S786432x1_S786432x256_1_0_n_n_0_1_1256_wf
def scatter_S32768x256_S786432x1_S786432x256_1_0_0_1 : ScatterDims S32768x256 S786432x1 S786432x256 where
  updateWindowDims := [1]
  insertedWindowDims := [0]
  scatterDimsToOperandDims := [0]
  indexVectorDim := 1
  wf := scatter_S32768x256_S786432x1_S786432x256_1_0_0_1_wf
def scatter_S32768_S786432x1_S786432_n_0_0_1 : ScatterDims S32768 S786432x1 S786432 where
  updateWindowDims := []
  insertedWindowDims := [0]
  scatterDimsToOperandDims := [0]
  indexVectorDim := 1
  wf := scatter_S32768_S786432x1_S786432_n_0_0_1_wf
def dot_S32768x1280_S1280x1280_S32768x1280_1_0_0_1_n_n : DotDims S32768x1280 S1280x1280 S32768x1280 where
  lhsContracting := [1]
  rhsContracting := [0]
  lhsNonContracting := [0]
  rhsNonContracting := [1]
  lhsBatch := []
  rhsBatch := []
  wf := dot_S32768x1280_S1280x1280_S32768x1280_1_0_0_1_n_n_wf
def dot_S32768x1280_S1280x512_S32768x512_1_0_0_1_n_n : DotDims S32768x1280 S1280x512 S32768x512 where
  lhsContracting := [1]
  rhsContracting := [0]
  lhsNonContracting := [0]
  rhsNonContracting := [1]
  lhsBatch := []
  rhsBatch := []
  wf := dot_S32768x1280_S1280x512_S32768x512_1_0_0_1_n_n_wf

class Facts : Prop extends Facts₀ where

variable [Facts]
-- ==== Proof.RegionData.lean ====
/-
  The data of the frame run of the one kernel region of this program, at any float instance `F`.

  * `V m c`: what core `c`'s buffers hold when the region is entered, i.e. the launch memory `m` after the
    five stretches of host operations that precede the region, in order.
  * `iblk m c w t`: the block of window `w` at grid point `t`, read off the window's array as the region finds it.
  * the literal rectangles through which the body reads and writes its nine staging buffers.
  * `out0_8`: what the body leaves in the output window's buffer, as a function of the eight input blocks:
    one store covering the whole buffer, whose payload is the three-layer network applied to the
    concatenated inputs (layers 0 and 1 computed by the first half of the body, layer 2 and the
    projection by the second half).
  * `dats`: the proof data of the pipeline: arrays as the region finds them, inputs left in place,
    the output buffer at `out0_8` of the input blocks, nothing owed, full shares.
-/
import proofs.«105842_j30374008717369_2_alg».proof.Proof.Gen.KernelIdeal.Launch
import proofs.«105842_j30374008717369_2_alg».proof.Proof.Gen.KernelIdeal.Skeleton
import proofs.«105842_j30374008717369_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-! ## The buffers at the region's entry -/

/-- Core `c`'s TensorCore buffers when the region is entered: the launch memory after the five stretches of
    host operations before the region, in program order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles -/

/-- The whole of a 1024 × 512 buffer (input 0 and the output). -/
abbrev rX : Rect S1024x512 := Rect.unit (s := S1024x512) ![0, 0] S1024x512.size inb_S1024x512_S1024x512_0_0
/-- The whole of a 1024 × 256 buffer (inputs 1, 2, 3). -/
abbrev rY : Rect S1024x256 := Rect.unit (s := S1024x256) ![0, 0] S1024x256.size inb_S1024x256_S1024x256_0_0
/-- Layer `k`'s 1280 × 1280 weight matrix inside the stacked weights. -/
abbrev rW0 : Rect S3x1280x1280 := Rect.unit (s := S3x1280x1280) ![0, 0, 0] S1x1280x1280.size inb_S3x1280x1280_S1x1280x1280_0_0_0
abbrev rW1 : Rect S3x1280x1280 := Rect.unit (s := S3x1280x1280) ![1, 0, 0] S1x1280x1280.size inb_S3x1280x1280_S1x1280x1280_1_0_0
abbrev rW2 : Rect S3x1280x1280 := Rect.unit (s := S3x1280x1280) ![2, 0, 0] S1x1280x1280.size inb_S3x1280x1280_S1x1280x1280_2_0_0
/-- Layer `k`'s bias row inside the stacked biases. -/
abbrev rB0 : Rect S3x1280 := Rect.unit (s := S3x1280) ![0, 0] S1x1280.size inb_S3x1280_S1x1280_0_0
abbrev rB1 : Rect S3x1280 := Rect.unit (s := S3x1280) ![1, 0] S1x1280.size inb_S3x1280_S1x1280_1_0
abbrev rB2 : Rect S3x1280 := Rect.unit (s := S3x1280) ![2, 0] S1x1280.size inb_S3x1280_S1x1280_2_0
/-- The whole projection matrix and the whole projection bias. -/
abbrev rP : Rect S1280x512 := Rect.unit (s := S1280x512) ![0, 0] S1280x512.size inb_S1280x512_S1280x512_0_0
abbrev rQ : Rect S512 := Rect.unit (s := S512) ![0] S512.size inb_S512_S512_0

/-! ## What the body leaves in the output window's buffer -/

/-- The output buffer after the body, from the eight input blocks: its one store, which covers the buffer.
    The payload is the projection of the third layer's output; the first two arguments are the first layer's
    output and the second layer's product, the third the second layer's broadcast bias. -/
def out0_8 (x0 : Vec F S1024x512 .f32) (x1 x2 x3 : Vec F S1024x256 .f32) (x4 : Vec F S3x1280x1280 .f32)
    (x5 : Vec F S3x1280 .f32) (x6 : Vec F S1280x512 .f32) (x7 : Vec F S512 .f32) : Vec F S1024x512 .f32 :=
  View.canon [⟨rX, k0_pay4
    (k0_pay1 (View.ld x0 rX) (View.ld x1 rY) (View.ld x2 rY) (View.ld x3 rY) (View.ld x4 rW0) (View.ld x5 rB0))
    (k0_pay2 (View.ld x0 rX) (View.ld x1 rY) (View.ld x2 rY) (View.ld x3 rY) (View.ld x4 rW0) (View.ld x5 rB0) (View.ld x4 rW1))
    (k0_pay3 (View.ld x5 rB1))
    (View.ld x4 rW2) (View.ld x5 rB2) (View.ld x6 rP) (View.ld x7 rQ)⟩]

/-! ## The pipeline's proof data -/

/-- The proof data of the pipeline on core `c`: the arrays as the region finds them; after the body at point `t`
    each input's buffer at its block and the output's at `out0_8` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by
  dsimp only [dats]

end Cert.KernelIdeal.Hand

end
-- ==== Proof.RegionRun.lean ====
/-
  The frame run of the one kernel region of this program, at any float instance `F`.

  The body reads its eight input buffers through literal rectangles, reads the output buffer once
  (the value is not used) and then overwrites the whole output buffer with one store. So whatever the
  output buffer held before the body, after it the buffer holds `out0_8` of the eight input blocks.
  From that: the body's triple, the pipeline's body obligation at every grid point, the run of the whole
  program up to the region's post, and the statement that every argument array ends as it was launched.
-/
import proofs.«105842_j30374008717369_2_alg».proof.Proof.RegionData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The one store covers the output buffer -/

/-- The store's rectangle is the whole buffer, so every index lies in it. -/
theorem cover0_8 (p0 : Vec F S1024x512 .f32) (y : S1024x512.Idx) :
    ∃ pc ∈ ([⟨rX, p0⟩] : List (View.Piece (Elt F) S1024x512 .f32)), y ∈ pc.1.set :=
  View.cover_of_tiled [⟨rX, p0⟩] S1024x512.size (by rfl) y

/-! ## The body's triple -/

set_option maxHeartbeats 4000000 in
/-- The body on whole staging memrefs, the eight inputs' at read contents `x0 … x7` and the output's at anything,
    runs to the continuation holding the inputs' as they were and the output's at `out0_8` of the inputs. -/
theorem sound_kernel (c : Dev nD) (E : Set ℕ) (i : grid0.Coords)
    (arg1 : Memref sig .tc .vmem S1024x512 .f32) (harg1 : arg1.IsWhole)
    (arg2 : Memref sig .tc .vmem S1024x256 .f32) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S3x1280x1280 .f32) (harg5 : arg5.IsWhole)
    (arg6 : Memref sig .tc .vmem S3x1280 .f32) (harg6 : arg6.IsWhole)
    (arg7 : Memref sig .tc .vmem S1280x512 .f32) (harg7 : arg7.IsWhole)
    (arg8 : Memref sig .tc .vmem S512 .f32) (harg8 : arg8.IsWhole)
    (arg9 : Memref sig .tc .vmem S1024x512 .f32) (harg9 : arg9.IsWhole)
    (x0 : Vec F S1024x512 .f32) (x1 x2 x3 : Vec F S1024x256 .f32) (x4 : Vec F S3x1280x1280 .f32)
    (x5 : Vec F S3x1280 .f32) (x6 : Vec F S1280x512 .f32) (x7 : Vec F S512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9) K := by
  simp only [cc0__mlp_kernel_eq_skeleton]; unfold cc0__mlp_kernel_skel
  simp only [k0_part2_eq_skeleton]; unfold k0_part2_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## What the body finds in the input windows' buffers -/

/-- An input window's current staging buffer holds its block at every point, whether or not the pipeline fetched it
    there (windows 4 to 7 are fetched at the first point only: unfetched, the block index has not moved), for any
    proof data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- The body at any point: the inputs' memrefs hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The program up to the region -/

/-- No host operation before the region allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program up to the region: the five stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The run -/

set_option backward.isDefEq.respectTransparency.types false in
/-- From any memory with zero counters, every weakly fair execution of the program on the TensorCores terminates, and
    every final state has every array of the pipeline at what the proof data gives and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The argument arrays at the region's entry -/

/-- No host operation before the region writes an argument array (each writes its own result buffer only):
    the region finds every argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

/-! ## The frame -/

/-- Every argument array ends as it was launched: arguments 9 to 12 are the arrays of input windows 4 to 7, which
    the pipeline only reads; arguments 0 to 8 are staged by no window and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 4).trans (((dats m 0 c).arrAt_in 4 rfl _).trans ((A_eq m c 4).trans (V_main_arg9 m c))),
      ((h c).1 5).trans (((dats m 0 c).arrAt_in 5 rfl _).trans ((A_eq m c 5).trans (V_main_arg10 m c))),
      ((h c).1 6).trans (((dats m 0 c).arrAt_in 6 rfl _).trans ((A_eq m c 6).trans (V_main_arg11 m c))),
      ((h c).1 7).trans (((dats m 0 c).arrAt_in 7 rfl _).trans ((A_eq m c 7).trans (V_main_arg12 m c)))⟩) (run_main m ρ)

end Cert.KernelIdeal.Hand

end
-- ==== Proof.RegionDataBits.lean ====
/-
  The data of the frame run of the one kernel region of the word-level program, at any float instance `F`
  (the same text as for the exact-arithmetic reading of the program: no operation differs).

  * `V m c`: what core `c`'s buffers hold when the region is entered, i.e. the launch memory `m` after the
    five stretches of host operations that precede the region, in order.
  * `iblk m c w t`: the block of window `w` at grid point `t`, read off the window's array as the region finds it.
  * the literal rectangles through which the body reads and writes its nine staging buffers.
  * `out0_8`: what the body leaves in the output window's buffer, as a function of the eight input blocks:
    one store covering the whole buffer, whose payload is the three-layer network applied to the
    concatenated inputs (layers 0 and 1 computed by the first half of the body, layer 2 and the
    projection by the second half).
  * `dats`: the proof data of the pipeline: arrays as the region finds them, inputs left in place,
    the output buffer at `out0_8` of the input blocks, nothing owed, full shares.
-/
import proofs.«105842_j30374008717369_2_alg».proof.Proof.Gen.Kernel.Launch
import proofs.«105842_j30374008717369_2_alg».proof.Proof.Gen.Kernel.Skeleton
import proofs.«105842_j30374008717369_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-! ## The buffers at the region's entry -/

/-- Core `c`'s TensorCore buffers when the region is entered: the launch memory after the five stretches of
    host operations before the region, in program order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles -/

/-- The whole of a 1024 × 512 buffer (input 0 and the output). -/
abbrev rX : Rect S1024x512 := Rect.unit (s := S1024x512) ![0, 0] S1024x512.size inb_S1024x512_S1024x512_0_0
/-- The whole of a 1024 × 256 buffer (inputs 1, 2, 3). -/
abbrev rY : Rect S1024x256 := Rect.unit (s := S1024x256) ![0, 0] S1024x256.size inb_S1024x256_S1024x256_0_0
/-- Layer `k`'s 1280 × 1280 weight matrix inside the stacked weights. -/
abbrev rW0 : Rect S3x1280x1280 := Rect.unit (s := S3x1280x1280) ![0, 0, 0] S1x1280x1280.size inb_S3x1280x1280_S1x1280x1280_0_0_0
abbrev rW1 : Rect S3x1280x1280 := Rect.unit (s := S3x1280x1280) ![1, 0, 0] S1x1280x1280.size inb_S3x1280x1280_S1x1280x1280_1_0_0
abbrev rW2 : Rect S3x1280x1280 := Rect.unit (s := S3x1280x1280) ![2, 0, 0] S1x1280x1280.size inb_S3x1280x1280_S1x1280x1280_2_0_0
/-- Layer `k`'s bias row inside the stacked biases. -/
abbrev rB0 : Rect S3x1280 := Rect.unit (s := S3x1280) ![0, 0] S1x1280.size inb_S3x1280_S1x1280_0_0
abbrev rB1 : Rect S3x1280 := Rect.unit (s := S3x1280) ![1, 0] S1x1280.size inb_S3x1280_S1x1280_1_0
abbrev rB2 : Rect S3x1280 := Rect.unit (s := S3x1280) ![2, 0] S1x1280.size inb_S3x1280_S1x1280_2_0
/-- The whole projection matrix and the whole projection bias. -/
abbrev rP : Rect S1280x512 := Rect.unit (s := S1280x512) ![0, 0] S1280x512.size inb_S1280x512_S1280x512_0_0
abbrev rQ : Rect S512 := Rect.unit (s := S512) ![0] S512.size inb_S512_S512_0

/-! ## What the body leaves in the output window's buffer -/

/-- The output buffer after the body, from the eight input blocks: its one store, which covers the buffer.
    The payload is the projection of the third layer's output; the first two arguments are the first layer's
    output and the second layer's product, the third the second layer's broadcast bias. -/
def out0_8 (x0 : Vec F S1024x512 .f32) (x1 x2 x3 : Vec F S1024x256 .f32) (x4 : Vec F S3x1280x1280 .f32)
    (x5 : Vec F S3x1280 .f32) (x6 : Vec F S1280x512 .f32) (x7 : Vec F S512 .f32) : Vec F S1024x512 .f32 :=
  View.canon [⟨rX, k0_pay4
    (k0_pay1 (View.ld x0 rX) (View.ld x1 rY) (View.ld x2 rY) (View.ld x3 rY) (View.ld x4 rW0) (View.ld x5 rB0))
    (k0_pay2 (View.ld x0 rX) (View.ld x1 rY) (View.ld x2 rY) (View.ld x3 rY) (View.ld x4 rW0) (View.ld x5 rB0) (View.ld x4 rW1))
    (k0_pay3 (View.ld x5 rB1))
    (View.ld x4 rW2) (View.ld x5 rB2) (View.ld x6 rP) (View.ld x7 rQ)⟩]

/-! ## The pipeline's proof data -/

/-- The proof data of the pipeline on core `c`: the arrays as the region finds them; after the body at point `t`
    each input's buffer at its block and the output's at `out0_8` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by
  dsimp only [dats]

end Cert.Kernel.Hand

end
-- ==== Proof.RegionRunBits.lean ====
/-
  The frame run of the one kernel region of the word-level program, at any float instance `F`
  (the same argument as for the exact-arithmetic reading of the program: no operation differs).

  The body reads its eight input buffers through literal rectangles, reads the output buffer once
  (the value is not used) and then overwrites the whole output buffer with one store. So whatever the
  output buffer held before the body, after it the buffer holds `out0_8` of the eight input blocks.
  From that: the body's triple, the pipeline's body obligation at every grid point, the run of the whole
  program up to the region's post, and the statement that every argument array ends as it was launched.
-/
import proofs.«105842_j30374008717369_2_alg».proof.Proof.RegionDataBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The one store covers the output buffer -/

/-- The store's rectangle is the whole buffer, so every index lies in it. -/
theorem cover0_8 (p0 : Vec F S1024x512 .f32) (y : S1024x512.Idx) :
    ∃ pc ∈ ([⟨rX, p0⟩] : List (View.Piece (Elt F) S1024x512 .f32)), y ∈ pc.1.set :=
  View.cover_of_tiled [⟨rX, p0⟩] S1024x512.size (by rfl) y

/-! ## The body's triple -/

set_option maxHeartbeats 4000000 in
/-- The body on whole staging memrefs, the eight inputs' at read contents `x0 … x7` and the output's at anything,
    runs to the continuation holding the inputs' as they were and the output's at `out0_8` of the inputs. -/
theorem sound_kernel (c : Dev nD) (E : Set ℕ) (i : grid0.Coords)
    (arg1 : Memref sig .tc .vmem S1024x512 .f32) (harg1 : arg1.IsWhole)
    (arg2 : Memref sig .tc .vmem S1024x256 .f32) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S3x1280x1280 .f32) (harg5 : arg5.IsWhole)
    (arg6 : Memref sig .tc .vmem S3x1280 .f32) (harg6 : arg6.IsWhole)
    (arg7 : Memref sig .tc .vmem S1280x512 .f32) (harg7 : arg7.IsWhole)
    (arg8 : Memref sig .tc .vmem S512 .f32) (harg8 : arg8.IsWhole)
    (arg9 : Memref sig .tc .vmem S1024x512 .f32) (harg9 : arg9.IsWhole)
    (x0 : Vec F S1024x512 .f32) (x1 x2 x3 : Vec F S1024x256 .f32) (x4 : Vec F S3x1280x1280 .f32)
    (x5 : Vec F S3x1280 .f32) (x6 : Vec F S1280x512 .f32) (x7 : Vec F S512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9) K := by
  simp only [cc0__mlp_kernel_eq_skeleton]; unfold cc0__mlp_kernel_skel
  simp only [k0_part2_eq_skeleton]; unfold k0_part2_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## What the body finds in the input windows' buffers -/

/-- An input window's current staging buffer holds its block at every point, whether or not the pipeline fetched it
    there (windows 4 to 7 are fetched at the first point only: unfetched, the block index has not moved), for any
    proof data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- The body at any point: the inputs' memrefs hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The program up to the region -/

/-- No host operation before the region allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program up to the region: the five stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The run -/

set_option backward.isDefEq.respectTransparency.types false in
/-- From any memory with zero counters, every weakly fair execution of the program on the TensorCores terminates, and
    every final state has every array of the pipeline at what the proof data gives and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The argument arrays at the region's entry -/

/-- No host operation before the region writes an argument array (each writes its own result buffer only):
    the region finds every argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

/-! ## The frame -/

/-- Every argument array ends as it was launched: arguments 9 to 12 are the arrays of input windows 4 to 7, which
    the pipeline only reads; arguments 0 to 8 are staged by no window and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 4).trans (((dats m 0 c).arrAt_in 4 rfl _).trans ((A_eq m c 4).trans (V_main_arg9 m c))),
      ((h c).1 5).trans (((dats m 0 c).arrAt_in 5 rfl _).trans ((A_eq m c 5).trans (V_main_arg10 m c))),
      ((h c).1 6).trans (((dats m 0 c).arrAt_in 6 rfl _).trans ((A_eq m c 6).trans (V_main_arg11 m c))),
      ((h c).1 7).trans (((dats m 0 c).arrAt_in 7 rfl _).trans ((A_eq m c 7).trans (V_main_arg12 m c)))⟩) (run_main m ρ)

end Cert.Kernel.Hand

end
-- ==== Proof.RefOps.lean ====
import proofs.«105842_j30374008717369_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! The operations of the reference program in the order it runs them, cut into eleven runs by what they compute. Where the
    program calls a function, the function's operations are listed at that place, over the buffers that call owns. -/

/-- The two endpoint rows of every edge: both index rows are taken out of the edge table, wrapped into range, and the node features gathered at each; the run ends with the two gathered blocks side by side. -/
abbrev sA : List (HloOp τ sig (Elt F)) :=
  [ StableHlo.unary main_arg1 main_v0 ((extractStridedSlice S1x32768 ![0, 0] · slices_S2x32768_S1x32768_0_0) : (⟨S2x32768, .i32⟩ : BufTy).Contents (Elt F) → (⟨S1x32768, .i32⟩ : BufTy).Contents (Elt F)),
    StableHlo.reshape main_v0 main_v1 rfl shapeCasts_S1x32768_S32768,
    StableHlo.unary main_arg1 main_v2 ((extractStridedSlice S1x32768 ![1, 0] · slices_S2x32768_S1x32768_1_0) : (⟨S2x32768, .i32⟩ : BufTy).Contents (Elt F) → (⟨S1x32768, .i32⟩ : BufTy).Contents (Elt F)),
    StableHlo.reshape main_v2 main_v3 rfl shapeCasts_S1x32768_S32768,
    StableHlo.nullary main_c (constantI S_ 32 0#32),
    StableHlo.unary main_c main_v4 (broadcastInDim S32768 ![] bcast_S_S32768 : (⟨S_, .i32⟩ : BufTy).Contents (Elt F) → (⟨S32768, .i32⟩ : BufTy).Contents (Elt F)),
    StableHlo.binary main_v1 main_v4 main_v5 (cmpi .slt : (⟨S32768, .i32⟩ : BufTy).Contents (Elt F) → (⟨S32768, .i32⟩ : BufTy).Contents (Elt F) → (⟨S32768, .i1⟩ : BufTy).Contents (Elt F)),
    StableHlo.nullary main_c_0 (constantI S_ 32 65536#32),
    StableHlo.unary main_c_0 main_v6 (broadcastInDim S32768 ![] bcast_S_S32768 : (⟨S_, .i32⟩ : BufTy).Contents (Elt F) → (⟨S32768, .i32⟩ : BufTy).Contents (Elt F)),
    StableHlo.binary main_v1 main_v6 main_v7 (addi : (⟨S32768, .i32⟩ : BufTy).Contents (Elt F) → (⟨S32768, .i32⟩ : BufTy).Contents (Elt F) → (⟨S32768, .i32⟩ : BufTy).Contents (Elt F)),
    StableHlo.ternary main_v5 main_v7 main_v1 main_v8 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v8 main_v9 (broadcastInDim S32768x1 ![0] bcast_S32768_S32768x1_0 : (⟨S32768, .i32⟩ : BufTy).Contents (Elt F) → (⟨S32768x1, .i32⟩ : BufTy).Contents (Elt F)),
    StableHlo.binary main_arg0 main_v9 main_v10 ((fun x i => Host.gather gather_S65536x256_S32768x1_S32768x256_1_0_n_n_0_1_1256 x i) : (⟨S65536x256, .f32⟩ : BufTy).Contents (Elt F) → (⟨S32768x1, .i32⟩ : BufTy).Contents (Elt F) → (⟨S32768x256, .f32⟩ : BufTy).Contents (Elt F)),
    StableHlo.nullary main_c_1 (constantI S_ 32 0#32),
    StableHlo.unary main_c_1 main_v11 (broadcastInDim S32768 ![] bcast_S_S32768 : (⟨S_, .i32⟩ : BufTy).Contents (Elt F) → (⟨S32768, .i32⟩ : BufTy).Contents (Elt F)),
    StableHlo.binary main_v3 main_v11 main_v12 (cmpi .slt : (⟨S32768, .i32⟩ : BufTy).Contents (Elt F) → (⟨S32768, .i32⟩ : BufTy).Contents (Elt F) → (⟨S32768, .i1⟩ : BufTy).Contents (Elt F)),
    StableHlo.nullary main_c_2 (constantI S_ 32 65536#32),
    StableHlo.unary main_c_2 main_v13 (broadcastInDim S32768 ![] bcast_S_S32768 : (⟨S_, .i32⟩ : BufTy).Contents (Elt F) → (⟨S32768, .i32⟩ : BufTy).Contents (Elt F)),
    StableHlo.binary main_v3 main_v13 main_v14 (addi : (⟨S32768, .i32⟩ : BufTy).Contents (Elt F) → (⟨S32768, .i32⟩ : BufTy).Contents (Elt F) → (⟨S32768, .i32⟩ : BufTy).Contents (Elt F)),
    StableHlo.ternary main_v12 main_v14 main_v3 main_v15 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v15 main_v16 (broadcastInDim S32768x1 ![0] bcast_S32768_S32768x1_0 : (⟨S32768, .i32⟩ : BufTy).Contents (Elt F) → (⟨S32768x1, .i32⟩ : BufTy).Contents (Elt F)),
    StableHlo.binary main_arg0 main_v16 main_v17 ((fun x i => Host.gather gather_S65536x256_S32768x1_S32768x256_1_0_n_n_0_1_1256 x i) : (⟨S65536x256, .f32⟩ : BufTy).Contents (Elt F) → (⟨S32768x1, .i32⟩ : BufTy).Contents (Elt F) → (⟨S32768x256, .f32⟩ : BufTy).Contents (Elt F)),
    StableHlo.binary main_v10 main_v17 main_v18 ((fun a b => concatenate S32768x512 1 [⟨S32768x256, a⟩, ⟨S32768x256, b⟩] concatenates_S32768x256_S32768x256_S32768x512_d1) : (⟨S32768x256, .f32⟩ : BufTy).Contents (Elt F) → (⟨S32768x256, .f32⟩ : BufTy).Contents (Elt F) → (⟨S32768x512, .f32⟩ : BufTy).Contents (Elt F)) ]

/-- The per-edge offset: the first endpoint's graph number is gathered, wrapped into range, and the offset table gathered at it; the run ends with that offset as a column. -/
abbrev sB : List (HloOp τ sig (Elt F)) :=
  [ StableHlo.nullary main_c_3 (constantI S_ 32 0#32),
    StableHlo.unary main_c_3 main_v19 (broadcastInDim S32768 ![] bcast_S_S32768 : (⟨S_, .i32⟩ : BufTy).Contents (Elt F) → (⟨S32768, .i32⟩ : BufTy).Contents (Elt F)),
    StableHlo.binary main_v1 main_v19 main_v20 (cmpi .slt : (⟨S32768, .i32⟩ : BufTy).Contents (Elt F) → (⟨S32768, .i32⟩ : BufTy).Contents (Elt F) → (⟨S32768, .i1⟩ : BufTy).Contents (Elt F)),
    StableHlo.nullary main_c_4 (constantI S_ 32 65536#32),
    StableHlo.unary main_c_4 main_v21 (broadcastInDim S32768 ![] bcast_S_S32768 : (⟨S_, .i32⟩ : BufTy).Contents (Elt F) → (⟨S32768, .i32⟩ : BufTy).Contents (Elt F)),
    StableHlo.binary main_v1 main_v21 main_v22 (addi : (⟨S32768, .i32⟩ : BufTy).Contents (Elt F) → (⟨S32768, .i32⟩ : BufTy).Contents (Elt F) → (⟨S32768, .i32⟩ : BufTy).Contents (Elt F)),
    StableHlo.ternary main_v20 main_v22 main_v1 main_v23 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v23 main_v24 (broadcastInDim S32768x1 ![0] bcast_S32768_S32768x1_0 : (⟨S32768, .i32⟩ : BufTy).Contents (Elt F) → (⟨S32768x1, .i32⟩ : BufTy).Contents (Elt F)),
    StableHlo.binary main_arg2 main_v24 main_v25 ((fun x i => Host.gather gather_S65536_S32768x1_S32768_n_0_n_n_0_1_1 x i) : (⟨S65536, .i32⟩ : BufTy).Contents (Elt F) → (⟨S32768x1, .i32⟩ : BufTy).Contents (Elt F) → (⟨S32768, .i32⟩ : BufTy).Contents (Elt F)),
    StableHlo.nullary main_c_5 (constantI S_ 32 0#32),
    StableHlo.unary main_c_5 main_v26 (broadcastInDim S32768 ![] bcast_S_S32768 : (⟨S_, .i32⟩ : BufTy).Contents (Elt F) → (⟨S32768, .i32⟩ : BufTy).Contents (Elt F)),
    StableHlo.binary main_v25 main_v26 main_v27 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 65#32),
    StableHlo.unary main_c_6 main_v28 (broadcastInDim S32768 ![] bcast_S_S32768 : (⟨S_, .i32⟩ : BufTy).Contents (Elt F) → (⟨S32768, .i32⟩ : BufTy).Contents (Elt F)),
    StableHlo.binary main_v25 main_v28 main_v29 (addi : (⟨S32768, .i32⟩ : BufTy).Contents (Elt F) → (⟨S32768, .i32⟩ : BufTy).Contents (Elt F) → (⟨S32768, .i32⟩ : BufTy).Contents (Elt F)),
    StableHlo.ternary main_v27 main_v29 main_v25 main_v30 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v30 main_v31 (broadcastInDim S32768x1 ![0] bcast_S32768_S32768x1_0 : (⟨S32768, .i32⟩ : BufTy).Contents (Elt F) → (⟨S32768x1, .i32⟩ : BufTy).Contents (Elt F)),
    StableHlo.binary main_arg3 main_v31 main_v32 ((fun x i => Host.gather gather_S65_S32768x1_S32768_n_0_n_n_0_1_1 x i) : (⟨S65, .i32⟩ : BufTy).Contents (Elt F) → (⟨S32768x1, .i32⟩ : BufTy).Contents (Elt F) → (⟨S32768, .i32⟩ : BufTy).Contents (Elt F)),
    StableHlo.unary main_v32 main_v33 (broadcastInDim S32768x1 ![0] bcast_S32768_S32768x1_0 : (⟨S32768, .i32⟩ : BufTy).Contents (Elt F) → (⟨S32768x1, .i32⟩ : BufTy).Contents (Elt F)) ]

/-- First neighbour table, index side: the table shifted by the offset column and flattened, its validity mask as floats, the flat row numbers, and the wrapped indices as a column. -/
abbrev sC : List (HloOp τ sig (Elt F)) :=
  [ StableHlo.unary main_v33 main_v34 (broadcastInDim S32768x24 ![0, 1] bcast_S32768x1_S32768x24_0_1 : (⟨S32768x1, .i32⟩ : BufTy).Contents (Elt F) → (⟨S32768x24, .i32⟩ : BufTy).Contents (Elt F)),
    StableHlo.binary main_arg4 main_v34 main_v35 (addi : (⟨S32768x24, .i32⟩ : BufTy).Contents (Elt F) → (⟨S32768x24, .i32⟩ : BufTy).Contents (Elt F) → (⟨S32768x24, .i32⟩ : BufTy).Contents (Elt F)),
    StableHlo.nullary main_v36 (iotaInDim S32768 32 0),
    StableHlo.unary main_v36 main_v37 (broadcastInDim S32768x24 ![0] bcast_S32768_S32768x24_0 : (⟨S32768, .i32⟩ : BufTy).Contents (Elt F) → (⟨S32768x24, .i32⟩ : BufTy).Contents (Elt F)),
    StableHlo.reshape main_v37 main_v38 rfl shapeCasts_S32768x24_S786432,
    StableHlo.reshape main_v35 main_v39 rfl shapeCasts_S32768x24_S786432,
    StableHlo.nullary main_c_7 (constantI S_ 32 4294967295#32),
    StableHlo.unary main_c_7 main_v40 (broadcastInDim S786432 ![] bcast_S_S786432 : (⟨S_, .i32⟩ : BufTy).Contents (Elt F) → (⟨S786432, .i32⟩ : BufTy).Contents (Elt F)),
    StableHlo.binary main_v39 main_v40 main_v41 (cmpi .ne : (⟨S786432, .i32⟩ : BufTy).Contents (Elt F) → (⟨S786432, .i32⟩ : BufTy).Contents (Elt F) → (⟨S786432, .i1⟩ : BufTy).Contents (Elt F)),
    StableHlo.unary main_v41 main_v42 (uitofp .f32 : (⟨S786432, .i1⟩ : BufTy).Contents (Elt F) → (⟨S786432, .f32⟩ : BufTy).Contents (Elt F)),
    StableHlo.nullary main_c_8 (constantI S_ 32 0#32),
    StableHlo.unary main_c_8 main_v43 (broadcastInDim S786432 ![] bcast_S_S786432 : (⟨S_, .i32⟩ : BufTy).Contents (Elt F) → (⟨S786432, .i32⟩ : BufTy).Contents (Elt F)),
    StableHlo.binary main_v39 main_v43 main_v44 (cmpi .slt : (⟨S786432, .i32⟩ : BufTy).Contents (Elt F) → (⟨S786432, .i32⟩ : BufTy).Contents (Elt F) → (⟨S786432, .i1⟩ : BufTy).Contents (Elt F)),
    StableHlo.nullary main_c_9 (constantI S_ 32 65536#32),
    StableHlo.unary main_c_9 main_v45 (broadcastInDim S786432 ![] bcast_S_S786432 : (⟨S_, .i32⟩ : BufTy).Contents (Elt F) → (⟨S786432, .i32⟩ : BufTy).Contents (Elt F)),
    StableHlo.binary main_v39 main_v45 main_v46 (addi : (⟨S786432, .i32⟩ : BufTy).Contents (Elt F) → (⟨S786432, .i32⟩ : BufTy).Contents (Elt F) → (⟨S786432, .i32⟩ : BufTy).Contents (Elt F)),
    StableHlo.ternary main_v44 main_v46 main_v39 main_v47 (select : (⟨S786432, .i1⟩ : BufTy).Contents (Elt F) → (⟨S786432, .i32⟩ : BufTy).Contents (Elt F) → (⟨S786432, .i32⟩ : BufTy).Contents (Elt F) → (⟨S786432, .i32⟩ : BufTy).Contents (Elt F)),
    StableHlo.unary main_v47 main_v48 (broadcastInDim S786432x1 ![0] bcast_S786432_S786432x1_0 : (⟨S786432, .i32⟩ : BufTy).Contents (Elt F) → (⟨S786432x1, .i32⟩ : BufTy).Contents (Elt F)) ]

/-- First neighbour table, pooling: the gathered rows masked, summed per edge, divided by the clamped count, and zeroed where the count is zero. -/
abbrev sD : List (HloOp τ sig (Elt F)) :=
  [ StableHlo.binary main_arg0 main_v48 main_v49 ((fun x i => Host.gather gather_S65536x256_S786432x1_S786432x256_1_0_n_n_0_1_1256 x i) : (⟨S65536x256, .f32⟩ : BufTy).Contents (Elt F) → (⟨S786432x1, .i32⟩ : BufTy).Contents (Elt F) → (⟨S786432x256, .f32⟩ : BufTy).Contents (Elt F)),
    StableHlo.unary main_v42 main_v50 (broadcastInDim S786432x1 ![0] bcast_S786432_S786432x1_0 : (⟨S786432, .f32⟩ : BufTy).Contents (Elt F) → (⟨S786432x1, .f32⟩ : BufTy).Contents (Elt F)),
    StableHlo.unary main_v50 main_v51 (broadcastInDim S786432x256 ![0, 1] bcast_S786432x1_S786432x256_0_1 : (⟨S786432x1, .f32⟩ : BufTy).Contents (Elt F) → (⟨S786432x256, .f32⟩ : BufTy).Contents (Elt F)),
    StableHlo.binary main_v49 main_v51 main_v52 (mulf : (⟨S786432x256, .f32⟩ : BufTy).Contents (Elt F) → (⟨S786432x256, .f32⟩ : BufTy).Contents (Elt F) → (⟨S786432x256, .f32⟩ : BufTy).Contents (Elt F)),
    StableHlo.nullary main_cst (constant S_ .f32 0x00000000#32),
    StableHlo.unary main_cst main_v53 (broadcastInDim S32768x256 ![] bcast_S_S32768x256 : (⟨S_, .f32⟩ : BufTy).Contents (Elt F) → (⟨S32768x256, .f32⟩ : BufTy).Contents (Elt F)),
    StableHlo.unary main_v38 main_v54 (broadcastInDim S786432x1 ![0] bcast_S786432_S786432x1_0 : (⟨S786432, .i32⟩ : BufTy).Contents (Elt F) → (⟨S786432x1, .i32⟩ : BufTy).Contents (Elt F)),
    StableHlo.ternary main_v53 main_v54 main_v52 main_v55 ((fun x i u => Host.scatterAdd scatter_S32768x256_S786432x1_S786432x256_1_0_0_1 x i u) : (⟨S32768x256, .f32⟩ : BufTy).Contents (Elt F) → (⟨S786432x1, .i32⟩ : BufTy).Contents (Elt F) → (⟨S786432x256, .f32⟩ : BufTy).Contents (Elt F) → (⟨S32768x256, .f32⟩ : BufTy).Contents (Elt F)),
    StableHlo.nullary main_cst_10 (constant S_ .f32 0x00000000#32),
    StableHlo.unary main_cst_10 main_v56 (broadcastInDim S32768 ![] bcast_S_S32768 : (⟨S_, .f32⟩ : BufTy).Contents (Elt F) → (⟨S32768, .f32⟩ : BufTy).Contents (Elt F)),
    StableHlo.unary main_v38 main_v57 (broadcastInDim S786432x1 ![0] bcast_S786432_S786432x1_0 : (⟨S786432, .i32⟩ : BufTy).Contents (Elt F) → (⟨S786432x1, .i32⟩ : BufTy).Contents (Elt F)),
    StableHlo.ternary main_v56 main_v57 main_v42 main_v58 ((fun x i u => Host.scatterAdd scatter_S32768_S786432x1_S786432_n_0_0_1 x i u) : (⟨S32768, .f32⟩ : BufTy).Contents (Elt F) → (⟨S786432x1, .i32⟩ : BufTy).Contents (Elt F) → (⟨S786432, .f32⟩ : BufTy).Contents (Elt F) → (⟨S32768, .f32⟩ : BufTy).Contents (Elt F)),
    StableHlo.unary main_v58 main_v59 (broadcastInDim S32768x1 ![0] bcast_S32768_S32768x1_0 : (⟨S32768, .f32⟩ : BufTy).Contents (Elt F) → (⟨S32768x1, .f32⟩ : BufTy).Contents (Elt F)),
    StableHlo.nullary main_cst_11 (constant S_ .f32 0x00000000#32),
    StableHlo.unary main_cst_11 main_v60 (broadcastInDim S32768x1 ![] bcast_S_S32768x1 : (⟨S_, .f32⟩ : BufTy).Contents (Elt F) → (⟨S32768x1, .f32⟩ : BufTy).Contents (Elt F)),
    StableHlo.binary main_v59 main_v60 main_v61 (cmpf .ogt : (⟨S32768x1, .f32⟩ : BufTy).Contents (Elt F) → (⟨S32768x1, .f32⟩ : BufTy).Contents (Elt F) → (⟨S32768x1, .i1⟩ : BufTy).Contents (Elt F)),
    StableHlo.nullary main_cst_12 (constant S_ .f32 0x3F800000#32),
    StableHlo.unary main_cst_12 main_v62 (broadcastInDim S32768 ![] bcast_S_S32768 : (⟨S_, .f32⟩ : BufTy).Contents (Elt F) → (⟨S32768, .f32⟩ : BufTy).Contents (Elt F)),
    StableHlo.binary main_v58 main_v62 main_v63 (maximumf : (⟨S32768, .f32⟩ : BufTy).Contents (Elt F) → (⟨S32768, .f32⟩ : BufTy).Contents (Elt F) → (⟨S32768, .f32⟩ : BufTy).Contents (Elt F)),
    StableHlo.unary main_v63 main_v64 (broadcastInDim S32768x1 ![0] bcast_S32768_S32768x1_0 : (⟨S32768, .f32⟩ : BufTy).Contents (Elt F) → (⟨S32768x1, .f32⟩ : BufTy).Contents (Elt F)),
    StableHlo.unary main_v64 main_v65 (broadcastInDim S32768x256 ![0, 1] bcast_S32768x1_S32768x256_0_1 : (⟨S32768x1, .f32⟩ : BufTy).Contents (Elt F) → (⟨S32768x256, .f32⟩ : BufTy).Contents (Elt F)),
    StableHlo.binary main_v55 main_v65 main_v66 (Host.divf : (⟨S32768x256, .f32⟩ : BufTy).Contents (Elt F) → (⟨S32768x256, .f32⟩ : BufTy).Contents (Elt F) → (⟨S32768x256, .f32⟩ : BufTy).Contents (Elt F)),
    StableHlo.nullary main_cst_13 (constant S_ .f32 0x00000000#32),
    StableHlo.TRef.unary (.of main_cst_13 : StableHlo.TRef sig ⟨S_, .f32⟩) main_call0.v0 id,
    StableHlo.TRef.unary (.of main_v61 : StableHlo.TRef sig ⟨S32768x1, .i1⟩) main_call0.v1 (broadcastInDim S32768x256 ![0, 1] bcast_S32768x1_S32768x256_0_1),
    StableHlo.TRef.unary main_call0.v0 main_call0.v2 (broadcastInDim S32768x256 ![] bcast_S_S32768x256),
    StableHlo.TRef.ternary main_call0.v1 (.of main_v66 : StableHlo.TRef sig ⟨S32768x256, .f32⟩) main_call0.v2 main_call0.v3 select ]

/-- Second neighbour table: the same index side and the two sums, up to the count's comparison with zero and the constant one. -/
abbrev sE : List (HloOp τ sig (Elt F)) :=
  [ StableHlo.unary main_v33 main_v68 (broadcastInDim S32768x24 ![0, 1] bcast_S32768x1_S32768x24_0_1 : (⟨S32768x1, .i32⟩ : BufTy).Contents (Elt F) → (⟨S32768x24, .i32⟩ : BufTy).Contents (Elt F)),
    StableHlo.binary main_arg5 main_v68 main_v69 (addi : (⟨S32768x24, .i32⟩ : BufTy).Contents (Elt F) → (⟨S32768x24, .i32⟩ : BufTy).Contents (Elt F) → (⟨S32768x24, .i32⟩ : BufTy).Contents (Elt F)),
    StableHlo.nullary main_v70 (iotaInDim S32768 32 0),
    StableHlo.unary main_v70 main_v71 (broadcastInDim S32768x24 ![0] bcast_S32768_S32768x24_0 : (⟨S32768, .i32⟩ : BufTy).Contents (Elt F) → (⟨S32768x24, .i32⟩ : BufTy).Contents (Elt F)),
    StableHlo.reshape main_v71 main_v72 rfl shapeCasts_S32768x24_S786432,
    StableHlo.reshape main_v69 main_v73 rfl shapeCasts_S32768x24_S786432,
    StableHlo.nullary main_c_14 (constantI S_ 32 4294967295#32),
    StableHlo.unary main_c_14 main_v74 (broadcastInDim S786432 ![] bcast_S_S786432 : (⟨S_, .i32⟩ : BufTy).Contents (Elt F) → (⟨S786432, .i32⟩ : BufTy).Contents (Elt F)),
    StableHlo.binary main_v73 main_v74 main_v75 (cmpi .ne : (⟨S786432, .i32⟩ : BufTy).Contents (Elt F) → (⟨S786432, .i32⟩ : BufTy).Contents (Elt F) → (⟨S786432, .i1⟩ : BufTy).Contents (Elt F)),
    StableHlo.unary main_v75 main_v76 (uitofp .f32 : (⟨S786432, .i1⟩ : BufTy).Contents (Elt F) → (⟨S786432, .f32⟩ : BufTy).Contents (Elt F)),
    StableHlo.nullary main_c_15 (constantI S_ 32 0#32),
    StableHlo.unary main_c_15 main_v77 (broadcastInDim S786432 ![] bcast_S_S786432 : (⟨S_, .i32⟩ : BufTy).Contents (Elt F) → (⟨S786432, .i32⟩ : BufTy).Contents (Elt F)),
    StableHlo.binary main_v73 main_v77 main_v78 (cmpi .slt : (⟨S786432, .i32⟩ : BufTy).Contents (Elt F) → (⟨S786432, .i32⟩ : BufTy).Contents (Elt F) → (⟨S786432, .i1⟩ : BufTy).Contents (Elt F)),
    StableHlo.nullary main_c_16 (constantI S_ 32 65536#32),
    StableHlo.unary main_c_16 main_v79 (broadcastInDim S786432 ![] bcast_S_S786432 : (⟨S_, .i32⟩ : BufTy).Contents (Elt F) → (⟨S786432, .i32⟩ : BufTy).Contents (Elt F)),
    StableHlo.binary main_v73 main_v79 main_v80 (addi : (⟨S786432, .i32⟩ : BufTy).Contents (Elt F) → (⟨S786432, .i32⟩ : BufTy).Contents (Elt F) → (⟨S786432, .i32⟩ : BufTy).Contents (Elt F)),
    StableHlo.ternary main_v78 main_v80 main_v73 main_v81 (select : (⟨S786432, .i1⟩ : BufTy).Contents (Elt F) → (⟨S786432, .i32⟩ : BufTy).Contents (Elt F) → (⟨S786432, .i32⟩ : BufTy).Contents (Elt F) → (⟨S786432, .i32⟩ : BufTy).Contents (Elt F)),
    StableHlo.unary main_v81 main_v82 (broadcastInDim S786432x1 ![0] bcast_S786432_S786432x1_0 : (⟨S786432, .i32⟩ : BufTy).Contents (Elt F) → (⟨S786432x1, .i32⟩ : BufTy).Contents (Elt F)),
    StableHlo.binary main_arg0 main_v82 main_v83 ((fun x i => Host.gather gather_S65536x256_S786432x1_S786432x256_1_0_n_n_0_1_1256 x i) : (⟨S65536x256, .f32⟩ : BufTy).Contents (Elt F) → (⟨S786432x1, .i32⟩ : BufTy).Contents (Elt F) → (⟨S786432x256, .f32⟩ : BufTy).Contents (Elt F)),
    StableHlo.unary main_v76 main_v84 (broadcastInDim S786432x1 ![0] bcast_S786432_S786432x1_0 : (⟨S786432, .f32⟩ : BufTy).Contents (Elt F) → (⟨S786432x1, .f32⟩ : BufTy).Contents (Elt F)),
    StableHlo.unary main_v84 main_v85 (broadcastInDim S786432x256 ![0, 1] bcast_S786432x1_S786432x256_0_1 : (⟨S786432x1, .f32⟩ : BufTy).Contents (Elt F) → (⟨S786432x256, .f32⟩ : BufTy).Contents (Elt F)),
    StableHlo.binary main_v83 main_v85 main_v86 (mulf : (⟨S786432x256, .f32⟩ : BufTy).Contents (Elt F) → (⟨S786432x256, .f32⟩ : BufTy).Contents (Elt F) → (⟨S786432x256, .f32⟩ : BufTy).Contents (Elt F)),
    StableHlo.nullary main_cst_17 (constant S_ .f32 0x00000000#32),
    StableHlo.unary main_cst_17 main_v87 (broadcastInDim S32768x256 ![] bcast_S_S32768x256 : (⟨S_, .f32⟩ : BufTy).Contents (Elt F) → (⟨S32768x256, .f32⟩ : BufTy).Contents (Elt F)),
    StableHlo.unary main_v72 main_v88 (broadcastInDim S786432x1 ![0] bcast_S786432_S786432x1_0 : (⟨S786432, .i32⟩ : BufTy).Contents (Elt F) → (⟨S786432x1, .i32⟩ : BufTy).Contents (Elt F)),
    StableHlo.ternary main_v87 main_v88 main_v86 main_v89 ((fun x i u => Host.scatterAdd scatter_S32768x256_S786432x1_S786432x256_1_0_0_1 x i u) : (⟨S32768x256, .f32⟩ : BufTy).Contents (Elt F) → (⟨S786432x1, .i32⟩ : BufTy).Contents (Elt F) → (⟨S786432x256, .f32⟩ : BufTy).Contents (Elt F) → (⟨S32768x256, .f32⟩ : BufTy).Contents (Elt F)),
    StableHlo.nullary main_cst_18 (constant S_ .f32 0x00000000#32),
    StableHlo.unary main_cst_18 main_v90 (broadcastInDim S32768 ![] bcast_S_S32768 : (⟨S_, .f32⟩ : BufTy).Contents (Elt F) → (⟨S32768, .f32⟩ : BufTy).Contents (Elt F)),
    StableHlo.unary main_v72 main_v91 (broadcastInDim S786432x1 ![0] bcast_S786432_S786432x1_0 : (⟨S786432, .i32⟩ : BufTy).Contents (Elt F) → (⟨S786432x1, .i32⟩ : BufTy).Contents (Elt F)),
    StableHlo.ternary main_v90 main_v91 main_v76 main_v92 ((fun x i u => Host.scatterAdd scatter_S32768_S786432x1_S786432_n_0_0_1 x i u) : (⟨S32768, .f32⟩ : BufTy).Contents (Elt F) → (⟨S786432x1, .i32⟩ : BufTy).Contents (Elt F) → (⟨S786432, .f32⟩ : BufTy).Contents (Elt F) → (⟨S32768, .f32⟩ : BufTy).Contents (Elt F)),
    StableHlo.unary main_v92 main_v93 (broadcastInDim S32768x1 ![0] bcast_S32768_S32768x1_0 : (⟨S32768, .f32⟩ : BufTy).Contents (Elt F) → (⟨S32768x1, .f32⟩ : BufTy).Contents (Elt F)),
    StableHlo.nullary main_cst_19 (constant S_ .f32 0x00000000#32),
    StableHlo.unary main_cst_19 main_v94 (broadcastInDim S32768x1 ![] bcast_S_S32768x1 : (⟨S_, .f32⟩ : BufTy).Contents (Elt F) → (⟨S32768x1, .f32⟩ : BufTy).Contents (Elt F)),
    StableHlo.binary main_v93 main_v94 main_v95 (cmpf .ogt : (⟨S32768x1, .f32⟩ : BufTy).Contents (Elt F) → (⟨S32768x1, .f32⟩ : BufTy).Contents (Elt F) → (⟨S32768x1, .i1⟩ : BufTy).Contents (Elt F)),
    StableHlo.nullary main_cst_20 (constant S_ .f32 0x3F800000#32),
    StableHlo.unary main_cst_20 main_v96 (broadcastInDim S32768 ![] bcast_S_S32768 : (⟨S_, .f32⟩ : BufTy).Contents (Elt F) → (⟨S32768, .f32⟩ : BufTy).Contents (Elt F)) ]

/-- Second neighbour table, the end of the pooling: the division by the clamped count and the zeroing where the count is zero. -/
abbrev sF : List (HloOp τ sig (Elt F)) :=
  [ StableHlo.binary main_v92 main_v96 main_v97 (maximumf : (⟨S32768, .f32⟩ : BufTy).Contents (Elt F) → (⟨S32768, .f32⟩ : BufTy).Contents (Elt F) → (⟨S32768, .f32⟩ : BufTy).Contents (Elt F)),
    StableHlo.unary main_v97 main_v98 (broadcastInDim S32768x1 ![0] bcast_S32768_S32768x1_0 : (⟨S32768, .f32⟩ : BufTy).Contents (Elt F) → (⟨S32768x1, .f32⟩ : BufTy).Contents (Elt F)),
    StableHlo.unary main_v98 main_v99 (broadcastInDim S32768x256 ![0, 1] bcast_S32768x1_S32768x256_0_1 : (⟨S32768x1, .f32⟩ : BufTy).Contents (Elt F) → (⟨S32768x256, .f32⟩ : BufTy).Contents (Elt F)),
    StableHlo.binary main_v89 main_v99 main_v100 (Host.divf : (⟨S32768x256, .f32⟩ : BufTy).Contents (Elt F) → (⟨S32768x256, .f32⟩ : BufTy).Contents (Elt F) → (⟨S32768x256, .f32⟩ : BufTy).Contents (Elt F)),
    StableHlo.nullary main_cst_21 (constant S_ .f32 0x00000000#32),
    StableHlo.TRef.unary (.of main_cst_21 : StableHlo.TRef sig ⟨S_, .f32⟩) main_call1.v0 id,
    StableHlo.TRef.unary (.of main_v95 : StableHlo.TRef sig ⟨S32768x1, .i1⟩) main_call1.v1 (broadcastInDim S32768x256 ![0, 1] bcast_S32768x1_S32768x256_0_1),
    StableHlo.TRef.unary main_call1.v0 main_call1.v2 (broadcastInDim S32768x256 ![] bcast_S_S32768x256),
    StableHlo.TRef.ternary main_call1.v1 (.of main_v100 : StableHlo.TRef sig ⟨S32768x256, .f32⟩) main_call1.v2 main_call1.v3 select ]

/-- The feature row: the endpoint blocks, the two pooled blocks and the three edge feature arrays side by side. -/
abbrev sG : List (HloOp τ sig (Elt F)) :=
  [ StableHlo.nary ![main_v18, main_v67, main_v101, main_arg6, main_arg7, main_arg8] main_v102 (fun u => concatenate S32768x1280 1 [⟨S32768x512, u 0⟩, ⟨S32768x256, u 1⟩, ⟨S32768x256, u 2⟩, ⟨S32768x24, u 3⟩, ⟨S32768x200, u 4⟩, ⟨S32768x32, u 5⟩] concatenates_S32768x512_S32768x256_S32768x256_S32768x24_S32768x200_S32768x32_S32768x1280_d1) ]

/-- First residual layer: the product with the first weight matrix plus the first bias row, the exponential linear unit of that, plus the layer's input. -/
abbrev sH : List (HloOp τ sig (Elt F)) :=
  [ StableHlo.unary main_arg9 main_v103 ((extractStridedSlice S1x1280x1280 ![0, 0, 0] · slices_S3x1280x1280_S1x1280x1280_0_0_0) : (⟨S3x1280x1280, .f32⟩ : BufTy).Contents (Elt F) → (⟨S1x1280x1280, .f32⟩ : BufTy).Contents (Elt F)),
    StableHlo.reshape main_v103 main_v104 rfl shapeCasts_S1x1280x1280_S1280x1280,
    StableHlo.binary main_v102 main_v104 main_v105 ((fun l r => Host.dotGeneral dot_S32768x1280_S1280x1280_S32768x1280_1_0_0_1_n_n none l r) : (⟨S32768x1280, .f32⟩ : BufTy).Contents (Elt F) → (⟨S1280x1280, .f32⟩ : BufTy).Contents (Elt F) → (⟨S32768x1280, .f32⟩ : BufTy).Contents (Elt F)),
    StableHlo.unary main_arg10 main_v106 ((extractStridedSlice S1x1280 ![0, 0] · slices_S3x1280_S1x1280_0_0) : (⟨S3x1280, .f32⟩ : BufTy).Contents (Elt F) → (⟨S1x1280, .f32⟩ : BufTy).Contents (Elt F)),
    StableHlo.reshape main_v106 main_v107 rfl shapeCasts_S1x1280_S1280,
    StableHlo.unary main_v107 main_v108 (broadcastInDim S1x1280 ![1] bcast_S1280_S1x1280_1 : (⟨S1280, .f32⟩ : BufTy).Contents (Elt F) → (⟨S1x1280, .f32⟩ : BufTy).Contents (Elt F)),
    StableHlo.unary main_v108 main_v109 (broadcastInDim S32768x1280 ![0, 1] bcast_S1x1280_S32768x1280_0_1 : (⟨S1x1280, .f32⟩ : BufTy).Contents (Elt F) → (⟨S32768x1280, .f32⟩ : BufTy).Contents (Elt F)),
    StableHlo.binary main_v105 main_v109 main_v110 (addf : (⟨S32768x1280, .f32⟩ : BufTy).Contents (Elt F) → (⟨S32768x1280, .f32⟩ : BufTy).Contents (Elt F) → (⟨S32768x1280, .f32⟩ : BufTy).Contents (Elt F)),
    StableHlo.TRef.nullary main_call2.cst (constant S_ .f32 0x00000000#32),
    StableHlo.TRef.unary main_call2.cst main_call2.v0 (broadcastInDim S32768x1280 ![] bcast_S_S32768x1280),
    StableHlo.TRef.binary (.of main_v110 : StableHlo.TRef sig ⟨S32768x1280, .f32⟩) main_call2.v0 main_call2.v1 (cmpf .ogt),
    StableHlo.TRef.nullary main_call2.cst_0 (constant S_ .f32 0x00000000#32),
    StableHlo.TRef.unary main_call2.cst_0 main_call2.v2 (broadcastInDim S32768x1280 ![] bcast_S_S32768x1280),
    StableHlo.TRef.binary (.of main_v110 : StableHlo.TRef sig ⟨S32768x1280, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S32768x1280 ![] bcast_S_S32768x1280),
    StableHlo.TRef.ternary main_call2.v3 main_call2.call0.v1 (.of main_v110 : StableHlo.TRef sig ⟨S32768x1280, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S32768x1280 ![] bcast_S_S32768x1280),
    StableHlo.TRef.binary main_call2.v6 main_call2.v5 main_call2.v7 mulf,
    StableHlo.TRef.ternary main_call2.v1 (.of main_v110 : StableHlo.TRef sig ⟨S32768x1280, .f32⟩) main_call2.v7 main_call2.call1.v0 select,
    StableHlo.binary main_v111 main_v102 main_v112 (addf : (⟨S32768x1280, .f32⟩ : BufTy).Contents (Elt F) → (⟨S32768x1280, .f32⟩ : BufTy).Contents (Elt F) → (⟨S32768x1280, .f32⟩ : BufTy).Contents (Elt F)) ]

/-- Second residual layer, as the first with the second weight matrix and bias row. -/
abbrev sI : List (HloOp τ sig (Elt F)) :=
  [ StableHlo.unary main_arg9 main_v113 ((extractStridedSlice S1x1280x1280 ![1, 0, 0] · slices_S3x1280x1280_S1x1280x1280_1_0_0) : (⟨S3x1280x1280, .f32⟩ : BufTy).Contents (Elt F) → (⟨S1x1280x1280, .f32⟩ : BufTy).Contents (Elt F)),
    StableHlo.reshape main_v113 main_v114 rfl shapeCasts_S1x1280x1280_S1280x1280,
    StableHlo.binary main_v112 main_v114 main_v115 ((fun l r => Host.dotGeneral dot_S32768x1280_S1280x1280_S32768x1280_1_0_0_1_n_n none l r) : (⟨S32768x1280, .f32⟩ : BufTy).Contents (Elt F) → (⟨S1280x1280, .f32⟩ : BufTy).Contents (Elt F) → (⟨S32768x1280, .f32⟩ : BufTy).Contents (Elt F)),
    StableHlo.unary main_arg10 main_v116 ((extractStridedSlice S1x1280 ![1, 0] · slices_S3x1280_S1x1280_1_0) : (⟨S3x1280, .f32⟩ : BufTy).Contents (Elt F) → (⟨S1x1280, .f32⟩ : BufTy).Contents (Elt F)),
    StableHlo.reshape main_v116 main_v117 rfl shapeCasts_S1x1280_S1280,
    StableHlo.unary main_v117 main_v118 (broadcastInDim S1x1280 ![1] bcast_S1280_S1x1280_1 : (⟨S1280, .f32⟩ : BufTy).Contents (Elt F) → (⟨S1x1280, .f32⟩ : BufTy).Contents (Elt F)),
    StableHlo.unary main_v118 main_v119 (broadcastInDim S32768x1280 ![0, 1] bcast_S1x1280_S32768x1280_0_1 : (⟨S1x1280, .f32⟩ : BufTy).Contents (Elt F) → (⟨S32768x1280, .f32⟩ : BufTy).Contents (Elt F)),
    StableHlo.binary main_v115 main_v119 main_v120 (addf : (⟨S32768x1280, .f32⟩ : BufTy).Contents (Elt F) → (⟨S32768x1280, .f32⟩ : BufTy).Contents (Elt F) → (⟨S32768x1280, .f32⟩ : BufTy).Contents (Elt F)),
    StableHlo.TRef.nullary main_call3.cst (constant S_ .f32 0x00000000#32),
    StableHlo.TRef.unary main_call3.cst main_call3.v0 (broadcastInDim S32768x1280 ![] bcast_S_S32768x1280),
    StableHlo.TRef.binary (.of main_v120 : StableHlo.TRef sig ⟨S32768x1280, .f32⟩) main_call3.v0 main_call3.v1 (cmpf .ogt),
    StableHlo.TRef.nullary main_call3.cst_0 (constant S_ .f32 0x00000000#32),
    StableHlo.TRef.unary main_call3.cst_0 main_call3.v2 (broadcastInDim S32768x1280 ![] bcast_S_S32768x1280),
    StableHlo.TRef.binary (.of main_v120 : StableHlo.TRef sig ⟨S32768x1280, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S32768x1280 ![] bcast_S_S32768x1280),
    StableHlo.TRef.ternary main_call3.v3 main_call3.call0.v1 (.of main_v120 : StableHlo.TRef sig ⟨S32768x1280, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S32768x1280 ![] bcast_S_S32768x1280),
    StableHlo.TRef.binary main_call3.v6 main_call3.v5 main_call3.v7 mulf,
    StableHlo.TRef.ternary main_call3.v1 (.of main_v120 : StableHlo.TRef sig ⟨S32768x1280, .f32⟩) main_call3.v7 main_call3.call1.v0 select,
    StableHlo.binary main_v121 main_v112 main_v122 (addf : (⟨S32768x1280, .f32⟩ : BufTy).Contents (Elt F) → (⟨S32768x1280, .f32⟩ : BufTy).Contents (Elt F) → (⟨S32768x1280, .f32⟩ : BufTy).Contents (Elt F)) ]

/-- Third residual layer, as the first with the third weight matrix and bias row. -/
abbrev sJ : List (HloOp τ sig (Elt F)) :=
  [ StableHlo.unary main_arg9 main_v123 ((extractStridedSlice S1x1280x1280 ![2, 0, 0] · slices_S3x1280x1280_S1x1280x1280_2_0_0) : (⟨S3x1280x1280, .f32⟩ : BufTy).Contents (Elt F) → (⟨S1x1280x1280, .f32⟩ : BufTy).Contents (Elt F)),
    StableHlo.reshape main_v123 main_v124 rfl shapeCasts_S1x1280x1280_S1280x1280,
    StableHlo.binary main_v122 main_v124 main_v125 ((fun l r => Host.dotGeneral dot_S32768x1280_S1280x1280_S32768x1280_1_0_0_1_n_n none l r) : (⟨S32768x1280, .f32⟩ : BufTy).Contents (Elt F) → (⟨S1280x1280, .f32⟩ : BufTy).Contents (Elt F) → (⟨S32768x1280, .f32⟩ : BufTy).Contents (Elt F)),
    StableHlo.unary main_arg10 main_v126 ((extractStridedSlice S1x1280 ![2, 0] · slices_S3x1280_S1x1280_2_0) : (⟨S3x1280, .f32⟩ : BufTy).Contents (Elt F) → (⟨S1x1280, .f32⟩ : BufTy).Contents (Elt F)),
    StableHlo.reshape main_v126 main_v127 rfl shapeCasts_S1x1280_S1280,
    StableHlo.unary main_v127 main_v128 (broadcastInDim S1x1280 ![1] bcast_S1280_S1x1280_1 : (⟨S1280, .f32⟩ : BufTy).Contents (Elt F) → (⟨S1x1280, .f32⟩ : BufTy).Contents (Elt F)),
    StableHlo.unary main_v128 main_v129 (broadcastInDim S32768x1280 ![0, 1] bcast_S1x1280_S32768x1280_0_1 : (⟨S1x1280, .f32⟩ : BufTy).Contents (Elt F) → (⟨S32768x1280, .f32⟩ : BufTy).Contents (Elt F)),
    StableHlo.binary main_v125 main_v129 main_v130 (addf : (⟨S32768x1280, .f32⟩ : BufTy).Contents (Elt F) → (⟨S32768x1280, .f32⟩ : BufTy).Contents (Elt F) → (⟨S32768x1280, .f32⟩ : BufTy).Contents (Elt F)),
    StableHlo.TRef.nullary main_call4.cst (constant S_ .f32 0x00000000#32),
    StableHlo.TRef.unary main_call4.cst main_call4.v0 (broadcastInDim S32768x1280 ![] bcast_S_S32768x1280),
    StableHlo.TRef.binary (.of main_v130 : StableHlo.TRef sig ⟨S32768x1280, .f32⟩) main_call4.v0 main_call4.v1 (cmpf .ogt),
    StableHlo.TRef.nullary main_call4.cst_0 (constant S_ .f32 0x00000000#32),
    StableHlo.TRef.unary main_call4.cst_0 main_call4.v2 (broadcastInDim S32768x1280 ![] bcast_S_S32768x1280),
    StableHlo.TRef.binary (.of main_v130 : StableHlo.TRef sig ⟨S32768x1280, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S32768x1280 ![] bcast_S_S32768x1280),
    StableHlo.TRef.ternary main_call4.v3 main_call4.call0.v1 (.of main_v130 : StableHlo.TRef sig ⟨S32768x1280, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S32768x1280 ![] bcast_S_S32768x1280),
    StableHlo.TRef.binary main_call4.v6 main_call4.v5 main_call4.v7 mulf,
    StableHlo.TRef.ternary main_call4.v1 (.of main_v130 : StableHlo.TRef sig ⟨S32768x1280, .f32⟩) main_call4.v7 main_call4.call1.v0 select,
    StableHlo.binary main_v131 main_v122 main_v132 (addf : (⟨S32768x1280, .f32⟩ : BufTy).Contents (Elt F) → (⟨S32768x1280, .f32⟩ : BufTy).Contents (Elt F) → (⟨S32768x1280, .f32⟩ : BufTy).Contents (Elt F)) ]

/-- The output projection: the product with the last weight matrix plus the last bias row. -/
abbrev sK : List (HloOp τ sig (Elt F)) :=
  [ StableHlo.binary main_v132 main_arg11 main_v133 ((fun l r => Host.dotGeneral dot_S32768x1280_S1280x512_S32768x512_1_0_0_1_n_n none l r) : (⟨S32768x1280, .f32⟩ : BufTy).Contents (Elt F) → (⟨S1280x512, .f32⟩ : BufTy).Contents (Elt F) → (⟨S32768x512, .f32⟩ : BufTy).Contents (Elt F)),
    StableHlo.unary main_arg12 main_v134 (broadcastInDim S1x512 ![1] bcast_S512_S1x512_1 : (⟨S512, .f32⟩ : BufTy).Contents (Elt F) → (⟨S1x512, .f32⟩ : BufTy).Contents (Elt F)),
    StableHlo.unary main_v134 main_v135 (broadcastInDim S32768x512 ![0, 1] bcast_S1x512_S32768x512_0_1 : (⟨S1x512, .f32⟩ : BufTy).Contents (Elt F) → (⟨S32768x512, .f32⟩ : BufTy).Contents (Elt F)),
    StableHlo.binary main_v133 main_v135 main_v136 (addf : (⟨S32768x512, .f32⟩ : BufTy).Contents (Elt F) → (⟨S32768x512, .f32⟩ : BufTy).Contents (Elt F) → (⟨S32768x512, .f32⟩ : BufTy).Contents (Elt F)) ]

/-- The program's three windows, each the runs it holds. -/
abbrev w0 : List (HloOp τ sig (Elt F)) := sA ++ (sB ++ sC)
abbrev w1 : List (HloOp τ sig (Elt F)) := sD ++ sE
abbrev w2 : List (HloOp τ sig (Elt F)) := sF ++ (sG ++ (sH ++ (sI ++ (sJ ++ sK))))

/-- Every operation of the program, in order. -/
abbrev ops : List (HloOp τ sig (Elt F)) := w0 ++ (w1 ++ w2)

theorem part0_eq (c : Dev nD) : main_part0 (F := F) c = StableHlo.seq w0 := rfl

-- the called function's four operations take their place in the window once nested sequencing is flattened
set_option maxRecDepth 4096 in
theorem part1_eq (c : Dev nD) : main_part1 (F := F) c = StableHlo.seq w1 := by
  simp only [main_part1, fn_where.body, StableHlo.seq, bind_assoc, pure_bind]
  rfl

set_option maxRecDepth 4096 in
theorem part2_eq (c : Dev nD) : main_part2 (F := F) c = StableHlo.seq w2 := by
  simp only [main_part2, fn_where.body, fn_elu.body, fn_where_0.body, fn_where_1.body, StableHlo.seq, bind_assoc, pure_bind]
  rfl

/-- Run in order, the three windows are the sequence of all the operations. -/
theorem main_eq (c : Dev nD) : main (F := F) c = StableHlo.seq ops := by
  show main (F := F) c = StableHlo.seq (w0 ++ (w1 ++ w2))
  rw [StableHlo.seq_append w0 (w1 ++ w2), StableHlo.seq_append w1 w2, ← part0_eq c, ← part1_eq c, ← part2_eq c]
  rfl

end Cert.ReferenceIdeal.Hand

end
-- ==== Proof.LibAfter.lean ====
/-
  Running a list of host operations in two stretches.

  The contents every buffer holds after a list of host operations is a fold of the operations' results over the
  contents before it; the fold over a list split in two is the fold over the second part from what the first part
  leaves. So a long straight line can be read stretch by stretch, each from the contents at its start.
-/
import Idealize.ShloMosaic.Lib.StableHlo.Run

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibAfter
-- ==== Proof.RefRun.lean ====
import proofs.«105842_j30374008717369_2_alg».proof.Proof.Gen.ReferenceIdeal
import Idealize.ShloMosaic.Lib.StableHlo.Run
import proofs.«105842_j30374008717369_2_alg».proof.Proof.RefOps
import proofs.«105842_j30374008717369_2_alg».proof.Proof.LibAfter

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! The reference program finishes, and what it leaves in memory is computed by applying its operations in order.
    None of them writes one of the thirteen argument arrays, so those hold at the end what they held at the start. -/

theorem scopedRefs_eq : (Finset.univ.filter fun b : Ref sig .tc => b.isScoped) = ∅ := by decide
theorem scopedSems_eq : (Finset.univ.filter fun sm : SemLoc sig => sm.isScoped .tc) = ∅ := by decide

theorem sA_sub : (sA : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem sA_fresh : ∀ op ∈ (sA : List (HloOp τ sig (Elt F))), op.fresh = ∅ := by
  intro _ h; (repeat (cases h with | head => rfl | tail _ h => ?_)); exact nomatch h
theorem sB_sub : (sB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub ..⟩
theorem sB_fresh : ∀ op ∈ (sB : List (HloOp τ sig (Elt F))), op.fresh = ∅ := by
  intro _ h; (repeat (cases h with | head => rfl | tail _ h => ?_)); exact nomatch h
theorem sC_sub : (sC : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.reshape_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
theorem sC_fresh : ∀ op ∈ (sC : List (HloOp τ sig (Elt F))), op.fresh = ∅ := by
  intro _ h; (repeat (cases h with | head => rfl | tail _ h => ?_)); exact nomatch h
theorem sD_sub : (sD : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub ..⟩
theorem sD_fresh : ∀ op ∈ (sD : List (HloOp τ sig (Elt F))), op.fresh = ∅ := by
  intro _ h; (repeat (cases h with | head => rfl | tail _ h => ?_)); exact nomatch h
theorem sE_sub : (sE : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.reshape_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub ..⟩
theorem sE_fresh : ∀ op ∈ (sE : List (HloOp τ sig (Elt F))), op.fresh = ∅ := by
  intro _ h; (repeat (cases h with | head => rfl | tail _ h => ?_)); exact nomatch h
theorem sF_sub : (sF : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub ..⟩
theorem sF_fresh : ∀ op ∈ (sF : List (HloOp τ sig (Elt F))), op.fresh = ∅ := by
  intro _ h; (repeat (cases h with | head => rfl | tail _ h => ?_)); exact nomatch h
theorem sG_sub : (sG : List (HloOp τ sig (Elt F))).Forall fun op => op.bufs ⊆ StableHlo.tcRefs τ sig :=
  StableHlo.nary_bufs_sub ..
theorem sG_fresh : ∀ op ∈ (sG : List (HloOp τ sig (Elt F))), op.fresh = ∅ := by
  intro _ h; (repeat (cases h with | head => rfl | tail _ h => ?_)); exact nomatch h
theorem sH_sub : (sH : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub .., StableHlo.binary_bufs_sub ..⟩
theorem sH_fresh : ∀ op ∈ (sH : List (HloOp τ sig (Elt F))), op.fresh = ∅ := by
  intro _ h; (repeat (cases h with | head => rfl | tail _ h => ?_)); exact nomatch h
theorem sI_sub : (sI : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub .., StableHlo.binary_bufs_sub ..⟩
theorem sI_fresh : ∀ op ∈ (sI : List (HloOp τ sig (Elt F))), op.fresh = ∅ := by
  intro _ h; (repeat (cases h with | head => rfl | tail _ h => ?_)); exact nomatch h
theorem sJ_sub : (sJ : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub .., StableHlo.binary_bufs_sub ..⟩
theorem sJ_fresh : ∀ op ∈ (sJ : List (HloOp τ sig (Elt F))), op.fresh = ∅ := by
  intro _ h; (repeat (cases h with | head => rfl | tail _ h => ?_)); exact nomatch h
theorem sK_sub : (sK : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem sK_fresh : ∀ op ∈ (sK : List (HloOp τ sig (Elt F))), op.fresh = ∅ := by
  intro _ h; (repeat (cases h with | head => rfl | tail _ h => ?_)); exact nomatch h

theorem ops_sub : (ops : List (HloOp τ sig (Elt F))).Forall fun op => op.bufs ⊆ StableHlo.tcRefs τ sig :=
  List.forall_append.mpr ⟨List.forall_append.mpr ⟨sA_sub, List.forall_append.mpr ⟨sB_sub, sC_sub⟩⟩, List.forall_append.mpr ⟨List.forall_append.mpr ⟨sD_sub, sE_sub⟩, List.forall_append.mpr ⟨sF_sub, List.forall_append.mpr ⟨sG_sub, List.forall_append.mpr ⟨sH_sub, List.forall_append.mpr ⟨sI_sub, List.forall_append.mpr ⟨sJ_sub, sK_sub⟩⟩⟩⟩⟩⟩⟩

theorem ops_fresh : ∀ op ∈ (ops : List (HloOp τ sig (Elt F))), op.fresh = ∅ :=
  (fun op h => (List.mem_append.mp h).elim ((fun op h => (List.mem_append.mp h).elim (sA_fresh op) ((fun op h => (List.mem_append.mp h).elim (sB_fresh op) (sC_fresh op)) op)) op) ((fun op h => (List.mem_append.mp h).elim ((fun op h => (List.mem_append.mp h).elim (sD_fresh op) (sE_fresh op)) op) ((fun op h => (List.mem_append.mp h).elim (sF_fresh op) ((fun op h => (List.mem_append.mp h).elim (sG_fresh op) ((fun op h => (List.mem_append.mp h).elim (sH_fresh op) ((fun op h => (List.mem_append.mp h).elim (sI_fresh op) ((fun op h => (List.mem_append.mp h).elim (sJ_fresh op) (sK_fresh op)) op)) op)) op)) op)) op)) op))

/-- Started from a memory `m` all of whose counters are zero, the program always finishes; once it has, buffer `b`
    of core `c` holds what the operations, applied one after the other to the contents `m` gives that core, leave in `b`. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ (fun _ => ops_fresh)

/-! ## What each run writes, and what it keeps -/

/-- An operation writing the one buffer `y` writes inside any list of buffers that has `y`. -/
theorem wr (y : Ref sig .tc) {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers run `sA` writes. -/
abbrev sA_w : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18]
theorem sA_writes : (sA : List (HloOp τ sig (Elt F))).Forall fun op => op.writes ⊆ (sA_w.map (Proc.devRef (τ := τ) .tc)).toFinset :=
  ⟨wr main_v0 (by decide), wr main_v1 (by decide), wr main_v2 (by decide), wr main_v3 (by decide), wr main_c (by decide), wr main_v4 (by decide), wr main_v5 (by decide), wr main_c_0 (by decide), wr main_v6 (by decide), wr main_v7 (by decide), wr main_v8 (by decide), wr main_v9 (by decide), wr main_v10 (by decide), wr main_c_1 (by decide), wr main_v11 (by decide), wr main_v12 (by decide), wr main_c_2 (by decide), wr main_v13 (by decide), wr main_v14 (by decide), wr main_v15 (by decide), wr main_v16 (by decide), wr main_v17 (by decide), wr main_v18 (by decide)⟩
/-- Run `sA` leaves every buffer it does not write as it was. -/
theorem kept_sA (V : Valuation τ sig (Elt F)) {r : Ref sig .tc} (hr : r ∉ sA_w) :
    StableHlo.after sA V (Proc.devRef .tc r) = V (Proc.devRef .tc r) :=
  StableHlo.after_of_writes_sub sA V sA_writes hr

/-- The buffers run `sB` writes. -/
abbrev sB_w : List (Ref sig .tc) := [main_c_3, main_v19, main_v20, main_c_4, main_v21, main_v22, main_v23, main_v24, main_v25, main_c_5, main_v26, main_v27, main_c_6, main_v28, main_v29, main_v30, main_v31, main_v32, main_v33]
theorem sB_writes : (sB : List (HloOp τ sig (Elt F))).Forall fun op => op.writes ⊆ (sB_w.map (Proc.devRef (τ := τ) .tc)).toFinset :=
  ⟨wr main_c_3 (by decide), wr main_v19 (by decide), wr main_v20 (by decide), wr main_c_4 (by decide), wr main_v21 (by decide), wr main_v22 (by decide), wr main_v23 (by decide), wr main_v24 (by decide), wr main_v25 (by decide), wr main_c_5 (by decide), wr main_v26 (by decide), wr main_v27 (by decide), wr main_c_6 (by decide), wr main_v28 (by decide), wr main_v29 (by decide), wr main_v30 (by decide), wr main_v31 (by decide), wr main_v32 (by decide), wr main_v33 (by decide)⟩
/-- Run `sB` leaves every buffer it does not write as it was. -/
theorem kept_sB (V : Valuation τ sig (Elt F)) {r : Ref sig .tc} (hr : r ∉ sB_w) :
    StableHlo.after sB V (Proc.devRef .tc r) = V (Proc.devRef .tc r) :=
  StableHlo.after_of_writes_sub sB V sB_writes hr

/-- The buffers run `sC` writes. -/
abbrev sC_w : List (Ref sig .tc) := [main_v34, main_v35, main_v36, main_v37, main_v38, main_v39, main_c_7, main_v40, main_v41, main_v42, main_c_8, main_v43, main_v44, main_c_9, main_v45, main_v46, main_v47, main_v48]
theorem sC_writes : (sC : List (HloOp τ sig (Elt F))).Forall fun op => op.writes ⊆ (sC_w.map (Proc.devRef (τ := τ) .tc)).toFinset :=
  ⟨wr main_v34 (by decide), wr main_v35 (by decide), wr main_v36 (by decide), wr main_v37 (by decide), wr main_v38 (by decide), wr main_v39 (by decide), wr main_c_7 (by decide), wr main_v40 (by decide), wr main_v41 (by decide), wr main_v42 (by decide), wr main_c_8 (by decide), wr main_v43 (by decide), wr main_v44 (by decide), wr main_c_9 (by decide), wr main_v45 (by decide), wr main_v46 (by decide), wr main_v47 (by decide), wr main_v48 (by decide)⟩
/-- Run `sC` leaves every buffer it does not write as it was. -/
theorem kept_sC (V : Valuation τ sig (Elt F)) {r : Ref sig .tc} (hr : r ∉ sC_w) :
    StableHlo.after sC V (Proc.devRef .tc r) = V (Proc.devRef .tc r) :=
  StableHlo.after_of_writes_sub sC V sC_writes hr

/-- The buffers run `sD` writes. -/
abbrev sD_w : List (Ref sig .tc) := [main_v49, main_v50, main_v51, main_v52, main_cst, main_v53, main_v54, main_v55, main_cst_10, main_v56, main_v57, main_v58, main_v59, main_cst_11, main_v60, main_v61, main_cst_12, main_v62, main_v63, main_v64, main_v65, main_v66, main_cst_13, main_call0_v0, main_call0_v1, main_call0_v2, main_v67]
theorem sD_writes : (sD : List (HloOp τ sig (Elt F))).Forall fun op => op.writes ⊆ (sD_w.map (Proc.devRef (τ := τ) .tc)).toFinset :=
  ⟨wr main_v49 (by decide), wr main_v50 (by decide), wr main_v51 (by decide), wr main_v52 (by decide), wr main_cst (by decide), wr main_v53 (by decide), wr main_v54 (by decide), wr main_v55 (by decide), wr main_cst_10 (by decide), wr main_v56 (by decide), wr main_v57 (by decide), wr main_v58 (by decide), wr main_v59 (by decide), wr main_cst_11 (by decide), wr main_v60 (by decide), wr main_v61 (by decide), wr main_cst_12 (by decide), wr main_v62 (by decide), wr main_v63 (by decide), wr main_v64 (by decide), wr main_v65 (by decide), wr main_v66 (by decide), wr main_cst_13 (by decide), wr main_call0_v0 (by decide), wr main_call0_v1 (by decide), wr main_call0_v2 (by decide), wr main_v67 (by decide)⟩
/-- Run `sD` leaves every buffer it does not write as it was. -/
theorem kept_sD (V : Valuation τ sig (Elt F)) {r : Ref sig .tc} (hr : r ∉ sD_w) :
    StableHlo.after sD V (Proc.devRef .tc r) = V (Proc.devRef .tc r) :=
  StableHlo.after_of_writes_sub sD V sD_writes hr

/-- The buffers run `sE` writes. -/
abbrev sE_w : List (Ref sig .tc) := [main_v68, main_v69, main_v70, main_v71, main_v72, main_v73, main_c_14, main_v74, main_v75, main_v76, main_c_15, main_v77, main_v78, main_c_16, main_v79, main_v80, main_v81, main_v82, main_v83, main_v84, main_v85, main_v86, main_cst_17, main_v87, main_v88, main_v89, main_cst_18, main_v90, main_v91, main_v92, main_v93, main_cst_19, main_v94, main_v95, main_cst_20, main_v96]
theorem sE_writes : (sE : List (HloOp τ sig (Elt F))).Forall fun op => op.writes ⊆ (sE_w.map (Proc.devRef (τ := τ) .tc)).toFinset :=
  ⟨wr main_v68 (by decide), wr main_v69 (by decide), wr main_v70 (by decide), wr main_v71 (by decide), wr main_v72 (by decide), wr main_v73 (by decide), wr main_c_14 (by decide), wr main_v74 (by decide), wr main_v75 (by decide), wr main_v76 (by decide), wr main_c_15 (by decide), wr main_v77 (by decide), wr main_v78 (by decide), wr main_c_16 (by decide), wr main_v79 (by decide), wr main_v80 (by decide), wr main_v81 (by decide), wr main_v82 (by decide), wr main_v83 (by decide), wr main_v84 (by decide), wr main_v85 (by decide), wr main_v86 (by decide), wr main_cst_17 (by decide), wr main_v87 (by decide), wr main_v88 (by decide), wr main_v89 (by decide), wr main_cst_18 (by decide), wr main_v90 (by decide), wr main_v91 (by decide), wr main_v92 (by decide), wr main_v93 (by decide), wr main_cst_19 (by decide), wr main_v94 (by decide), wr main_v95 (by decide), wr main_cst_20 (by decide), wr main_v96 (by decide)⟩
/-- Run `sE` leaves every buffer it does not write as it was. -/
theorem kept_sE (V : Valuation τ sig (Elt F)) {r : Ref sig .tc} (hr : r ∉ sE_w) :
    StableHlo.after sE V (Proc.devRef .tc r) = V (Proc.devRef .tc r) :=
  StableHlo.after_of_writes_sub sE V sE_writes hr

/-- The buffers run `sF` writes. -/
abbrev sF_w : List (Ref sig .tc) := [main_v97, main_v98, main_v99, main_v100, main_cst_21, main_call1_v0, main_call1_v1, main_call1_v2, main_v101]
theorem sF_writes : (sF : List (HloOp τ sig (Elt F))).Forall fun op => op.writes ⊆ (sF_w.map (Proc.devRef (τ := τ) .tc)).toFinset :=
  ⟨wr main_v97 (by decide), wr main_v98 (by decide), wr main_v99 (by decide), wr main_v100 (by decide), wr main_cst_21 (by decide), wr main_call1_v0 (by decide), wr main_call1_v1 (by decide), wr main_call1_v2 (by decide), wr main_v101 (by decide)⟩
/-- Run `sF` leaves every buffer it does not write as it was. -/
theorem kept_sF (V : Valuation τ sig (Elt F)) {r : Ref sig .tc} (hr : r ∉ sF_w) :
    StableHlo.after sF V (Proc.devRef .tc r) = V (Proc.devRef .tc r) :=
  StableHlo.after_of_writes_sub sF V sF_writes hr

/-- The buffers run `sG` writes. -/
abbrev sG_w : List (Ref sig .tc) := [main_v102]
theorem sG_writes : (sG : List (HloOp τ sig (Elt F))).Forall fun op => op.writes ⊆ (sG_w.map (Proc.devRef (τ := τ) .tc)).toFinset :=
  wr main_v102 (by decide)
/-- Run `sG` leaves every buffer it does not write as it was. -/
theorem kept_sG (V : Valuation τ sig (Elt F)) {r : Ref sig .tc} (hr : r ∉ sG_w) :
    StableHlo.after sG V (Proc.devRef .tc r) = V (Proc.devRef .tc r) :=
  StableHlo.after_of_writes_sub sG V sG_writes hr

/-- The buffers run `sH` writes. -/
abbrev sH_w : List (Ref sig .tc) := [main_v103, main_v104, main_v105, main_v106, main_v107, main_v108, main_v109, main_v110, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v111, main_v112]
theorem sH_writes : (sH : List (HloOp τ sig (Elt F))).Forall fun op => op.writes ⊆ (sH_w.map (Proc.devRef (τ := τ) .tc)).toFinset :=
  ⟨wr main_v103 (by decide), wr main_v104 (by decide), wr main_v105 (by decide), wr main_v106 (by decide), wr main_v107 (by decide), wr main_v108 (by decide), wr main_v109 (by decide), wr main_v110 (by decide), wr main_call2_cst (by decide), wr main_call2_v0 (by decide), wr main_call2_v1 (by decide), wr main_call2_cst_0 (by decide), wr main_call2_v2 (by decide), wr main_call2_v3 (by decide), wr main_call2_cst_1 (by decide), wr main_call2_call0_v0 (by decide), wr main_call2_call0_v1 (by decide), wr main_call2_v4 (by decide), wr main_call2_v5 (by decide), wr main_call2_cst_2 (by decide), wr main_call2_v6 (by decide), wr main_call2_v7 (by decide), wr main_v111 (by decide), wr main_v112 (by decide)⟩
/-- Run `sH` leaves every buffer it does not write as it was. -/
theorem kept_sH (V : Valuation τ sig (Elt F)) {r : Ref sig .tc} (hr : r ∉ sH_w) :
    StableHlo.after sH V (Proc.devRef .tc r) = V (Proc.devRef .tc r) :=
  StableHlo.after_of_writes_sub sH V sH_writes hr

/-- The buffers run `sI` writes. -/
abbrev sI_w : List (Ref sig .tc) := [main_v113, main_v114, main_v115, main_v116, main_v117, main_v118, main_v119, main_v120, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v121, main_v122]
theorem sI_writes : (sI : List (HloOp τ sig (Elt F))).Forall fun op => op.writes ⊆ (sI_w.map (Proc.devRef (τ := τ) .tc)).toFinset :=
  ⟨wr main_v113 (by decide), wr main_v114 (by decide), wr main_v115 (by decide), wr main_v116 (by decide), wr main_v117 (by decide), wr main_v118 (by decide), wr main_v119 (by decide), wr main_v120 (by decide), wr main_call3_cst (by decide), wr main_call3_v0 (by decide), wr main_call3_v1 (by decide), wr main_call3_cst_0 (by decide), wr main_call3_v2 (by decide), wr main_call3_v3 (by decide), wr main_call3_cst_1 (by decide), wr main_call3_call0_v0 (by decide), wr main_call3_call0_v1 (by decide), wr main_call3_v4 (by decide), wr main_call3_v5 (by decide), wr main_call3_cst_2 (by decide), wr main_call3_v6 (by decide), wr main_call3_v7 (by decide), wr main_v121 (by decide), wr main_v122 (by decide)⟩
/-- Run `sI` leaves every buffer it does not write as it was. -/
theorem kept_sI (V : Valuation τ sig (Elt F)) {r : Ref sig .tc} (hr : r ∉ sI_w) :
    StableHlo.after sI V (Proc.devRef .tc r) = V (Proc.devRef .tc r) :=
  StableHlo.after_of_writes_sub sI V sI_writes hr

/-- The buffers run `sJ` writes. -/
abbrev sJ_w : List (Ref sig .tc) := [main_v123, main_v124, main_v125, main_v126, main_v127, main_v128, main_v129, main_v130, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v131, main_v132]
theorem sJ_writes : (sJ : List (HloOp τ sig (Elt F))).Forall fun op => op.writes ⊆ (sJ_w.map (Proc.devRef (τ := τ) .tc)).toFinset :=
  ⟨wr main_v123 (by decide), wr main_v124 (by decide), wr main_v125 (by decide), wr main_v126 (by decide), wr main_v127 (by decide), wr main_v128 (by decide), wr main_v129 (by decide), wr main_v130 (by decide), wr main_call4_cst (by decide), wr main_call4_v0 (by decide), wr main_call4_v1 (by decide), wr main_call4_cst_0 (by decide), wr main_call4_v2 (by decide), wr main_call4_v3 (by decide), wr main_call4_cst_1 (by decide), wr main_call4_call0_v0 (by decide), wr main_call4_call0_v1 (by decide), wr main_call4_v4 (by decide), wr main_call4_v5 (by decide), wr main_call4_cst_2 (by decide), wr main_call4_v6 (by decide), wr main_call4_v7 (by decide), wr main_v131 (by decide), wr main_v132 (by decide)⟩
/-- Run `sJ` leaves every buffer it does not write as it was. -/
theorem kept_sJ (V : Valuation τ sig (Elt F)) {r : Ref sig .tc} (hr : r ∉ sJ_w) :
    StableHlo.after sJ V (Proc.devRef .tc r) = V (Proc.devRef .tc r) :=
  StableHlo.after_of_writes_sub sJ V sJ_writes hr

/-- The buffers run `sK` writes. -/
abbrev sK_w : List (Ref sig .tc) := [main_v133, main_v134, main_v135, main_v136]
theorem sK_writes : (sK : List (HloOp τ sig (Elt F))).Forall fun op => op.writes ⊆ (sK_w.map (Proc.devRef (τ := τ) .tc)).toFinset :=
  ⟨wr main_v133 (by decide), wr main_v134 (by decide), wr main_v135 (by decide), wr main_v136 (by decide)⟩
/-- Run `sK` leaves every buffer it does not write as it was. -/
theorem kept_sK (V : Valuation τ sig (Elt F)) {r : Ref sig .tc} (hr : r ∉ sK_w) :
    StableHlo.after sK V (Proc.devRef .tc r) = V (Proc.devRef .tc r) :=
  StableHlo.after_of_writes_sub sK V sK_writes hr

/-- The fold over the whole program is the runs' folds one after the other. -/
theorem after_ops (V : Valuation τ sig (Elt F)) :
    StableHlo.after ops V = StableHlo.after sK (StableHlo.after sJ (StableHlo.after sI (StableHlo.after sH (StableHlo.after sG (StableHlo.after sF (StableHlo.after sE (StableHlo.after sD (StableHlo.after sC (StableHlo.after sB (StableHlo.after sA (V))))))))))) := by
  show StableHlo.after ((sA ++ (sB ++ sC)) ++ ((sD ++ sE) ++ (sF ++ (sG ++ (sH ++ (sI ++ (sJ ++ sK))))))) V = _
  simp only [Cert.LibAfter.after_append]

/-- A buffer no run writes is, after the whole program, as it was. -/
theorem kept_ops (V : Valuation τ sig (Elt F)) {r : Ref sig .tc}
    (hsA : r ∉ sA_w) (hsB : r ∉ sB_w) (hsC : r ∉ sC_w) (hsD : r ∉ sD_w) (hsE : r ∉ sE_w) (hsF : r ∉ sF_w) (hsG : r ∉ sG_w) (hsH : r ∉ sH_w) (hsI : r ∉ sI_w) (hsJ : r ∉ sJ_w) (hsK : r ∉ sK_w) :
    StableHlo.after ops V (Proc.devRef .tc r) = V (Proc.devRef .tc r) := by
  rw [after_ops, kept_sK _ hsK, kept_sJ _ hsJ, kept_sI _ hsI, kept_sH _ hsH, kept_sG _ hsG, kept_sF _ hsF, kept_sE _ hsE, kept_sD _ hsD, kept_sC _ hsC, kept_sB _ hsB, kept_sA _ hsA]

theorem kept_main_arg0 (m : (ℓ : Loc nD τ sig) → Buf (Elt F) ℓ) (c : Dev nD) :
    StableHlo.after ops (StableHlo.launchContents m c) (Proc.devRef .tc main_arg0) = m ((c.tc : Thread nD τ).loc main_arg0) :=
  kept_ops (StableHlo.launchContents m c) (by decide) (by decide) (by decide) (by decide) (by decide) (by decide) (by decide) (by decide) (by decide) (by decide) (by decide)
theorem kept_main_arg1 (m : (ℓ : Loc nD τ sig) → Buf (Elt F) ℓ) (c : Dev nD) :
    StableHlo.after ops (StableHlo.launchContents m c) (Proc.devRef .tc main_arg1) = m ((c.tc : Thread nD τ).loc main_arg1) :=
  kept_ops (StableHlo.launchContents m c) (by decide) (by decide) (by decide) (by decide) (by decide) (by decide) (by decide) (by decide) (by decide) (by decide) (by decide)
theorem kept_main_arg2 (m : (ℓ : Loc nD τ sig) → Buf (Elt F) ℓ) (c : Dev nD) :
    StableHlo.after ops (StableHlo.launchContents m c) (Proc.devRef .tc main_arg2) = m ((c.tc : Thread nD τ).loc main_arg2) :=
  kept_ops (StableHlo.launchContents m c) (by decide) (by decide) (by decide) (by decide) (by decide) (by decide) (by decide) (by decide) (by decide) (by decide) (by decide)
theorem kept_main_arg3 (m : (ℓ : Loc nD τ sig) → Buf (Elt F) ℓ) (c : Dev nD) :
    StableHlo.after ops (StableHlo.launchContents m c) (Proc.devRef .tc main_arg3) = m ((c.tc : Thread nD τ).loc main_arg3) :=
  kept_ops (StableHlo.launchContents m c) (by decide) (by decide) (by decide) (by decide) (by decide) (by decide) (by decide) (by decide) (by decide) (by decide) (by decide)
theorem kept_main_arg4 (m : (ℓ : Loc nD τ sig) → Buf (Elt F) ℓ) (c : Dev nD) :
    StableHlo.after ops (StableHlo.launchContents m c) (Proc.devRef .tc main_arg4) = m ((c.tc : Thread nD τ).loc main_arg4) :=
  kept_ops (StableHlo.launchContents m c) (by decide) (by decide) (by decide) (by decide) (by decide) (by decide) (by decide) (by decide) (by decide) (by decide) (by decide)
theorem kept_main_arg5 (m : (ℓ : Loc nD τ sig) → Buf (Elt F) ℓ) (c : Dev nD) :
    StableHlo.after ops (StableHlo.launchContents m c) (Proc.devRef .tc main_arg5) = m ((c.tc : Thread nD τ).loc main_arg5) :=
  kept_ops (StableHlo.launchContents m c) (by decide) (by decide) (by decide) (by decide) (by decide) (by decide) (by decide) (by decide) (by decide) (by decide) (by decide)
theorem kept_main_arg6 (m : (ℓ : Loc nD τ sig) → Buf (Elt F) ℓ) (c : Dev nD) :
    StableHlo.after ops (StableHlo.launchContents m c) (Proc.devRef .tc main_arg6) = m ((c.tc : Thread nD τ).loc main_arg6) :=
  kept_ops (StableHlo.launchContents m c) (by decide) (by decide) (by decide) (by decide) (by decide) (by decide) (by decide) (by decide) (by decide) (by decide) (by decide)
theorem kept_main_arg7 (m : (ℓ : Loc nD τ sig) → Buf (Elt F) ℓ) (c : Dev nD) :
    StableHlo.after ops (StableHlo.launchContents m c) (Proc.devRef .tc main_arg7) = m ((c.tc : Thread nD τ).loc main_arg7) :=
  kept_ops (StableHlo.launchContents m c) (by decide) (by decide) (by decide) (by decide) (by decide) (by decide) (by decide) (by decide) (by decide) (by decide) (by decide)
theorem kept_main_arg8 (m : (ℓ : Loc nD τ sig) → Buf (Elt F) ℓ) (c : Dev nD) :
    StableHlo.after ops (StableHlo.launchContents m c) (Proc.devRef .tc main_arg8) = m ((c.tc : Thread nD τ).loc main_arg8) :=
  kept_ops (StableHlo.launchContents m c) (by decide) (by decide) (by decide) (by decide) (by decide) (by decide) (by decide) (by decide) (by decide) (by decide) (by decide)
theorem kept_main_arg9 (m : (ℓ : Loc nD τ sig) → Buf (Elt F) ℓ) (c : Dev nD) :
    StableHlo.after ops (StableHlo.launchContents m c) (Proc.devRef .tc main_arg9) = m ((c.tc : Thread nD τ).loc main_arg9) :=
  kept_ops (StableHlo.launchContents m c) (by decide) (by decide) (by decide) (by decide) (by decide) (by decide) (by decide) (by decide) (by decide) (by decide) (by decide)
theorem kept_main_arg10 (m : (ℓ : Loc nD τ sig) → Buf (Elt F) ℓ) (c : Dev nD) :
    StableHlo.after ops (StableHlo.launchContents m c) (Proc.devRef .tc main_arg10) = m ((c.tc : Thread nD τ).loc main_arg10) :=
  kept_ops (StableHlo.launchContents m c) (by decide) (by decide) (by decide) (by decide) (by decide) (by decide) (by decide) (by decide) (by decide) (by decide) (by decide)
theorem kept_main_arg11 (m : (ℓ : Loc nD τ sig) → Buf (Elt F) ℓ) (c : Dev nD) :
    StableHlo.after ops (StableHlo.launchContents m c) (Proc.devRef .tc main_arg11) = m ((c.tc : Thread nD τ).loc main_arg11) :=
  kept_ops (StableHlo.launchContents m c) (by decide) (by decide) (by decide) (by decide) (by decide) (by decide) (by decide) (by decide) (by decide) (by decide) (by decide)
theorem kept_main_arg12 (m : (ℓ : Loc nD τ sig) → Buf (Elt F) ℓ) (c : Dev nD) :
    StableHlo.after ops (StableHlo.launchContents m c) (Proc.devRef .tc main_arg12) = m ((c.tc : Thread nD τ).loc main_arg12) :=
  kept_ops (StableHlo.launchContents m c) (by decide) (by decide) (by decide) (by decide) (by decide) (by decide) (by decide) (by decide) (by decide) (by decide) (by decide)

/-- The program finishes, and each of the thirteen argument arrays then holds what it held at the start. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := F)) _ _).mono (fun _ h c => ⟨(h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c),
      (h c main_arg9).trans (kept_main_arg9 m c),
      (h c main_arg10).trans (kept_main_arg10 m c),
      (h c main_arg11).trans (kept_main_arg11 m c),
      (h c main_arg12).trans (kept_main_arg12 m c)⟩)
    (run_after m ρ)

end Cert.ReferenceIdeal.Hand

end
-- ==== Proof.LibNary6.lean ====
/-
  A host operation with six operands (a concatenation of six pieces), read at its result: the operation's function
  applied to the six operands' contents, each AT ITS OWN REFERENCE. The general rule for an n-ary operation gives the
  function applied to `fun k => F ↑(xs k)`, under whose binder the reference `xs k` is no literal, so that no further
  result rule applies to the operands; for a literal family of six references the contents are spelt one by one, and
  rewriting can go on into each operand.
-/
import Idealize.ShloMosaic.Lib.StableHlo.Run

noncomputable section

namespace Cert.LibNary6

open Idealize.ShloMosaic Idealize.ShloMosaic.StableHlo

variable {τ : Topo} {sig : RefSig} {Val : EltTy → Type}
variable {x0 x1 x2 x3 x4 x5 y : Ref sig .tc}

/-- For any six references and any function of their contents: the result buffer of the six-operand operation
    `nary ![x0, …, x5] y f` holds `f` of the six operands' contents, listed one by one (`Fin.cons`). -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) := by
  rw [nary_result]; congr 1; funext k; fin_cases k <;> rfl

end Cert.LibNary6

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«105842_j30374008717369_2_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«105842_j30374008717369_2_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.Layers.lean ====
/-
  One residual layer on a block of rows and on the whole array.

  The kernel's body, on a block of 1024 rows, is: the features side by side, three times
  h ↦ ELU(h · W_k + b_k) + h, then h ↦ h · W_o + b_o. The reference does the same on all 32768 rows at once.
  Both read the same weight matrices (layer k of the stacked weights) and the same bias rows. A product with a
  matrix on the right, the addition of a bias row, ELU entry by entry and the residual sum each act on a row by
  itself, so the block's rows stay the corresponding rows of the whole array through every step
  (the relation `RowsAt`). The kernel writes ELU as exp(min-part) − 1, the reference as 1 · expm1(min-part);
  on the extended reals expm1 x is exp x − 1 and 1 · y = y, so the two are one function.
-/
import proofs.«105842_j30374008717369_2_alg».proof.Proof.Gen.KernelIdeal.Skeleton
import proofs.«105842_j30374008717369_2_alg».proof.ReferenceIdeal
import proofs.«105842_j30374008717369_2_alg».proof.Proof.Gen.ReferenceIdeal
import proofs.«105842_j30374008717369_2_alg».proof.Proof.LibRowBlocks
import Idealize.ShloMosaic.Lib.ValueLayout
import Idealize.ShloMosaic.Lib.Pipeline.Value
import Idealize.ShloMosaic.Lib.IdealHost

set_option maxRecDepth 16384

noncomputable section

namespace Cert.Bridge

open Idealize.ShloMosaic Idealize.ShloMosaic.ValueIdx

/-! ## The kernel's steps on a block -/

namespace K

open Cert.KernelIdeal Cert.KernelIdeal.Gen

variable {F : FTy → Type} [FloatOps F]

/-- ELU as the kernel writes it: y where y > 0, otherwise exp(y) − 1, the exponential taken of 0 where y > 0. -/
def elu (y : FVec F S1024x1280 .f32) : FVec F S1024x1280 .f32 :=
  select (cmpf .ogt y (broadcast S1024x1280 (Scalar.ofBits .f32 0x00000000#32))) y
    (subf (exp (select (cmpf .ogt y (broadcast S1024x1280 (Scalar.ofBits .f32 0x00000000#32)))
        (broadcast S1024x1280 (Scalar.ofBits .f32 0x00000000#32)) y))
      (broadcast S1024x1280 (Scalar.ofBits .f32 0x3F800000#32)))

/-- One layer's weight matrix, from its slab of the stacked weights. -/
def wmat (v : Vec F S1x1280x1280 .f32) : FVec F S1280x1280 .f32 := shapeCast S1280x1280 v Facts₀.shapeCasts_S1x1280x1280_S1280x1280

/-- One layer's bias row, repeated down the block's rows. -/
def brow (v : Vec F S1x1280 .f32) : FVec F S1024x1280 .f32 :=
  broadcastTo S1024x1280 (shapeCast S1x1280 (shapeCast S1280 v Facts₀.shapeCasts_S1x1280_S1280) Facts₀.shapeCasts_S1280_S1x1280) Facts₀.broadcasts_S1x1280_S1024x1280

/-- One residual layer: ELU(h · W + b) + h. -/
def layer (h : FVec F S1024x1280 .f32) (w : Vec F S1x1280x1280 .f32) (b : Vec F S1x1280 .f32) : FVec F S1024x1280 .f32 :=
  addf (elu (addf (matmul dot_S1024x1280_S1280x1280_S1024x1280_1_0_0_1_n_n (some .fp32) h (wmat w) (constant S1024x1280 .f32 0x00000000#32)) (brow b))) h

/-- The block's features: the four input blocks side by side. -/
def feats (v0 : Vec F S1024x512 .f32) (v2 v4 v6 : Vec F S1024x256 .f32) : FVec F S1024x1280 .f32 :=
  concatenate S1024x1280 1 [⟨S1024x512, shapeCast S1024x512 v0 Facts₀.shapeCasts_S1024x512_S1024x512⟩,
    ⟨S1024x256, shapeCast S1024x256 v2 Facts₀.shapeCasts_S1024x256_S1024x256⟩,
    ⟨S1024x256, shapeCast S1024x256 v4 Facts₀.shapeCasts_S1024x256_S1024x256⟩,
    ⟨S1024x256, shapeCast S1024x256 v6 Facts₀.shapeCasts_S1024x256_S1024x256⟩] Facts₀.concatenates_S1024x512_S1024x256_S1024x256_S1024x256_S1024x1280_d1

/-- The output projection: h · W_o + b_o. -/
def proj (h : FVec F S1024x1280 .f32) (w : Vec F S1280x512 .f32) (b : Vec F S512 .f32) : FVec F S1024x512 .f32 :=
  addf (matmul dot_S1024x1280_S1280x512_S1024x512_1_0_0_1_n_n (some .fp32) h w (constant S1024x512 .f32 0x00000000#32))
    (broadcastTo S1024x512 (shapeCast S1x512 b Facts₀.shapeCasts_S512_S1x512) Facts₀.broadcasts_S1x512_S1024x512)

/-- The first layer's output is the body's first carried value. -/
theorem pay1_eq (v0 : Vec F S1024x512 .f32) (v2 v4 v6 : Vec F S1024x256 .f32) (v9 : Vec F S1x1280x1280 .f32) (v11 : Vec F S1x1280 .f32) :
    k0_pay1 v0 v2 v4 v6 v9 v11 = layer (feats v0 v2 v4 v6) v9 v11 := rfl

/-- What the body stores is the projection of three layers of the features. -/
theorem pay4_eq (v0 : Vec F S1024x512 .f32) (v2 v4 v6 : Vec F S1024x256 .f32) (v9 v28 v47 : Vec F S1x1280x1280 .f32)
    (v11 v30 v49 : Vec F S1x1280 .f32) (v66 : Vec F S1280x512 .f32) (v67 : Vec F S512 .f32) :
    k0_pay4 (k0_pay1 v0 v2 v4 v6 v9 v11) (k0_pay2 v0 v2 v4 v6 v9 v11 v28) (k0_pay3 v30) v47 v49 v66 v67
      = proj (layer (layer (layer (feats v0 v2 v4 v6) v9 v11) v28 v30) v47 v49) v66 v67 := rfl

end K

/-! ## The reference's steps on the whole array -/

namespace R

open Cert.ReferenceIdeal Cert.ReferenceIdeal.Gen

variable {F : FTy → Type} [FloatOps F]

/-- ELU as the reference writes it: y where y > 0, otherwise 1 · expm1(y), taken of 0 where y > 0. -/
def elu (y : FVec F S32768x1280 .f32) : FVec F S32768x1280 .f32 :=
  select (cmpf .ogt y (broadcastInDim S32768x1280 ![] Facts₀.bcast_S_S32768x1280 (constant S_ .f32 0x00000000#32))) y
    (mulf (broadcastInDim S32768x1280 ![] Facts₀.bcast_S_S32768x1280 (constant S_ .f32 0x3F800000#32))
      (Host.expm1 (select (cmpf .ogt y (broadcastInDim S32768x1280 ![] Facts₀.bcast_S_S32768x1280 (constant S_ .f32 0x00000000#32)))
        (broadcastInDim S32768x1280 ![] Facts₀.bcast_S_S32768x1280 (id (constant S_ .f32 0x00000000#32))) y)))

/-- One residual layer over a weight matrix and a bias array: ELU(H · W + B) + H. -/
def layer (H : FVec F S32768x1280 .f32) (W : FVec F S1280x1280 .f32) (B : FVec F S32768x1280 .f32) : FVec F S32768x1280 .f32 :=
  addf (elu (addf (Host.dotGeneral dot_S32768x1280_S1280x1280_S32768x1280_1_0_0_1_n_n none H W) B)) H

/-- Layer 0, 1, 2's weight matrix cut out of the stacked weights. -/
def wmat0 (a9 : FVec F S3x1280x1280 .f32) : FVec F S1280x1280 .f32 :=
  shapeCast S1280x1280 (extractStridedSlice S1x1280x1280 ![0, 0, 0] a9 Facts₀.slices_S3x1280x1280_S1x1280x1280_0_0_0) Facts₀.shapeCasts_S1x1280x1280_S1280x1280
def wmat1 (a9 : FVec F S3x1280x1280 .f32) : FVec F S1280x1280 .f32 :=
  shapeCast S1280x1280 (extractStridedSlice S1x1280x1280 ![1, 0, 0] a9 Facts₀.slices_S3x1280x1280_S1x1280x1280_1_0_0) Facts₀.shapeCasts_S1x1280x1280_S1280x1280
def wmat2 (a9 : FVec F S3x1280x1280 .f32) : FVec F S1280x1280 .f32 :=
  shapeCast S1280x1280 (extractStridedSlice S1x1280x1280 ![2, 0, 0] a9 Facts₀.slices_S3x1280x1280_S1x1280x1280_2_0_0) Facts₀.shapeCasts_S1x1280x1280_S1280x1280

/-- A bias row repeated down all rows. -/
def rows (v : FVec F S1280 .f32) : FVec F S32768x1280 .f32 :=
  broadcastInDim S32768x1280 ![0, 1] Facts₀.bcast_S1x1280_S32768x1280_0_1 (broadcastInDim S1x1280 ![1] Facts₀.bcast_S1280_S1x1280_1 v)

/-- Layer 0, 1, 2's bias row cut out of the stacked biases and repeated down all rows. -/
def brow0 (a10 : FVec F S3x1280 .f32) : FVec F S32768x1280 .f32 :=
  rows (shapeCast S1280 (extractStridedSlice S1x1280 ![0, 0] a10 Facts₀.slices_S3x1280_S1x1280_0_0) Facts₀.shapeCasts_S1x1280_S1280)
def brow1 (a10 : FVec F S3x1280 .f32) : FVec F S32768x1280 .f32 :=
  rows (shapeCast S1280 (extractStridedSlice S1x1280 ![1, 0] a10 Facts₀.slices_S3x1280_S1x1280_1_0) Facts₀.shapeCasts_S1x1280_S1280)
def brow2 (a10 : FVec F S3x1280 .f32) : FVec F S32768x1280 .f32 :=
  rows (shapeCast S1280 (extractStridedSlice S1x1280 ![2, 0] a10 Facts₀.slices_S3x1280_S1x1280_2_0) Facts₀.shapeCasts_S1x1280_S1280)

/-- The output projection. -/
def proj (H : FVec F S32768x1280 .f32) (a11 : FVec F S1280x512 .f32) (a12 : FVec F S512 .f32) : FVec F S32768x512 .f32 :=
  addf (Host.dotGeneral dot_S32768x1280_S1280x512_S32768x512_1_0_0_1_n_n none H a11)
    (broadcastInDim S32768x512 ![0, 1] Facts₀.bcast_S1x512_S32768x512_0_1 (broadcastInDim S1x512 ![1] Facts₀.bcast_S512_S1x512_1 a12))

end R

end Cert.Bridge

end
-- ==== Proof.RefVal.lean ====
import proofs.«105842_j30374008717369_2_alg».proof.Proof.Gen.ReferenceIdeal
import Idealize.ShloMosaic.Lib.StableHlo.Run
import proofs.«105842_j30374008717369_2_alg».proof.Proof.RefRun
import proofs.«105842_j30374008717369_2_alg».proof.Proof.LibAfter
import proofs.«105842_j30374008717369_2_alg».proof.Proof.LibNary6
import proofs.«105842_j30374008717369_2_alg».proof.Proof.LibTRef
import proofs.«105842_j30374008717369_2_alg».proof.Proof.Layers

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The reference's values, stage by stage

Each definition is the composed term of the operations of one stage of the program, as a function of the values the stage
reads. -/

/-- The two endpoint rows of every edge, side by side: row `e` is the features of edge `e`'s first node followed by those of
    its second node (a negative node number counted from the end). -/
def pairs (X : FVec F S65536x256 .f32) (ei : IVec S2x32768 32) : FVec F S32768x512 .f32 :=
  (concatenate S32768x512 1 [⟨S32768x256, (Host.gather gather_S65536x256_S32768x1_S32768x256_1_0_n_n_0_1_1256 X (broadcastInDim S32768x1 ![0] bcast_S32768_S32768x1_0 (select (cmpi .slt (shapeCast S32768 (extractStridedSlice S1x32768 ![0, 0] ei slices_S2x32768_S1x32768_0_0) shapeCasts_S1x32768_S32768) (broadcastInDim S32768 ![] bcast_S_S32768 (constantI S_ 32 0#32 : IVec S_ 32))) (addi (shapeCast S32768 (extractStridedSlice S1x32768 ![0, 0] ei slices_S2x32768_S1x32768_0_0) shapeCasts_S1x32768_S32768) (broadcastInDim S32768 ![] bcast_S_S32768 (constantI S_ 32 65536#32 : IVec S_ 32))) (shapeCast S32768 (extractStridedSlice S1x32768 ![0, 0] ei slices_S2x32768_S1x32768_0_0) shapeCasts_S1x32768_S32768))))⟩, ⟨S32768x256, (Host.gather gather_S65536x256_S32768x1_S32768x256_1_0_n_n_0_1_1256 X (broadcastInDim S32768x1 ![0] bcast_S32768_S32768x1_0 (select (cmpi .slt (shapeCast S32768 (extractStridedSlice S1x32768 ![1, 0] ei slices_S2x32768_S1x32768_1_0) shapeCasts_S1x32768_S32768) (broadcastInDim S32768 ![] bcast_S_S32768 (constantI S_ 32 0#32 : IVec S_ 32))) (addi (shapeCast S32768 (extractStridedSlice S1x32768 ![1, 0] ei slices_S2x32768_S1x32768_1_0) shapeCasts_S1x32768_S32768) (broadcastInDim S32768 ![] bcast_S_S32768 (constantI S_ 32 65536#32 : IVec S_ 32))) (shapeCast S32768 (extractStridedSlice S1x32768 ![1, 0] ei slices_S2x32768_S1x32768_1_0) shapeCasts_S1x32768_S32768))))⟩] concatenates_S32768x256_S32768x256_S32768x512_d1)

/-- The per-edge offset, as a column: the offset table read at the graph number of the edge's first node. -/
def offs (ei : IVec S2x32768 32) (bv : IVec S65536 32) (ptr : IVec S65 32) : IVec S32768x1 32 :=
  (broadcastInDim S32768x1 ![0] bcast_S32768_S32768x1_0 (Host.gather gather_S65_S32768x1_S32768_n_0_n_n_0_1_1 ptr (broadcastInDim S32768x1 ![0] bcast_S32768_S32768x1_0 (select (cmpi .slt (Host.gather gather_S65536_S32768x1_S32768_n_0_n_n_0_1_1 bv (broadcastInDim S32768x1 ![0] bcast_S32768_S32768x1_0 (select (cmpi .slt (shapeCast S32768 (extractStridedSlice S1x32768 ![0, 0] ei slices_S2x32768_S1x32768_0_0) shapeCasts_S1x32768_S32768) (broadcastInDim S32768 ![] bcast_S_S32768 (constantI S_ 32 0#32 : IVec S_ 32))) (addi (shapeCast S32768 (extractStridedSlice S1x32768 ![0, 0] ei slices_S2x32768_S1x32768_0_0) shapeCasts_S1x32768_S32768) (broadcastInDim S32768 ![] bcast_S_S32768 (constantI S_ 32 65536#32 : IVec S_ 32))) (shapeCast S32768 (extractStridedSlice S1x32768 ![0, 0] ei slices_S2x32768_S1x32768_0_0) shapeCasts_S1x32768_S32768)))) (broadcastInDim S32768 ![] bcast_S_S32768 (constantI S_ 32 0#32 : IVec S_ 32))) (addi (Host.gather gather_S65536_S32768x1_S32768_n_0_n_n_0_1_1 bv (broadcastInDim S32768x1 ![0] bcast_S32768_S32768x1_0 (select (cmpi .slt (shapeCast S32768 (extractStridedSlice S1x32768 ![0, 0] ei slices_S2x32768_S1x32768_0_0) shapeCasts_S1x32768_S32768) (broadcastInDim S32768 ![] bcast_S_S32768 (constantI S_ 32 0#32 : IVec S_ 32))) (addi (shapeCast S32768 (extractStridedSlice S1x32768 ![0, 0] ei slices_S2x32768_S1x32768_0_0) shapeCasts_S1x32768_S32768) (broadcastInDim S32768 ![] bcast_S_S32768 (constantI S_ 32 65536#32 : IVec S_ 32))) (shapeCast S32768 (extractStridedSlice S1x32768 ![0, 0] ei slices_S2x32768_S1x32768_0_0) shapeCasts_S1x32768_S32768)))) (broadcastInDim S32768 ![] bcast_S_S32768 (constantI S_ 32 65#32 : IVec S_ 32))) (Host.gather gather_S65536_S32768x1_S32768_n_0_n_n_0_1_1 bv (broadcastInDim S32768x1 ![0] bcast_S32768_S32768x1_0 (select (cmpi .slt (shapeCast S32768 (extractStridedSlice S1x32768 ![0, 0] ei slices_S2x32768_S1x32768_0_0) shapeCasts_S1x32768_S32768) (broadcastInDim S32768 ![] bcast_S_S32768 (constantI S_ 32 0#32 : IVec S_ 32))) (addi (shapeCast S32768 (extractStridedSlice S1x32768 ![0, 0] ei slices_S2x32768_S1x32768_0_0) shapeCasts_S1x32768_S32768) (broadcastInDim S32768 ![] bcast_S_S32768 (constantI S_ 32 65536#32 : IVec S_ 32))) (shapeCast S32768 (extractStridedSlice S1x32768 ![0, 0] ei slices_S2x32768_S1x32768_0_0) shapeCasts_S1x32768_S32768))))))))

/-- A neighbour table shifted by the offset column, entry by entry, and flattened row after row. -/
def flatIdx (idx : IVec S32768x24 32) (o : IVec S32768x1 32) : IVec S786432 32 :=
  (shapeCast S786432 (addi idx (broadcastInDim S32768x24 ![0, 1] bcast_S32768x1_S32768x24_0_1 o)) shapeCasts_S32768x24_S786432)

/-- The validity of each flat entry as a float: one where the entry is not minus one, zero where it is. -/
def rowMask (flat : IVec S786432 32) : FVec F S786432 .f32 :=
  (uitofp .f32 (cmpi .ne flat (broadcastInDim S786432 ![] bcast_S_S786432 (constantI S_ 32 4294967295#32 : IVec S_ 32))))

/-- The node features gathered at each flat entry (a negative entry counted from the end), times the entry's validity. -/
def gathered (X : FVec F S65536x256 .f32) (flat : IVec S786432 32) (msk : FVec F S786432 .f32) : FVec F S786432x256 .f32 :=
  (mulf (Host.gather gather_S65536x256_S786432x1_S786432x256_1_0_n_n_0_1_1256 X (broadcastInDim S786432x1 ![0] bcast_S786432_S786432x1_0 (select (cmpi .slt flat (broadcastInDim S786432 ![] bcast_S_S786432 (constantI S_ 32 0#32 : IVec S_ 32))) (addi flat (broadcastInDim S786432 ![] bcast_S_S786432 (constantI S_ 32 65536#32 : IVec S_ 32))) flat))) (broadcastInDim S786432x256 ![0, 1] bcast_S786432x1_S786432x256_0_1 (broadcastInDim S786432x1 ![0] bcast_S786432_S786432x1_0 msk)))

/-- The edge each flat entry belongs to: entry `24 e + j` belongs to edge `e`. -/
def segIds : IVec S786432 32 :=
  (shapeCast S786432 (broadcastInDim S32768x24 ![0] bcast_S32768_S32768x24_0 (iotaInDim S32768 32 0 : IVec S32768 32)) shapeCasts_S32768x24_S786432)

/-- The masked mean per edge: the gathered rows summed over each edge's entries, divided by the number of valid entries
    (at least one), and zero where no entry is valid. -/
def pooled (G : FVec F S786432x256 .f32) (msk : FVec F S786432 .f32) : FVec F S32768x256 .f32 :=
  (select (broadcastInDim S32768x256 ![0, 1] bcast_S32768x1_S32768x256_0_1 (cmpf .ogt (broadcastInDim S32768x1 ![0] bcast_S32768_S32768x1_0 (Host.scatterAdd scatter_S32768_S786432x1_S786432_n_0_0_1 (broadcastInDim S32768 ![] bcast_S_S32768 (constant S_ .f32 0x00000000#32 : FVec F S_ .f32)) (broadcastInDim S786432x1 ![0] bcast_S786432_S786432x1_0 segIds) msk)) (broadcastInDim S32768x1 ![] bcast_S_S32768x1 (constant S_ .f32 0x00000000#32 : FVec F S_ .f32)))) (Host.divf (Host.scatterAdd scatter_S32768x256_S786432x1_S786432x256_1_0_0_1 (broadcastInDim S32768x256 ![] bcast_S_S32768x256 (constant S_ .f32 0x00000000#32 : FVec F S_ .f32)) (broadcastInDim S786432x1 ![0] bcast_S786432_S786432x1_0 segIds) G) (broadcastInDim S32768x256 ![0, 1] bcast_S32768x1_S32768x256_0_1 (broadcastInDim S32768x1 ![0] bcast_S32768_S32768x1_0 (maximumf (Host.scatterAdd scatter_S32768_S786432x1_S786432_n_0_0_1 (broadcastInDim S32768 ![] bcast_S_S32768 (constant S_ .f32 0x00000000#32 : FVec F S_ .f32)) (broadcastInDim S786432x1 ![0] bcast_S786432_S786432x1_0 segIds) msk) (broadcastInDim S32768 ![] bcast_S_S32768 (constant S_ .f32 0x3F800000#32 : FVec F S_ .f32)))))) (broadcastInDim S32768x256 ![] bcast_S_S32768x256 (id (constant S_ .f32 0x00000000#32 : FVec F S_ .f32))))

/-- The feature row of every edge: the endpoint block, the two pooled blocks and the three edge feature arrays side by side. -/
def feats (v18 : FVec F S32768x512 .f32) (v67 v101 : FVec F S32768x256 .f32) (a6 : FVec F S32768x24 .f32)
    (a7 : FVec F S32768x200 .f32) (a8 : FVec F S32768x32 .f32) : FVec F S32768x1280 .f32 :=
  (concatenate S32768x1280 1 [⟨S32768x512, v18⟩, ⟨S32768x256, v67⟩, ⟨S32768x256, v101⟩, ⟨S32768x24, a6⟩, ⟨S32768x200, a7⟩, ⟨S32768x32, a8⟩] concatenates_S32768x512_S32768x256_S32768x256_S32768x24_S32768x200_S32768x32_S32768x1280_d1)

/-! ## Reading each stage's result from the contents before it

For contents `W` before a run, what the run leaves in its result buffer is the stage's function of what `W` holds in the
buffers the run reads. -/

set_option maxRecDepth 16384

set_option maxHeartbeats 1000000 in
theorem rdA_v10 (W : Valuation τ sig (Elt F)) :
    StableHlo.after sA W (Proc.devRef .tc main_v10) = (Host.gather gather_S65536x256_S32768x1_S32768x256_1_0_n_n_0_1_1256 (W (Proc.devRef .tc main_arg0)) (broadcastInDim S32768x1 ![0] bcast_S32768_S32768x1_0 (select (cmpi .slt (shapeCast S32768 (extractStridedSlice S1x32768 ![0, 0] (W (Proc.devRef .tc main_arg1)) slices_S2x32768_S1x32768_0_0) shapeCasts_S1x32768_S32768) (broadcastInDim S32768 ![] bcast_S_S32768 (constantI S_ 32 0#32 : IVec S_ 32))) (addi (shapeCast S32768 (extractStridedSlice S1x32768 ![0, 0] (W (Proc.devRef .tc main_arg1)) slices_S2x32768_S1x32768_0_0) shapeCasts_S1x32768_S32768) (broadcastInDim S32768 ![] bcast_S_S32768 (constantI S_ 32 65536#32 : IVec S_ 32))) (shapeCast S32768 (extractStridedSlice S1x32768 ![0, 0] (W (Proc.devRef .tc main_arg1)) slices_S2x32768_S1x32768_0_0) shapeCasts_S1x32768_S32768)))) := by
  after_results_simp
  rfl

set_option maxHeartbeats 1000000 in
theorem rdA_v17 (W : Valuation τ sig (Elt F)) :
    StableHlo.after sA W (Proc.devRef .tc main_v17) = (Host.gather gather_S65536x256_S32768x1_S32768x256_1_0_n_n_0_1_1256 (W (Proc.devRef .tc main_arg0)) (broadcastInDim S32768x1 ![0] bcast_S32768_S32768x1_0 (select (cmpi .slt (shapeCast S32768 (extractStridedSlice S1x32768 ![1, 0] (W (Proc.devRef .tc main_arg1)) slices_S2x32768_S1x32768_1_0) shapeCasts_S1x32768_S32768) (broadcastInDim S32768 ![] bcast_S_S32768 (constantI S_ 32 0#32 : IVec S_ 32))) (addi (shapeCast S32768 (extractStridedSlice S1x32768 ![1, 0] (W (Proc.devRef .tc main_arg1)) slices_S2x32768_S1x32768_1_0) shapeCasts_S1x32768_S32768) (broadcastInDim S32768 ![] bcast_S_S32768 (constantI S_ 32 65536#32 : IVec S_ 32))) (shapeCast S32768 (extractStridedSlice S1x32768 ![1, 0] (W (Proc.devRef .tc main_arg1)) slices_S2x32768_S1x32768_1_0) shapeCasts_S1x32768_S32768)))) := by
  after_results_simp
  rfl

/-- The last operation of the first run puts the two gathered blocks side by side. -/
theorem rdA_v18_pieces (W : Valuation τ sig (Elt F)) :
    StableHlo.after sA W (Proc.devRef .tc main_v18)
      = concatenate S32768x512 1 [⟨S32768x256, StableHlo.after sA W (Proc.devRef .tc main_v10)⟩, ⟨S32768x256, StableHlo.after sA W (Proc.devRef .tc main_v17)⟩] concatenates_S32768x256_S32768x256_S32768x512_d1 := by
  simp only [after_cons, after_nil]
  rw [binary_result_ne (y := main_v18) (r := main_v10) (h := by decide), binary_result_ne (y := main_v18) (r := main_v17) (h := by decide),
    binary_result (y := main_v18)]

theorem rdA_v18 (W : Valuation τ sig (Elt F)) :
    StableHlo.after sA W (Proc.devRef .tc main_v18) = pairs (W (Proc.devRef .tc main_arg0)) (W (Proc.devRef .tc main_arg1)) := by
  rw [rdA_v18_pieces, rdA_v10, rdA_v17]
  rfl

set_option maxHeartbeats 1000000 in
theorem rdAB_v33 (W : Valuation τ sig (Elt F)) :
    StableHlo.after sB (StableHlo.after sA W) (Proc.devRef .tc main_v33) = offs (W (Proc.devRef .tc main_arg1)) (W (Proc.devRef .tc main_arg2)) (W (Proc.devRef .tc main_arg3)) := by
  after_results_simp
  rfl

set_option maxHeartbeats 2000000 in
theorem rdCD_v67 (W : Valuation τ sig (Elt F)) :
    StableHlo.after sD (StableHlo.after sC W) (Proc.devRef .tc main_v67) = pooled (gathered (W (Proc.devRef .tc main_arg0)) (flatIdx (W (Proc.devRef .tc main_arg4)) (W (Proc.devRef .tc main_v33))) (rowMask (F := F) (flatIdx (W (Proc.devRef .tc main_arg4)) (W (Proc.devRef .tc main_v33))))) (rowMask (F := F) (flatIdx (W (Proc.devRef .tc main_arg4)) (W (Proc.devRef .tc main_v33)))) := by
  after_results_simp
  rfl

set_option maxHeartbeats 2000000 in
theorem rdEF_v101 (W : Valuation τ sig (Elt F)) :
    StableHlo.after sF (StableHlo.after sE W) (Proc.devRef .tc main_v101) = pooled (gathered (W (Proc.devRef .tc main_arg0)) (flatIdx (W (Proc.devRef .tc main_arg5)) (W (Proc.devRef .tc main_v33))) (rowMask (F := F) (flatIdx (W (Proc.devRef .tc main_arg5)) (W (Proc.devRef .tc main_v33))))) (rowMask (F := F) (flatIdx (W (Proc.devRef .tc main_arg5)) (W (Proc.devRef .tc main_v33)))) := by
  after_results_simp
  rfl

theorem rdG_v102 (W : Valuation τ sig (Elt F)) :
    StableHlo.after sG W (Proc.devRef .tc main_v102)
      = feats (W (Proc.devRef .tc main_v18)) (W (Proc.devRef .tc main_v67)) (W (Proc.devRef .tc main_v101)) (W (Proc.devRef .tc main_arg6)) (W (Proc.devRef .tc main_arg7)) (W (Proc.devRef .tc main_arg8)) := by
  simp only [after_cons, after_nil]
  rw [Cert.LibNary6.nary6_result]
  rfl

set_option maxHeartbeats 2000000 in
theorem rdH_v112 (W : Valuation τ sig (Elt F)) :
    StableHlo.after sH W (Proc.devRef .tc main_v112) = Cert.Bridge.R.layer (W (Proc.devRef .tc main_v102)) (Cert.Bridge.R.wmat0 (W (Proc.devRef .tc main_arg9))) (Cert.Bridge.R.brow0 (W (Proc.devRef .tc main_arg10))) := by
  after_results_simp
  rfl

set_option maxHeartbeats 2000000 in
theorem rdI_v122 (W : Valuation τ sig (Elt F)) :
    StableHlo.after sI W (Proc.devRef .tc main_v122) = Cert.Bridge.R.layer (W (Proc.devRef .tc main_v112)) (Cert.Bridge.R.wmat1 (W (Proc.devRef .tc main_arg9))) (Cert.Bridge.R.brow1 (W (Proc.devRef .tc main_arg10))) := by
  after_results_simp
  rfl

set_option maxHeartbeats 2000000 in
theorem rdJ_v132 (W : Valuation τ sig (Elt F)) :
    StableHlo.after sJ W (Proc.devRef .tc main_v132) = Cert.Bridge.R.layer (W (Proc.devRef .tc main_v122)) (Cert.Bridge.R.wmat2 (W (Proc.devRef .tc main_arg9))) (Cert.Bridge.R.brow2 (W (Proc.devRef .tc main_arg10))) := by
  after_results_simp
  rfl

theorem rdK_v136 (W : Valuation τ sig (Elt F)) :
    StableHlo.after sK W (Proc.devRef .tc main_v136) = Cert.Bridge.R.proj (W (Proc.devRef .tc main_v132)) (W (Proc.devRef .tc main_arg11)) (W (Proc.devRef .tc main_arg12)) := by
  after_results_simp
  rfl

/-! ## The result, from the launch contents -/

theorem kept_sA' (V : Valuation τ sig (Elt F)) {r : Ref sig .tc} (hr : r ∉ sA_w) :
    StableHlo.after sA V (no_index (Proc.devRef .tc r)) = V (Proc.devRef .tc r) := kept_sA V hr
theorem kept_sB' (V : Valuation τ sig (Elt F)) {r : Ref sig .tc} (hr : r ∉ sB_w) :
    StableHlo.after sB V (no_index (Proc.devRef .tc r)) = V (Proc.devRef .tc r) := kept_sB V hr
theorem kept_sC' (V : Valuation τ sig (Elt F)) {r : Ref sig .tc} (hr : r ∉ sC_w) :
    StableHlo.after sC V (no_index (Proc.devRef .tc r)) = V (Proc.devRef .tc r) := kept_sC V hr
theorem kept_sD' (V : Valuation τ sig (Elt F)) {r : Ref sig .tc} (hr : r ∉ sD_w) :
    StableHlo.after sD V (no_index (Proc.devRef .tc r)) = V (Proc.devRef .tc r) := kept_sD V hr
theorem kept_sE' (V : Valuation τ sig (Elt F)) {r : Ref sig .tc} (hr : r ∉ sE_w) :
    StableHlo.after sE V (no_index (Proc.devRef .tc r)) = V (Proc.devRef .tc r) := kept_sE V hr
theorem kept_sF' (V : Valuation τ sig (Elt F)) {r : Ref sig .tc} (hr : r ∉ sF_w) :
    StableHlo.after sF V (no_index (Proc.devRef .tc r)) = V (Proc.devRef .tc r) := kept_sF V hr
theorem kept_sG' (V : Valuation τ sig (Elt F)) {r : Ref sig .tc} (hr : r ∉ sG_w) :
    StableHlo.after sG V (no_index (Proc.devRef .tc r)) = V (Proc.devRef .tc r) := kept_sG V hr
theorem kept_sH' (V : Valuation τ sig (Elt F)) {r : Ref sig .tc} (hr : r ∉ sH_w) :
    StableHlo.after sH V (no_index (Proc.devRef .tc r)) = V (Proc.devRef .tc r) := kept_sH V hr
theorem kept_sI' (V : Valuation τ sig (Elt F)) {r : Ref sig .tc} (hr : r ∉ sI_w) :
    StableHlo.after sI V (no_index (Proc.devRef .tc r)) = V (Proc.devRef .tc r) := kept_sI V hr
theorem kept_sJ' (V : Valuation τ sig (Elt F)) {r : Ref sig .tc} (hr : r ∉ sJ_w) :
    StableHlo.after sJ V (no_index (Proc.devRef .tc r)) = V (Proc.devRef .tc r) := kept_sJ V hr
theorem kept_sK' (V : Valuation τ sig (Elt F)) {r : Ref sig .tc} (hr : r ∉ sK_w) :
    StableHlo.after sK V (no_index (Proc.devRef .tc r)) = V (Proc.devRef .tc r) := kept_sK V hr

/-- The contents of the result buffer after the whole program, for any contents `V` before it: the output projection of three
    residual layers of the feature rows, every piece a function of what `V` holds in the thirteen argument buffers. -/
theorem result_V (V : Valuation τ sig (Elt F)) :
    StableHlo.after ops V (Proc.devRef .tc main_v136)
      = Cert.Bridge.R.proj (Cert.Bridge.R.layer (Cert.Bridge.R.layer (Cert.Bridge.R.layer (feats (pairs (V (Proc.devRef .tc main_arg0)) (V (Proc.devRef .tc main_arg1))) (pooled (gathered (V (Proc.devRef .tc main_arg0)) (flatIdx (V (Proc.devRef .tc main_arg4)) (offs (V (Proc.devRef .tc main_arg1)) (V (Proc.devRef .tc main_arg2)) (V (Proc.devRef .tc main_arg3)))) (rowMask (F := F) (flatIdx (V (Proc.devRef .tc main_arg4)) (offs (V (Proc.devRef .tc main_arg1)) (V (Proc.devRef .tc main_arg2)) (V (Proc.devRef .tc main_arg3)))))) (rowMask (F := F) (flatIdx (V (Proc.devRef .tc main_arg4)) (offs (V (Proc.devRef .tc main_arg1)) (V (Proc.devRef .tc main_arg2)) (V (Proc.devRef .tc main_arg3)))))) (pooled (gathered (V (Proc.devRef .tc main_arg0)) (flatIdx (V (Proc.devRef .tc main_arg5)) (offs (V (Proc.devRef .tc main_arg1)) (V (Proc.devRef .tc main_arg2)) (V (Proc.devRef .tc main_arg3)))) (rowMask (F := F) (flatIdx (V (Proc.devRef .tc main_arg5)) (offs (V (Proc.devRef .tc main_arg1)) (V (Proc.devRef .tc main_arg2)) (V (Proc.devRef .tc main_arg3)))))) (rowMask (F := F) (flatIdx (V (Proc.devRef .tc main_arg5)) (offs (V (Proc.devRef .tc main_arg1)) (V (Proc.devRef .tc main_arg2)) (V (Proc.devRef .tc main_arg3)))))) (V (Proc.devRef .tc main_arg6)) (V (Proc.devRef .tc main_arg7)) (V (Proc.devRef .tc main_arg8))) (Cert.Bridge.R.wmat0 (V (Proc.devRef .tc main_arg9))) (Cert.Bridge.R.brow0 (V (Proc.devRef .tc main_arg10)))) (Cert.Bridge.R.wmat1 (V (Proc.devRef .tc main_arg9))) (Cert.Bridge.R.brow1 (V (Proc.devRef .tc main_arg10)))) (Cert.Bridge.R.wmat2 (V (Proc.devRef .tc main_arg9))) (Cert.Bridge.R.brow2 (V (Proc.devRef .tc main_arg10)))) (V (Proc.devRef .tc main_arg11)) (V (Proc.devRef .tc main_arg12)) := by
  rw [after_ops, rdK_v136, rdJ_v132, rdI_v122, rdH_v112, rdG_v102]
  simp (disch := decide) only [kept_sA', kept_sB', kept_sC', kept_sD', kept_sE', kept_sF', kept_sG', kept_sH', kept_sI', kept_sJ', kept_sK']
  rw [rdEF_v101, rdCD_v67, rdA_v18]
  simp (disch := decide) only [kept_sA', kept_sB', kept_sC', kept_sD', kept_sE', kept_sF', kept_sG', kept_sH', kept_sI', kept_sJ', kept_sK']
  rw [rdAB_v33]

/-- The same from the launch memory `m`, on core `c`. -/
theorem result_eq (m : (ℓ : Loc nD τ sig) → Buf (Elt F) ℓ) (c : Dev nD) :
    StableHlo.after ops (StableHlo.launchContents m c) (Proc.devRef .tc main_v136)
      = Cert.Bridge.R.proj (Cert.Bridge.R.layer (Cert.Bridge.R.layer (Cert.Bridge.R.layer (feats (pairs (m ((c.tc : Thread nD τ).loc main_arg0)) (m ((c.tc : Thread nD τ).loc main_arg1))) (pooled (gathered (m ((c.tc : Thread nD τ).loc main_arg0)) (flatIdx (m ((c.tc : Thread nD τ).loc main_arg4)) (offs (m ((c.tc : Thread nD τ).loc main_arg1)) (m ((c.tc : Thread nD τ).loc main_arg2)) (m ((c.tc : Thread nD τ).loc main_arg3)))) (rowMask (F := F) (flatIdx (m ((c.tc : Thread nD τ).loc main_arg4)) (offs (m ((c.tc : Thread nD τ).loc main_arg1)) (m ((c.tc : Thread nD τ).loc main_arg2)) (m ((c.tc : Thread nD τ).loc main_arg3)))))) (rowMask (F := F) (flatIdx (m ((c.tc : Thread nD τ).loc main_arg4)) (offs (m ((c.tc : Thread nD τ).loc main_arg1)) (m ((c.tc : Thread nD τ).loc main_arg2)) (m ((c.tc : Thread nD τ).loc main_arg3)))))) (pooled (gathered (m ((c.tc : Thread nD τ).loc main_arg0)) (flatIdx (m ((c.tc : Thread nD τ).loc main_arg5)) (offs (m ((c.tc : Thread nD τ).loc main_arg1)) (m ((c.tc : Thread nD τ).loc main_arg2)) (m ((c.tc : Thread nD τ).loc main_arg3)))) (rowMask (F := F) (flatIdx (m ((c.tc : Thread nD τ).loc main_arg5)) (offs (m ((c.tc : Thread nD τ).loc main_arg1)) (m ((c.tc : Thread nD τ).loc main_arg2)) (m ((c.tc : Thread nD τ).loc main_arg3)))))) (rowMask (F := F) (flatIdx (m ((c.tc : Thread nD τ).loc main_arg5)) (offs (m ((c.tc : Thread nD τ).loc main_arg1)) (m ((c.tc : Thread nD τ).loc main_arg2)) (m ((c.tc : Thread nD τ).loc main_arg3)))))) (m ((c.tc : Thread nD τ).loc main_arg6)) (m ((c.tc : Thread nD τ).loc main_arg7)) (m ((c.tc : Thread nD τ).loc main_arg8))) (Cert.Bridge.R.wmat0 (m ((c.tc : Thread nD τ).loc main_arg9))) (Cert.Bridge.R.brow0 (m ((c.tc : Thread nD τ).loc main_arg10)))) (Cert.Bridge.R.wmat1 (m ((c.tc : Thread nD τ).loc main_arg9))) (Cert.Bridge.R.brow1 (m ((c.tc : Thread nD τ).loc main_arg10)))) (Cert.Bridge.R.wmat2 (m ((c.tc : Thread nD τ).loc main_arg9))) (Cert.Bridge.R.brow2 (m ((c.tc : Thread nD τ).loc main_arg10)))) (m ((c.tc : Thread nD τ).loc main_arg11)) (m ((c.tc : Thread nD τ).loc main_arg12)) :=
  result_V (StableHlo.launchContents m c)

end Cert.ReferenceIdeal.Hand

end
-- ==== Proof.RegionBlocks.lean ====
/-
  The blocks of the kernel region against the whole arrays, at any float instance `F`.

  The grid has 32 points; at point `t` the four row-blocked inputs and the output work on rows
  1024·t … 1024·t + 1023 of their arrays (all columns), and the four remaining inputs on their whole arrays.
  So (a) each row-blocked input block is the stretch of its array starting at row 1024·t; (b) each
  whole-array input block is its array; (c) if, at every point, what the body leaves in the output buffer is
  the stretch starting at row 1024·t of one array `G`, the output array ends holding `G`: the 32 blocks are
  written back, each at its own rows, and together they cover all 32768 rows; (d) the run of the program with
  the output array named and every argument array unchanged.
-/
import proofs.«105842_j30374008717369_2_alg».proof.Proof.RegionRun
import proofs.«105842_j30374008717369_2_alg».proof.Proof.LibRowBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Bridge (RowsAt)

variable {F : FTy → Type} [FloatOps F]
variable (m : (ℓ : Loc nD τ sig) → Buf (Elt F) ℓ) (ρ : Dev nD → PrngReg)

/-! ## (a) The row-blocked inputs -/

/-- The block index of a row-blocked window at point `t` is (t, 0), decided over the 32 points. -/
theorem idx_rows0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Input window 0's block at point `t` is the stretch of `main_v18` that starts at row 1024·t. -/
theorem rows0_0 (c : Dev nD) (t : Fin cfg0.N) : RowsAt (1024 * t.val) (iblk m c 0 t) (V m c main_v18) := by
  intro p r j e
  obtain ⟨e0, e1⟩ := idx_rows0 t
  show V m c main_v18 (((cfg0.win 0).blk t).view.emb (ix2 p j)) = V m c main_v18 (ix2 r j)
  congr 1
  funext a; apply Fin.ext
  match a with
  | ⟨0, _⟩ => show win0_0.index t (0 : Fin 2) * 1024 + 1 * p.val = r.val; omega
  | ⟨1, _⟩ => show win0_0.index t (1 : Fin 2) * 512 + 1 * j.val = j.val; omega
theorem idx_rows1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Input window 1's block at point `t` is the stretch of `main_v62` that starts at row 1024·t. -/
theorem rows0_1 (c : Dev nD) (t : Fin cfg0.N) : RowsAt (1024 * t.val) (iblk m c 1 t) (V m c main_v62) := by
  intro p r j e
  obtain ⟨e0, e1⟩ := idx_rows1 t
  show V m c main_v62 (((cfg0.win 1).blk t).view.emb (ix2 p j)) = V m c main_v62 (ix2 r j)
  congr 1
  funext a; apply Fin.ext
  match a with
  | ⟨0, _⟩ => show win0_1.index t (0 : Fin 2) * 1024 + 1 * p.val = r.val; omega
  | ⟨1, _⟩ => show win0_1.index t (1 : Fin 2) * 256 + 1 * j.val = j.val; omega
theorem idx_rows2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Input window 2's block at point `t` is the stretch of `main_v91` that starts at row 1024·t. -/
theorem rows0_2 (c : Dev nD) (t : Fin cfg0.N) : RowsAt (1024 * t.val) (iblk m c 2 t) (V m c main_v91) := by
  intro p r j e
  obtain ⟨e0, e1⟩ := idx_rows2 t
  show V m c main_v91 (((cfg0.win 2).blk t).view.emb (ix2 p j)) = V m c main_v91 (ix2 r j)
  congr 1
  funext a; apply Fin.ext
  match a with
  | ⟨0, _⟩ => show win0_2.index t (0 : Fin 2) * 1024 + 1 * p.val = r.val; omega
  | ⟨1, _⟩ => show win0_2.index t (1 : Fin 2) * 256 + 1 * j.val = j.val; omega
theorem idx_rows3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Input window 3's block at point `t` is the stretch of `main_v92` that starts at row 1024·t. -/
theorem rows0_3 (c : Dev nD) (t : Fin cfg0.N) : RowsAt (1024 * t.val) (iblk m c 3 t) (V m c main_v92) := by
  intro p r j e
  obtain ⟨e0, e1⟩ := idx_rows3 t
  show V m c main_v92 (((cfg0.win 3).blk t).view.emb (ix2 p j)) = V m c main_v92 (ix2 r j)
  congr 1
  funext a; apply Fin.ext
  match a with
  | ⟨0, _⟩ => show win0_3.index t (0 : Fin 2) * 1024 + 1 * p.val = r.val; omega
  | ⟨1, _⟩ => show win0_3.index t (1 : Fin 2) * 256 + 1 * j.val = j.val; omega

/-! ## (b) The whole-array inputs -/

/-- The block index of a whole-array window is zero on every axis at every point, decided over the 32 points. -/
theorem idx_whole4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)
theorem idx_whole5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_whole6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_whole7 : ∀ t : Fin cfg0.N, win0_7.index t (0 : Fin 1) = 0 :=
  (by decide +kernel : ∀ t : Fin grid0.N, win0_7.index t (0 : Fin 1) = 0)

/-- Input window 4's block is the whole stacked weights at every point. -/
theorem whole0_4 (c : Dev nD) (t : Fin cfg0.N) : iblk m c 4 t = V m c main_arg9 := by
  obtain ⟨e0, e1, e2⟩ := idx_whole4 t
  funext j
  show V m c main_arg9 (((cfg0.win 4).blk t).view.emb j) = V m c main_arg9 j
  congr 1
  funext a; apply Fin.ext
  match a with
  | ⟨0, _⟩ => show win0_4.index t (0 : Fin 3) * 3 + 1 * (j 0).val = (j 0).val; omega
  | ⟨1, _⟩ => show win0_4.index t (1 : Fin 3) * 1280 + 1 * (j 1).val = (j 1).val; omega
  | ⟨2, _⟩ => show win0_4.index t (2 : Fin 3) * 1280 + 1 * (j 2).val = (j 2).val; omega
/-- Input window 5's block is the whole stacked biases at every point. -/
theorem whole0_5 (c : Dev nD) (t : Fin cfg0.N) : iblk m c 5 t = V m c main_arg10 := by
  obtain ⟨e0, e1⟩ := idx_whole5 t
  funext j
  show V m c main_arg10 (((cfg0.win 5).blk t).view.emb j) = V m c main_arg10 j
  congr 1
  funext a; apply Fin.ext
  match a with
  | ⟨0, _⟩ => show win0_5.index t (0 : Fin 2) * 3 + 1 * (j 0).val = (j 0).val; omega
  | ⟨1, _⟩ => show win0_5.index t (1 : Fin 2) * 1280 + 1 * (j 1).val = (j 1).val; omega
/-- Input window 6's block is the whole projection matrix at every point. -/
theorem whole0_6 (c : Dev nD) (t : Fin cfg0.N) : iblk m c 6 t = V m c main_arg11 := by
  obtain ⟨e0, e1⟩ := idx_whole6 t
  funext j
  show V m c main_arg11 (((cfg0.win 6).blk t).view.emb j) = V m c main_arg11 j
  congr 1
  funext a; apply Fin.ext
  match a with
  | ⟨0, _⟩ => show win0_6.index t (0 : Fin 2) * 1280 + 1 * (j 0).val = (j 0).val; omega
  | ⟨1, _⟩ => show win0_6.index t (1 : Fin 2) * 512 + 1 * (j 1).val = (j 1).val; omega
/-- Input window 7's block is the whole projection bias at every point. -/
theorem whole0_7 (c : Dev nD) (t : Fin cfg0.N) : iblk m c 7 t = V m c main_arg12 := by
  have e0 := idx_whole7 t
  funext j
  show V m c main_arg12 (((cfg0.win 7).blk t).view.emb j) = V m c main_arg12 j
  congr 1
  funext a; apply Fin.ext
  match a with
  | ⟨0, _⟩ => show win0_7.index t (0 : Fin 1) * 512 + 1 * (j 0).val = (j 0).val; omega

/-- And these arrays are the launch arguments. -/
theorem whole0_4_arg (c : Dev nD) (t : Fin cfg0.N) : iblk m c 4 t = m ((c : Thread nD τ).loc main_arg9) :=
  (whole0_4 m c t).trans (V_main_arg9 m c)
theorem whole0_5_arg (c : Dev nD) (t : Fin cfg0.N) : iblk m c 5 t = m ((c : Thread nD τ).loc main_arg10) :=
  (whole0_5 m c t).trans (V_main_arg10 m c)
theorem whole0_6_arg (c : Dev nD) (t : Fin cfg0.N) : iblk m c 6 t = m ((c : Thread nD τ).loc main_arg11) :=
  (whole0_6 m c t).trans (V_main_arg11 m c)
theorem whole0_7_arg (c : Dev nD) (t : Fin cfg0.N) : iblk m c 7 t = m ((c : Thread nD τ).loc main_arg12) :=
  (whole0_7 m c t).trans (V_main_arg12 m c)

/-! ## (c) The output array -/

theorem hz2 : (![0, 0] : Fin 2 → Nat) = fun _ => 0 := funext fun a => by fin_cases a <;> rfl
theorem hz1 : (![0] : Fin 1 → Nat) = fun _ => 0 := funext fun a => by fin_cases a; rfl

/-- A load through the whole-buffer rectangle reads the contents. -/
theorem ld_rX (x : Vec F S1024x512 .f32) : View.ld x rX = x := View.ld_unit_zero hz2 _ x
theorem ld_rY (x : Vec F S1024x256 .f32) : View.ld x rY = x := View.ld_unit_zero hz2 _ x
theorem ld_rP (x : Vec F S1280x512 .f32) : View.ld x rP = x := View.ld_unit_zero hz2 _ x
theorem ld_rQ (x : Vec F S512 .f32) : View.ld x rQ = x := View.ld_unit_zero hz1 _ x

/-- The one store covers the buffer, so what it leaves is its payload. -/
theorem out0_8_eq (x0 : Vec F S1024x512 .f32) (x1 x2 x3 : Vec F S1024x256 .f32) (x4 : Vec F S3x1280x1280 .f32)
    (x5 : Vec F S3x1280 .f32) (x6 : Vec F S1280x512 .f32) (x7 : Vec F S512 .f32) :
    out0_8 x0 x1 x2 x3 x4 x5 x6 x7 = k0_pay4
      (k0_pay1 (View.ld x0 rX) (View.ld x1 rY) (View.ld x2 rY) (View.ld x3 rY) (View.ld x4 rW0) (View.ld x5 rB0))
      (k0_pay2 (View.ld x0 rX) (View.ld x1 rY) (View.ld x2 rY) (View.ld x3 rY) (View.ld x4 rW0) (View.ld x5 rB0) (View.ld x4 rW1))
      (k0_pay3 (View.ld x5 rB1))
      (View.ld x4 rW2) (View.ld x5 rB2) (View.ld x6 rP) (View.ld x7 rQ) := by
  unfold out0_8
  exact View.canon_unit_zero hz2 _ _

/-- The output window's block index at point `t` is (t, 0), decided over the 32 points. -/
theorem idx_rows8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- An index of the output array is in point `t`'s block iff each coordinate is in the block's range on its axis. -/
theorem mem_blk8 (t : Fin cfg0.N) (i : S32768x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v93).slice (win0_8.rect t)).set ↔ _
  rw [View.set_slice_whole, Rect.mem_set_unit]
  exact Iff.rfl

/-- Every index of the output array is in the block of the point its row falls in. -/
theorem cover8 (i : S32768x512.Idx) : ∃ t : Fin cfg0.N, (cfg0.win 8).flush t = true ∧ i ∈ ((cfg0.win 8).blk t).view.set := by
  have hi0 : (i 0).val < 32768 := (i 0).isLt
  have hi1 : (i 1).val < 512 := (i 1).isLt
  have hN : cfg0.N = 32 := N_0
  let t : Fin cfg0.N := ⟨(i 0).val / 1024, by omega⟩
  obtain ⟨e0, e1⟩ := idx_rows8 t
  have e0' : win0_8.index t (0 : Fin 2) = (i 0).val / 1024 := e0
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

/-- What point `t` writes back is block `t` of `G`, when what the body leaves is the stretch of `G` from row 1024·t. -/
theorem flushed8_eq (c : Dev nD) (G : S32768x512.Idx → Elt F .f32) (t : Fin cfg0.N)
    (hG : RowsAt (1024 * t.val) (out0_8 (iblk m c 0 t) (iblk m c 1 t) (iblk m c 2 t) (iblk m c 3 t) (iblk m c 4 t) (iblk m c 5 t) (iblk m c 6 t) (iblk m c 7 t)) G) :
    (dats m 0 c).flushed 8 t = ((cfg0.win 8).blk t).view.read (Elt F) G := by
  show (cfg0.win 8).cut (grid0.coords t) ((dats m 0 c).after 8 t) = _
  rw [after0_8]
  obtain ⟨e0, e1⟩ := idx_rows8 t
  have hN : cfg0.N = 32 := N_0
  have ht : t.val < 32 := hN ▸ t.isLt
  funext (j : S1024x512.Idx)
  have hj0 : (j 0).val < 1024 := (j 0).isLt
  have hemb : ((cfg0.win 8).blk t).view.emb j = ix2 (⟨1024 * t.val + (j 0).val, by omega⟩ : Fin 32768) (j 1) := by
    funext a; apply Fin.ext
    match a with
    | ⟨0, _⟩ => show win0_8.index t (0 : Fin 2) * 1024 + 1 * (j 0).val = 1024 * t.val + (j 0).val; omega
    | ⟨1, _⟩ => show win0_8.index t (1 : Fin 2) * 512 + 1 * (j 1).val = (j 1).val; omega
  show out0_8 (iblk m c 0 t) (iblk m c 1 t) (iblk m c 2 t) (iblk m c 3 t) (iblk m c 4 t) (iblk m c 5 t) (iblk m c 6 t) (iblk m c 7 t) j
    = G (((cfg0.win 8).blk t).view.emb j)
  rw [hemb]
  exact (congrArg (out0_8 (iblk m c 0 t) (iblk m c 1 t) (iblk m c 2 t) (iblk m c 3 t) (iblk m c 4 t) (iblk m c 5 t) (iblk m c 6 t) (iblk m c 7 t)) (eq_ix2 j)).trans
    (hG (j 0) ⟨1024 * t.val + (j 0).val, by omega⟩ (j 1) rfl)

/-- THE OUTPUT ARRAY after the run is `G`, when at every point what the body leaves in the output buffer is the stretch
    of `G` from row 1024·t: every point writes its block back, and the 32 blocks cover the array. -/
theorem final_of_rows (c : Dev nD) (G : S32768x512.Idx → Elt F .f32)
    (hG : ∀ t : Fin cfg0.N, RowsAt (1024 * t.val) (out0_8 (iblk m c 0 t) (iblk m c 1 t) (iblk m c 2 t) (iblk m c 3 t) (iblk m c 4 t) (iblk m c 5 t) (iblk m c 6 t) (iblk m c 7 t)) G) :
    (dats m 0 c).arrAt 8 cfg0.N = G :=
  (dats m 0 c).arrAt_eq_of_cover 8 G (fun t _ => flushed8_eq m c G t (hG t)) cover8

/-! ## (d) The run, with the output array named -/

/-- The run of the program: the output array ends at what the proof data gives after all 32 write-backs, and every
    argument array ends as launched. -/
theorem run_value : θ_run defs (onTc (τ := τ) (main (F := F))) ⟨m, fun _ => 0, ρ⟩ fun r => ∀ c : Dev nD,
      r.2.mem ((c.tc : Thread nD τ).loc main_v93) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 4).trans (((dats m 0 c).arrAt_in 4 rfl _).trans ((A_eq m c 4).trans (V_main_arg9 m c))),
      ((h c).1 5).trans (((dats m 0 c).arrAt_in 5 rfl _).trans ((A_eq m c 5).trans (V_main_arg10 m c))),
      ((h c).1 6).trans (((dats m 0 c).arrAt_in 6 rfl _).trans ((A_eq m c 6).trans (V_main_arg11 m c))),
      ((h c).1 7).trans (((dats m 0 c).arrAt_in 7 rfl _).trans ((A_eq m c 7).trans (V_main_arg12 m c)))⟩) (run_main m ρ)

end Cert.KernelIdeal.Hand

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibSliceLeading.lean ====
/-
  A rank-3 array cut along its leading axis, read at coordinates.

  For any extents: a unit-stride slice of an `[n0, n1, n2]` array that starts at `o` on the leading axis and at zero on
  the other two reads, at `(j, a, e)`, the source at `(o + j, a, e)`. This is how one matrix is taken out of a stack
  (the slice `[l : l + 1, :, :]`), before the unit axis that is left is dropped.
-/
import Idealize.ShloMosaic.Lib.Pipeline.Value
import Idealize.ShloMosaic.Lib.ValueIdx

namespace Cert.LibSliceLeading

open Idealize.ShloMosaic Idealize.ShloMosaic.ValueIdx

/-- A rank-3 array cut along axis 0 from `o` reads, at `(j, a, e)`, the source at `(k, a, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

end Cert.LibSliceLeading
-- ==== Proof.LayerRows.lean ====
/-
  The block's rows stay the whole array's rows through a layer.

  For a block `h` that is the stretch of the whole array `H` starting at row `o` (`RowsAt o h H`): the product
  with the layer's matrix, the bias row, ELU, the residual sum and the output projection each keep the relation.
  The kernel reads layer k's matrix and bias row out of its staged copies of the stacked weights through a
  rectangle at offset k; the reference slices the stacked weights at k: the same entries.
-/
import proofs.«105842_j30374008717369_2_alg».proof.Proof.Layers
import proofs.«105842_j30374008717369_2_alg».proof.Proof.LibHostRow
import proofs.«105842_j30374008717369_2_alg».proof.Proof.LibSliceLeading
import proofs.«105842_j30374008717369_2_alg».proof.Proof.RegionData

set_option maxRecDepth 16384

noncomputable section

namespace Cert.Bridge

open Idealize.ShloMosaic Idealize.ShloMosaic.ValueIdx

/-! ## ELU, one entry -/

/-- On the extended reals the kernel's exp(·) − 1 and the reference's 1 · expm1(·) are one function of the entry,
    and so are the two ways of writing ELU. -/
theorem elu_entry (y : Ideal .f32) :
    Scalar.select (FloatOps.cmpf .ogt y (Scalar.ofBits .f32 0x00000000#32)) y
      (FloatOps.subf (FloatOps.exp (Scalar.select (FloatOps.cmpf .ogt y (Scalar.ofBits .f32 0x00000000#32)) (Scalar.ofBits .f32 0x00000000#32) y))
        (Scalar.ofBits .f32 0x3F800000#32))
    = Scalar.select (FloatOps.cmpf .ogt y (FloatOps.ofBits .f32 0x00000000#32)) y
      (FloatOps.mulf (FloatOps.ofBits .f32 0x3F800000#32)
        (FloatOps.hostUnary .expm1 (Scalar.select (FloatOps.cmpf .ogt y (FloatOps.ofBits .f32 0x00000000#32)) (FloatOps.ofBits .f32 0x00000000#32) y))) := by
  simp only [Ideal.hostUnary_expm1_def, Ideal.mulf_def, Ideal.subf_def, Ideal.exp_def, Ideal.ofBits_def, Ideal.ofBits_one_f32, one_mul]

/-! ## The steps -/

/-- ELU entry by entry. -/
theorem rows_elu {o : ℕ} {y : FVec Ideal Cert.KernelIdeal.S1024x1280 .f32} {y' : FVec Ideal Cert.ReferenceIdeal.S32768x1280 .f32}
    (h : RowsAt o y y') : RowsAt o (K.elu y) (R.elu y') := by
  intro p r j e
  have hy : y (ix2 p j) = y' (ix2 r j) := h p r j e
  show K.elu y (ix2 p j) = R.elu y' (ix2 r j)
  unfold K.elu R.elu
  simp only [select, cmpf, subf, exp, mulf, Host.expm1, broadcast, constant, id, Cert.LibHostRow.scalar_apply]
  rw [hy]
  exact elu_entry _

/-- The product with a layer's matrix: the kernel's matrix unit into a zero accumulator and the host's
    contraction are both the plain product, which reads one row of the left factor per row. -/
theorem rows_matmul {o : ℕ} {h : FVec Ideal Cert.KernelIdeal.S1024x1280 .f32} {H : FVec Ideal Cert.ReferenceIdeal.S32768x1280 .f32}
    (hr : RowsAt o h H) (W : FVec Ideal Cert.KernelIdeal.S1280x1280 .f32) :
    RowsAt o (matmul Cert.KernelIdeal.dot_S1024x1280_S1280x1280_S1024x1280_1_0_0_1_n_n (some .fp32) h W (constant Cert.KernelIdeal.S1024x1280 .f32 0x00000000#32))
      (Host.dotGeneral Cert.ReferenceIdeal.dot_S32768x1280_S1280x1280_S32768x1280_1_0_0_1_n_n none H W) := by
  have e1 : matmul Cert.KernelIdeal.dot_S1024x1280_S1280x1280_S1024x1280_1_0_0_1_n_n (some .fp32) h W (constant Cert.KernelIdeal.S1024x1280 .f32 0x00000000#32)
      = Cert.MatProduct.prod h W := Cert.MatProduct.matmul_zero_eq_prod (some .fp32) h W
  have e2 : Host.dotGeneral Cert.ReferenceIdeal.dot_S32768x1280_S1280x1280_S32768x1280_1_0_0_1_n_n none H W
      = Cert.MatProduct.prod H W := Cert.MatProduct.dotGeneral_eq_prod none .single H W
  rw [e1, e2]
  exact hr.prod W

/-- The product with the projection matrix. -/
theorem rows_matmul_out {o : ℕ} {h : FVec Ideal Cert.KernelIdeal.S1024x1280 .f32} {H : FVec Ideal Cert.ReferenceIdeal.S32768x1280 .f32}
    (hr : RowsAt o h H) (W : FVec Ideal Cert.KernelIdeal.S1280x512 .f32) :
    RowsAt o (matmul Cert.KernelIdeal.dot_S1024x1280_S1280x512_S1024x512_1_0_0_1_n_n (some .fp32) h W (constant Cert.KernelIdeal.S1024x512 .f32 0x00000000#32))
      (Host.dotGeneral Cert.ReferenceIdeal.dot_S32768x1280_S1280x512_S32768x512_1_0_0_1_n_n none H W) := by
  have e1 : matmul Cert.KernelIdeal.dot_S1024x1280_S1280x512_S1024x512_1_0_0_1_n_n (some .fp32) h W (constant Cert.KernelIdeal.S1024x512 .f32 0x00000000#32)
      = Cert.MatProduct.prod h W := Cert.MatProduct.matmul_zero_eq_prod (some .fp32) h W
  have e2 : Host.dotGeneral Cert.ReferenceIdeal.dot_S32768x1280_S1280x512_S32768x512_1_0_0_1_n_n none H W
      = Cert.MatProduct.prod H W := Cert.MatProduct.dotGeneral_eq_prod none .single H W
  rw [e1, e2]
  exact hr.prod W

/-! ## A load through a rectangle at an offset reads the buffer there -/

theorem ld_w0 (W : Vec Ideal Cert.KernelIdeal.S3x1280x1280 .f32) (k j : Fin 1280) :
    View.ld W Cert.KernelIdeal.Hand.rW0 (ix3 (0 : Fin 1) k j) = W (ix3 (0 : Fin 3) k j) := by
  show W (Cert.KernelIdeal.Hand.rW0.emb (ix3 (0 : Fin 1) k j)) = _
  congr 1
  funext a
  apply Fin.ext
  match a with
  | ⟨0, _⟩ => rfl
  | ⟨1, _⟩ => show 0 + 1 * k.val = k.val; omega
  | ⟨2, _⟩ => show 0 + 1 * j.val = j.val; omega

theorem ld_w1 (W : Vec Ideal Cert.KernelIdeal.S3x1280x1280 .f32) (k j : Fin 1280) :
    View.ld W Cert.KernelIdeal.Hand.rW1 (ix3 (0 : Fin 1) k j) = W (ix3 (1 : Fin 3) k j) := by
  show W (Cert.KernelIdeal.Hand.rW1.emb (ix3 (0 : Fin 1) k j)) = _
  congr 1
  funext a
  apply Fin.ext
  match a with
  | ⟨0, _⟩ => rfl
  | ⟨1, _⟩ => show 0 + 1 * k.val = k.val; omega
  | ⟨2, _⟩ => show 0 + 1 * j.val = j.val; omega

theorem ld_w2 (W : Vec Ideal Cert.KernelIdeal.S3x1280x1280 .f32) (k j : Fin 1280) :
    View.ld W Cert.KernelIdeal.Hand.rW2 (ix3 (0 : Fin 1) k j) = W (ix3 (2 : Fin 3) k j) := by
  show W (Cert.KernelIdeal.Hand.rW2.emb (ix3 (0 : Fin 1) k j)) = _
  congr 1
  funext a
  apply Fin.ext
  match a with
  | ⟨0, _⟩ => rfl
  | ⟨1, _⟩ => show 0 + 1 * k.val = k.val; omega
  | ⟨2, _⟩ => show 0 + 1 * j.val = j.val; omega

theorem ld_b0 (B : Vec Ideal Cert.KernelIdeal.S3x1280 .f32) (j : Fin 1280) :
    View.ld B Cert.KernelIdeal.Hand.rB0 (ix2 (0 : Fin 1) j) = B (ix2 (0 : Fin 3) j) := by
  show B (Cert.KernelIdeal.Hand.rB0.emb (ix2 (0 : Fin 1) j)) = _
  congr 1
  funext a
  apply Fin.ext
  match a with
  | ⟨0, _⟩ => rfl
  | ⟨1, _⟩ => show 0 + 1 * j.val = j.val; omega

theorem ld_b1 (B : Vec Ideal Cert.KernelIdeal.S3x1280 .f32) (j : Fin 1280) :
    View.ld B Cert.KernelIdeal.Hand.rB1 (ix2 (0 : Fin 1) j) = B (ix2 (1 : Fin 3) j) := by
  show B (Cert.KernelIdeal.Hand.rB1.emb (ix2 (0 : Fin 1) j)) = _
  congr 1
  funext a
  apply Fin.ext
  match a with
  | ⟨0, _⟩ => rfl
  | ⟨1, _⟩ => show 0 + 1 * j.val = j.val; omega

theorem ld_b2 (B : Vec Ideal Cert.KernelIdeal.S3x1280 .f32) (j : Fin 1280) :
    View.ld B Cert.KernelIdeal.Hand.rB2 (ix2 (0 : Fin 1) j) = B (ix2 (2 : Fin 3) j) := by
  show B (Cert.KernelIdeal.Hand.rB2.emb (ix2 (0 : Fin 1) j)) = _
  congr 1
  funext a
  apply Fin.ext
  match a with
  | ⟨0, _⟩ => rfl
  | ⟨1, _⟩ => show 0 + 1 * j.val = j.val; omega

/-! ## The weights and the bias rows on the two sides -/

/-- Layer 0's matrix: the kernel's slab of the staged weights and the reference's slice of the stacked weights
    are the same 1280 × 1280 array. -/
theorem wmat0_eq (a9 : FVec Ideal Cert.KernelIdeal.S3x1280x1280 .f32) :
    K.wmat (View.ld a9 Cert.KernelIdeal.Hand.rW0) = R.wmat0 a9 := by
  funext y
  obtain ⟨k, j, rfl⟩ : ∃ (k : Fin 1280) (j : Fin 1280), y = ix2 k j := ⟨y 0, y 1, eq_ix2 y⟩
  unfold K.wmat R.wmat0
  exact (shapeCast_1ab_ab_apply _ _ k j).trans ((ld_w0 a9 k j).trans
    ((shapeCast_1ab_ab_apply _ _ k j).trans
      (Cert.LibSliceLeading.slice3_axis0_apply 0 a9 _ (0 : Fin 1) k j (0 : Fin 3) rfl)).symm)

/-- Layer 1's matrix: the kernel's slab of the staged weights and the reference's slice of the stacked weights
    are the same 1280 × 1280 array. -/
theorem wmat1_eq (a9 : FVec Ideal Cert.KernelIdeal.S3x1280x1280 .f32) :
    K.wmat (View.ld a9 Cert.KernelIdeal.Hand.rW1) = R.wmat1 a9 := by
  funext y
  obtain ⟨k, j, rfl⟩ : ∃ (k : Fin 1280) (j : Fin 1280), y = ix2 k j := ⟨y 0, y 1, eq_ix2 y⟩
  unfold K.wmat R.wmat1
  exact (shapeCast_1ab_ab_apply _ _ k j).trans ((ld_w1 a9 k j).trans
    ((shapeCast_1ab_ab_apply _ _ k j).trans
      (Cert.LibSliceLeading.slice3_axis0_apply 1 a9 _ (0 : Fin 1) k j (1 : Fin 3) rfl)).symm)

/-- Layer 2's matrix: the kernel's slab of the staged weights and the reference's slice of the stacked weights
    are the same 1280 × 1280 array. -/
theorem wmat2_eq (a9 : FVec Ideal Cert.KernelIdeal.S3x1280x1280 .f32) :
    K.wmat (View.ld a9 Cert.KernelIdeal.Hand.rW2) = R.wmat2 a9 := by
  funext y
  obtain ⟨k, j, rfl⟩ : ∃ (k : Fin 1280) (j : Fin 1280), y = ix2 k j := ⟨y 0, y 1, eq_ix2 y⟩
  unfold K.wmat R.wmat2
  exact (shapeCast_1ab_ab_apply _ _ k j).trans ((ld_w2 a9 k j).trans
    ((shapeCast_1ab_ab_apply _ _ k j).trans
      (Cert.LibSliceLeading.slice3_axis0_apply 2 a9 _ (0 : Fin 1) k j (2 : Fin 3) rfl)).symm)

/-- Layer 0's bias row down the block and down the whole array. -/
theorem rows_brow0 (o : ℕ) (a10 : FVec Ideal Cert.KernelIdeal.S3x1280 .f32) :
    RowsAt o (K.brow (View.ld a10 Cert.KernelIdeal.Hand.rB0)) (R.brow0 a10) := by
  refine RowsAt.ofCols (fun j => a10 (ix2 (0 : Fin 3) j)) (fun p j => ?_) (fun r j => ?_)
  · unfold K.brow
    rw [broadcastTo_1b_ab_apply, shapeCast_a_1a_apply, shapeCast_1a_a_apply, ld_b0]
  · unfold R.brow0 R.rows
    rw [Cert.LibHostRow.rows_apply, Cert.LibHostRow.row_apply, shapeCast_1a_a_apply,
      slice2_axis0_apply 0 a10 _ (0 : Fin 1) j (0 : Fin 3) rfl]

/-- Layer 1's bias row down the block and down the whole array. -/
theorem rows_brow1 (o : ℕ) (a10 : FVec Ideal Cert.KernelIdeal.S3x1280 .f32) :
    RowsAt o (K.brow (View.ld a10 Cert.KernelIdeal.Hand.rB1)) (R.brow1 a10) := by
  refine RowsAt.ofCols (fun j => a10 (ix2 (1 : Fin 3) j)) (fun p j => ?_) (fun r j => ?_)
  · unfold K.brow
    rw [broadcastTo_1b_ab_apply, shapeCast_a_1a_apply, shapeCast_1a_a_apply, ld_b1]
  · unfold R.brow1 R.rows
    rw [Cert.LibHostRow.rows_apply, Cert.LibHostRow.row_apply, shapeCast_1a_a_apply,
      slice2_axis0_apply 1 a10 _ (0 : Fin 1) j (1 : Fin 3) rfl]

/-- Layer 2's bias row down the block and down the whole array. -/
theorem rows_brow2 (o : ℕ) (a10 : FVec Ideal Cert.KernelIdeal.S3x1280 .f32) :
    RowsAt o (K.brow (View.ld a10 Cert.KernelIdeal.Hand.rB2)) (R.brow2 a10) := by
  refine RowsAt.ofCols (fun j => a10 (ix2 (2 : Fin 3) j)) (fun p j => ?_) (fun r j => ?_)
  · unfold K.brow
    rw [broadcastTo_1b_ab_apply, shapeCast_a_1a_apply, shapeCast_1a_a_apply, ld_b2]
  · unfold R.brow2 R.rows
    rw [Cert.LibHostRow.rows_apply, Cert.LibHostRow.row_apply, shapeCast_1a_a_apply,
      slice2_axis0_apply 2 a10 _ (0 : Fin 1) j (2 : Fin 3) rfl]

/-! ## A layer, and the projection -/

/-- One residual layer keeps the relation, given the same matrix on both sides and related bias arrays. -/
theorem rows_layer {o : ℕ} {h : FVec Ideal Cert.KernelIdeal.S1024x1280 .f32} {H : FVec Ideal Cert.ReferenceIdeal.S32768x1280 .f32}
    (hr : RowsAt o h H) (w : Vec Ideal Cert.KernelIdeal.S1x1280x1280 .f32) (W : FVec Ideal Cert.ReferenceIdeal.S1280x1280 .f32)
    (hw : K.wmat w = W) (b : Vec Ideal Cert.KernelIdeal.S1x1280 .f32) (B : FVec Ideal Cert.ReferenceIdeal.S32768x1280 .f32)
    (hb : RowsAt o (K.brow b) B) : RowsAt o (K.layer h w b) (R.layer H W B) := by
  unfold K.layer R.layer
  rw [hw]
  exact RowsAt.map₂ FloatOps.addf (rows_elu (RowsAt.map₂ FloatOps.addf (rows_matmul hr W) hb)) hr

/-- The output projection keeps the relation. -/
theorem rows_proj {o : ℕ} {h : FVec Ideal Cert.KernelIdeal.S1024x1280 .f32} {H : FVec Ideal Cert.ReferenceIdeal.S32768x1280 .f32}
    (hr : RowsAt o h H) (a11 : FVec Ideal Cert.KernelIdeal.S1280x512 .f32) (a12 : FVec Ideal Cert.KernelIdeal.S512 .f32) :
    RowsAt o (K.proj h a11 a12) (R.proj H a11 a12) := by
  unfold K.proj R.proj
  refine RowsAt.map₂ FloatOps.addf (rows_matmul_out hr a11) ?_
  refine RowsAt.ofCols (fun j => a12 (ix1 j)) (fun p j => ?_) (fun r j => ?_)
  · rw [broadcastTo_1b_ab_apply, shapeCast_a_1a_apply]
  · rw [Cert.LibHostRow.rows_apply, Cert.LibHostRow.row_apply]

end Cert.Bridge

end
-- ==== Proof.Feats.lean ====
/-
  The features, side by side.

  The reference lays six arrays side by side along the columns: the node pairs (512 columns), the two pooled blocks
  (256 each), and the three per-edge feature arrays (24, 200 and 32 columns): 1280 columns. The kernel's program
  first lays the last three side by side on the host (256 columns), and the body lays four blocks side by side:
  512 + 256 + 256 + 256. A column of the 1280 falls in the same source array at the same column either way:
  below 512 the pairs; then the left pooled block; then the right; from 1024 on, column j is column j − 1024 of the
  host's 256-wide array, which is column j − 1024, j − 1048 or j − 1248 of the 24-, 200- or 32-wide array.
  So a block that holds rows o, o + 1, … of each source holds those rows of the reference's features.
-/
import proofs.«105842_j30374008717369_2_alg».proof.Proof.Layers

set_option maxRecDepth 16384

noncomputable section

namespace Cert.Bridge

open Idealize.ShloMosaic Idealize.ShloMosaic.ValueIdx

/-- Matrices side by side along the columns, read at (r, c): the piece `k` whose columns hold `c`, at the
    column less the widths before it. -/
theorem cat_cols_apply {α : Type} {m n : ℕ} (xs : List ((s : Shape) × (s.Idx → α)))
    (h : Shape.Concatenates (xs.map (·.1)) ⟨2, ![m, n]⟩ 1) (k : ℕ) (hk : k < xs.length) (w : ℕ)
    (x : (⟨2, ![m, w]⟩ : Shape).Idx → α) (hxk : xs[k] = ⟨⟨2, ![m, w]⟩, x⟩) (pre : ℕ)
    (hpre : (((xs.take k).map (·.1)).map fun s => if h : s.rank = (⟨2, ![m, n]⟩ : Shape).rank then s.size ((1 : Fin 2).cast h.symm) else 0).sum = pre)
    (r : Fin m) (c : Fin n) (c' : Fin w) (hc : pre + c'.val = c.val) :
    concatenate ⟨2, ![m, n]⟩ 1 xs h (ix2 r c) = x (ix2 r c') :=
  concatenate_apply_piece (t := ⟨2, ![m, n]⟩) 1 xs h (ix2 r c) k hk ⟨2, ![m, w]⟩ x hxk rfl pre hpre (ix2 r c')
    (fun b hb => by
      match b with
      | ⟨0, _⟩ => rfl
      | ⟨1, _⟩ => exact absurd rfl hb)
    hc

namespace K

open Cert.KernelIdeal

variable {F : FTy → Type} [FloatOps F]

/-- The three per-edge feature arrays side by side, as the kernel's program lays them on the host. -/
def others (a6 : FVec F S32768x24 .f32) (a7 : FVec F S32768x200 .f32) (a8 : FVec F S32768x32 .f32) : FVec F S32768x256 .f32 :=
  concatenate S32768x256 1 [⟨S32768x24, a6⟩, ⟨S32768x200, a7⟩, ⟨S32768x32, a8⟩] Facts₀.concatenates_S32768x24_S32768x200_S32768x32_S32768x256_d1

/-- The block's features at a column: the input block whose columns hold it. -/
theorem feats_apply0 (x0 : Vec F S1024x512 .f32) (x1 x2 x3 : Vec F S1024x256 .f32) (p : Fin 1024) (j : Fin 1280)
    (hlo : 0 ≤ j.val) (hhi : j.val < 512) :
    feats x0 x1 x2 x3 (ix2 p j) = x0 (ix2 p ⟨j.val - 0, by omega⟩) := by
  unfold feats
  exact (cat_cols_apply _ _ 0 (by simp) 512 _ rfl 0 rfl p j ⟨j.val - 0, by omega⟩ (by show 0 + (j.val - 0) = j.val; omega)).trans
    (by rw [shapeCast_self])

theorem feats_apply1 (x0 : Vec F S1024x512 .f32) (x1 x2 x3 : Vec F S1024x256 .f32) (p : Fin 1024) (j : Fin 1280)
    (hlo : 512 ≤ j.val) (hhi : j.val < 768) :
    feats x0 x1 x2 x3 (ix2 p j) = x1 (ix2 p ⟨j.val - 512, by omega⟩) := by
  unfold feats
  exact (cat_cols_apply _ _ 1 (by simp) 256 _ rfl 512 rfl p j ⟨j.val - 512, by omega⟩ (by show 512 + (j.val - 512) = j.val; omega)).trans
    (by rw [shapeCast_self])

theorem feats_apply2 (x0 : Vec F S1024x512 .f32) (x1 x2 x3 : Vec F S1024x256 .f32) (p : Fin 1024) (j : Fin 1280)
    (hlo : 768 ≤ j.val) (hhi : j.val < 1024) :
    feats x0 x1 x2 x3 (ix2 p j) = x2 (ix2 p ⟨j.val - 768, by omega⟩) := by
  unfold feats
  exact (cat_cols_apply _ _ 2 (by simp) 256 _ rfl 768 rfl p j ⟨j.val - 768, by omega⟩ (by show 768 + (j.val - 768) = j.val; omega)).trans
    (by rw [shapeCast_self])

theorem feats_apply3 (x0 : Vec F S1024x512 .f32) (x1 x2 x3 : Vec F S1024x256 .f32) (p : Fin 1024) (j : Fin 1280)
    (hlo : 1024 ≤ j.val) (hhi : j.val < 1280) :
    feats x0 x1 x2 x3 (ix2 p j) = x3 (ix2 p ⟨j.val - 1024, by omega⟩) := by
  unfold feats
  exact (cat_cols_apply _ _ 3 (by simp) 256 _ rfl 1024 rfl p j ⟨j.val - 1024, by omega⟩ (by show 1024 + (j.val - 1024) = j.val; omega)).trans
    (by rw [shapeCast_self])

/-- The host's 256-wide array at a column: the 24-, 200- or 32-wide array whose columns hold it. -/
theorem others_apply0 (a6 : FVec F S32768x24 .f32) (a7 : FVec F S32768x200 .f32) (a8 : FVec F S32768x32 .f32) (r : Fin 32768) (j : Fin 256)
    (hlo : 0 ≤ j.val) (hhi : j.val < 24) :
    others a6 a7 a8 (ix2 r j) = a6 (ix2 r ⟨j.val - 0, by omega⟩) := by
  unfold others
  exact cat_cols_apply _ _ 0 (by simp) 24 _ rfl 0 rfl r j ⟨j.val - 0, by omega⟩ (by show 0 + (j.val - 0) = j.val; omega)

theorem others_apply1 (a6 : FVec F S32768x24 .f32) (a7 : FVec F S32768x200 .f32) (a8 : FVec F S32768x32 .f32) (r : Fin 32768) (j : Fin 256)
    (hlo : 24 ≤ j.val) (hhi : j.val < 224) :
    others a6 a7 a8 (ix2 r j) = a7 (ix2 r ⟨j.val - 24, by omega⟩) := by
  unfold others
  exact cat_cols_apply _ _ 1 (by simp) 200 _ rfl 24 rfl r j ⟨j.val - 24, by omega⟩ (by show 24 + (j.val - 24) = j.val; omega)

theorem others_apply2 (a6 : FVec F S32768x24 .f32) (a7 : FVec F S32768x200 .f32) (a8 : FVec F S32768x32 .f32) (r : Fin 32768) (j : Fin 256)
    (hlo : 224 ≤ j.val) (hhi : j.val < 256) :
    others a6 a7 a8 (ix2 r j) = a8 (ix2 r ⟨j.val - 224, by omega⟩) := by
  unfold others
  exact cat_cols_apply _ _ 2 (by simp) 32 _ rfl 224 rfl r j ⟨j.val - 224, by omega⟩ (by show 224 + (j.val - 224) = j.val; omega)

end K

namespace R

open Cert.ReferenceIdeal

variable {F : FTy → Type} [FloatOps F]

/-- The reference's features: six arrays side by side. -/
def feats (v18 : FVec F S32768x512 .f32) (v67 v101 : FVec F S32768x256 .f32) (a6 : FVec F S32768x24 .f32)
    (a7 : FVec F S32768x200 .f32) (a8 : FVec F S32768x32 .f32) : FVec F S32768x1280 .f32 :=
  concatenate S32768x1280 1 [⟨S32768x512, v18⟩, ⟨S32768x256, v67⟩, ⟨S32768x256, v101⟩, ⟨S32768x24, a6⟩, ⟨S32768x200, a7⟩, ⟨S32768x32, a8⟩]
    Facts₀.concatenates_S32768x512_S32768x256_S32768x256_S32768x24_S32768x200_S32768x32_S32768x1280_d1

/-- The reference's features at a column: the array whose columns hold it. -/
theorem feats_apply0 (v18 : FVec F S32768x512 .f32) (v67 v101 : FVec F S32768x256 .f32) (a6 : FVec F S32768x24 .f32)
    (a7 : FVec F S32768x200 .f32) (a8 : FVec F S32768x32 .f32) (r : Fin 32768) (j : Fin 1280)
    (hlo : 0 ≤ j.val) (hhi : j.val < 512) :
    feats v18 v67 v101 a6 a7 a8 (ix2 r j) = v18 (ix2 r ⟨j.val - 0, by omega⟩) := by
  unfold feats
  exact cat_cols_apply _ _ 0 (by simp) 512 _ rfl 0 rfl r j ⟨j.val - 0, by omega⟩ (by show 0 + (j.val - 0) = j.val; omega)

theorem feats_apply1 (v18 : FVec F S32768x512 .f32) (v67 v101 : FVec F S32768x256 .f32) (a6 : FVec F S32768x24 .f32)
    (a7 : FVec F S32768x200 .f32) (a8 : FVec F S32768x32 .f32) (r : Fin 32768) (j : Fin 1280)
    (hlo : 512 ≤ j.val) (hhi : j.val < 768) :
    feats v18 v67 v101 a6 a7 a8 (ix2 r j) = v67 (ix2 r ⟨j.val - 512, by omega⟩) := by
  unfold feats
  exact cat_cols_apply _ _ 1 (by simp) 256 _ rfl 512 rfl r j ⟨j.val - 512, by omega⟩ (by show 512 + (j.val - 512) = j.val; omega)

theorem feats_apply2 (v18 : FVec F S32768x512 .f32) (v67 v101 : FVec F S32768x256 .f32) (a6 : FVec F S32768x24 .f32)
    (a7 : FVec F S32768x200 .f32) (a8 : FVec F S32768x32 .f32) (r : Fin 32768) (j : Fin 1280)
    (hlo : 768 ≤ j.val) (hhi : j.val < 1024) :
    feats v18 v67 v101 a6 a7 a8 (ix2 r j) = v101 (ix2 r ⟨j.val - 768, by omega⟩) := by
  unfold feats
  exact cat_cols_apply _ _ 2 (by simp) 256 _ rfl 768 rfl r j ⟨j.val - 768, by omega⟩ (by show 768 + (j.val - 768) = j.val; omega)

theorem feats_apply3 (v18 : FVec F S32768x512 .f32) (v67 v101 : FVec F S32768x256 .f32) (a6 : FVec F S32768x24 .f32)
    (a7 : FVec F S32768x200 .f32) (a8 : FVec F S32768x32 .f32) (r : Fin 32768) (j : Fin 1280)
    (hlo : 1024 ≤ j.val) (hhi : j.val < 1048) :
    feats v18 v67 v101 a6 a7 a8 (ix2 r j) = a6 (ix2 r ⟨j.val - 1024, by omega⟩) := by
  unfold feats
  exact cat_cols_apply _ _ 3 (by simp) 24 _ rfl 1024 rfl r j ⟨j.val - 1024, by omega⟩ (by show 1024 + (j.val - 1024) = j.val; omega)

theorem feats_apply4 (v18 : FVec F S32768x512 .f32) (v67 v101 : FVec F S32768x256 .f32) (a6 : FVec F S32768x24 .f32)
    (a7 : FVec F S32768x200 .f32) (a8 : FVec F S32768x32 .f32) (r : Fin 32768) (j : Fin 1280)
    (hlo : 1048 ≤ j.val) (hhi : j.val < 1248) :
    feats v18 v67 v101 a6 a7 a8 (ix2 r j) = a7 (ix2 r ⟨j.val - 1048, by omega⟩) := by
  unfold feats
  exact cat_cols_apply _ _ 4 (by simp) 200 _ rfl 1048 rfl r j ⟨j.val - 1048, by omega⟩ (by show 1048 + (j.val - 1048) = j.val; omega)

theorem feats_apply5 (v18 : FVec F S32768x512 .f32) (v67 v101 : FVec F S32768x256 .f32) (a6 : FVec F S32768x24 .f32)
    (a7 : FVec F S32768x200 .f32) (a8 : FVec F S32768x32 .f32) (r : Fin 32768) (j : Fin 1280)
    (hlo : 1248 ≤ j.val) (hhi : j.val < 1280) :
    feats v18 v67 v101 a6 a7 a8 (ix2 r j) = a8 (ix2 r ⟨j.val - 1248, by omega⟩) := by
  unfold feats
  exact cat_cols_apply _ _ 5 (by simp) 32 _ rfl 1248 rfl r j ⟨j.val - 1248, by omega⟩ (by show 1248 + (j.val - 1248) = j.val; omega)

end R

variable {α : Type}

/-- The block's features are the corresponding rows of the reference's features. -/
theorem rows_feats {F : FTy → Type} [FloatOps F] {o : ℕ}
    {x0 : Vec F Cert.KernelIdeal.S1024x512 .f32} {A0 : FVec F Cert.ReferenceIdeal.S32768x512 .f32} (h0 : RowsAt o x0 A0)
    {x1 : Vec F Cert.KernelIdeal.S1024x256 .f32} {A1 : FVec F Cert.ReferenceIdeal.S32768x256 .f32} (h1 : RowsAt o x1 A1)
    {x2 : Vec F Cert.KernelIdeal.S1024x256 .f32} {A2 : FVec F Cert.ReferenceIdeal.S32768x256 .f32} (h2 : RowsAt o x2 A2)
    {x3 : Vec F Cert.KernelIdeal.S1024x256 .f32} (a6 : FVec F Cert.ReferenceIdeal.S32768x24 .f32)
    (a7 : FVec F Cert.ReferenceIdeal.S32768x200 .f32) (a8 : FVec F Cert.ReferenceIdeal.S32768x32 .f32)
    (h3 : RowsAt o x3 (K.others a6 a7 a8)) :
    RowsAt o (K.feats x0 x1 x2 x3) (R.feats A0 A1 A2 a6 a7 a8) := by
  intro p r j e
  have hj : j.val < 1280 := j.isLt
  by_cases c1 : j.val < 512
  · rw [K.feats_apply0 _ _ _ _ p j (Nat.zero_le _) c1, R.feats_apply0 _ _ _ _ _ _ r j (Nat.zero_le _) c1]
    exact h0 p r _ e
  by_cases c2 : j.val < 768
  · rw [K.feats_apply1 _ _ _ _ p j (by omega) c2, R.feats_apply1 _ _ _ _ _ _ r j (by omega) c2]
    exact h1 p r _ e
  by_cases c3 : j.val < 1024
  · rw [K.feats_apply2 _ _ _ _ p j (by omega) c3, R.feats_apply2 _ _ _ _ _ _ r j (by omega) c3]
    exact h2 p r _ e
  rw [K.feats_apply3 _ _ _ _ p j (by omega) hj, h3 p r ⟨j.val - 1024, by omega⟩ e]
  by_cases c4 : j.val < 1048
  · rw [K.others_apply0 a6 a7 a8 r ⟨j.val - 1024, by omega⟩ (Nat.zero_le _) (by show j.val - 1024 < 24; omega),
      R.feats_apply3 _ _ _ _ _ _ r j (by omega) c4]
    rfl
  by_cases c5 : j.val < 1248
  · rw [K.others_apply1 a6 a7 a8 r ⟨j.val - 1024, by omega⟩ (by show 24 ≤ j.val - 1024; omega) (by show j.val - 1024 < 224; omega),
      R.feats_apply4 _ _ _ _ _ _ r j (by omega) c5]
    exact congrArg (fun q => a7 (ix2 r q)) (Fin.ext (by show j.val - 1024 - 24 = j.val - 1048; omega))
  · rw [K.others_apply2 a6 a7 a8 r ⟨j.val - 1024, by omega⟩ (by show 224 ≤ j.val - 1024; omega) (by show j.val - 1024 < 256; omega),
      R.feats_apply5 _ _ _ _ _ _ r j (by omega) hj]
    exact congrArg (fun q => a8 (ix2 r q)) (Fin.ext (by show j.val - 1024 - 224 = j.val - 1248; omega))

end Cert.Bridge

end
-- ==== Proof.BlockRows.lean ====
/-
  A block of the kernel's result is the corresponding rows of the reference's result.

  Put together: if the four row-blocked inputs of a grid point hold rows o, o + 1, … of the node pairs, the two
  pooled arrays and the host's 256-wide feature array, and the four weight inputs hold the whole weight arrays,
  then what the body stores — the projection of three residual layers of the features laid side by side — is rows
  o, o + 1, … of the reference's result computed from the same arrays.
-/
import proofs.«105842_j30374008717369_2_alg».proof.Proof.LayerRows
import proofs.«105842_j30374008717369_2_alg».proof.Proof.Feats

set_option maxRecDepth 16384

noncomputable section

namespace Cert.Bridge

open Idealize.ShloMosaic Idealize.ShloMosaic.ValueIdx Cert.KernelIdeal.Hand

/-- The dense stack on the whole array, as the reference computes it from the features' six sources and the weights. -/
def R.dense (A0 : FVec Ideal Cert.ReferenceIdeal.S32768x512 .f32) (A1 A2 : FVec Ideal Cert.ReferenceIdeal.S32768x256 .f32)
    (a6 : FVec Ideal Cert.ReferenceIdeal.S32768x24 .f32) (a7 : FVec Ideal Cert.ReferenceIdeal.S32768x200 .f32)
    (a8 : FVec Ideal Cert.ReferenceIdeal.S32768x32 .f32) (a9 : FVec Ideal Cert.ReferenceIdeal.S3x1280x1280 .f32)
    (a10 : FVec Ideal Cert.ReferenceIdeal.S3x1280 .f32) (a11 : FVec Ideal Cert.ReferenceIdeal.S1280x512 .f32)
    (a12 : FVec Ideal Cert.ReferenceIdeal.S512 .f32) : FVec Ideal Cert.ReferenceIdeal.S32768x512 .f32 :=
  R.proj (R.layer (R.layer (R.layer (R.feats A0 A1 A2 a6 a7 a8) (R.wmat0 a9) (R.brow0 a10)) (R.wmat1 a9) (R.brow1 a10))
    (R.wmat2 a9) (R.brow2 a10)) a11 a12

/-- The body's stored value on a block, from the block's inputs. -/
def K.dense (x0 : Vec Ideal Cert.KernelIdeal.S1024x512 .f32) (x1 x2 x3 : Vec Ideal Cert.KernelIdeal.S1024x256 .f32)
    (a9 : Vec Ideal Cert.KernelIdeal.S3x1280x1280 .f32) (a10 : Vec Ideal Cert.KernelIdeal.S3x1280 .f32)
    (a11 : Vec Ideal Cert.KernelIdeal.S1280x512 .f32) (a12 : Vec Ideal Cert.KernelIdeal.S512 .f32) :
    FVec Ideal Cert.KernelIdeal.S1024x512 .f32 :=
  K.proj (K.layer (K.layer (K.layer (K.feats x0 x1 x2 x3) (View.ld a9 rW0) (View.ld a10 rB0)) (View.ld a9 rW1) (View.ld a10 rB1))
    (View.ld a9 rW2) (View.ld a10 rB2)) a11 a12

/-- The block's stored value is the corresponding rows of the reference's result. -/
theorem rows_dense {o : ℕ}
    {x0 : Vec Ideal Cert.KernelIdeal.S1024x512 .f32} {A0 : FVec Ideal Cert.ReferenceIdeal.S32768x512 .f32} (h0 : RowsAt o x0 A0)
    {x1 : Vec Ideal Cert.KernelIdeal.S1024x256 .f32} {A1 : FVec Ideal Cert.ReferenceIdeal.S32768x256 .f32} (h1 : RowsAt o x1 A1)
    {x2 : Vec Ideal Cert.KernelIdeal.S1024x256 .f32} {A2 : FVec Ideal Cert.ReferenceIdeal.S32768x256 .f32} (h2 : RowsAt o x2 A2)
    {x3 : Vec Ideal Cert.KernelIdeal.S1024x256 .f32} (a6 : FVec Ideal Cert.ReferenceIdeal.S32768x24 .f32)
    (a7 : FVec Ideal Cert.ReferenceIdeal.S32768x200 .f32) (a8 : FVec Ideal Cert.ReferenceIdeal.S32768x32 .f32)
    (h3 : RowsAt o x3 (K.others a6 a7 a8))
    (a9 : FVec Ideal Cert.ReferenceIdeal.S3x1280x1280 .f32) (a10 : FVec Ideal Cert.ReferenceIdeal.S3x1280 .f32)
    (a11 : FVec Ideal Cert.ReferenceIdeal.S1280x512 .f32) (a12 : FVec Ideal Cert.ReferenceIdeal.S512 .f32) :
    RowsAt o (K.dense x0 x1 x2 x3 a9 a10 a11 a12) (R.dense A0 A1 A2 a6 a7 a8 a9 a10 a11 a12) :=
  rows_proj
    (rows_layer
      (rows_layer
        (rows_layer (rows_feats h0 h1 h2 a6 a7 a8 h3) _ _ (wmat0_eq a9) _ _ (rows_brow0 o a10))
        _ _ (wmat1_eq a9) _ _ (rows_brow1 o a10))
      _ _ (wmat2_eq a9) _ _ (rows_brow2 o a10))
    a11 a12

/-- The body's payload, over the loads of the eight input buffers, is `K.dense` of their contents. -/
theorem payload_eq (x0 : Vec Ideal Cert.KernelIdeal.S1024x512 .f32) (x1 x2 x3 : Vec Ideal Cert.KernelIdeal.S1024x256 .f32)
    (a9 : Vec Ideal Cert.KernelIdeal.S3x1280x1280 .f32) (a10 : Vec Ideal Cert.KernelIdeal.S3x1280 .f32)
    (a11 : Vec Ideal Cert.KernelIdeal.S1280x512 .f32) (a12 : Vec Ideal Cert.KernelIdeal.S512 .f32) :
    Cert.KernelIdeal.Gen.k0_pay4
      (Cert.KernelIdeal.Gen.k0_pay1 x0 x1 x2 x3 (View.ld a9 rW0) (View.ld a10 rB0))
      (Cert.KernelIdeal.Gen.k0_pay2 x0 x1 x2 x3 (View.ld a9 rW0) (View.ld a10 rB0) (View.ld a9 rW1))
      (Cert.KernelIdeal.Gen.k0_pay3 (View.ld a10 rB1)) (View.ld a9 rW2) (View.ld a10 rB2) a11 a12
      = K.dense x0 x1 x2 x3 a9 a10 a11 a12 :=
  K.pay4_eq x0 x1 x2 x3 _ _ _ _ _ _ a11 a12

end Cert.Bridge

end
-- ==== Proof.KernelValue.lean ====
/-
  The kernel's result array.

  Every grid point t writes back block t of the result: rows 1024 t … 1024 t + 1023, all 512 columns. At that point
  the four row-blocked inputs hold the same rows of their arrays, and the four weight inputs hold the whole weight
  arrays. So block t of the result is rows 1024 t … of the reference's dense stack applied to those arrays, and the
  32 blocks together are the whole of it.
-/
import proofs.«105842_j30374008717369_2_alg».proof.Proof.RegionBlocks
import proofs.«105842_j30374008717369_2_alg».proof.Proof.BlockRows

set_option maxRecDepth 16384

noncomputable section

namespace Cert.KernelIdeal.Hand

open Cert.KernelIdeal Cert.KernelIdeal.Gen Idealize.ShloMosaic Idealize.ShloMosaic.TcCoe Idealize.SL.Sem
open Cert.Bridge Idealize.ShloMosaic.ValueIdx

variable (m : (ℓ : Loc nD τ sig) → Buf (Elt Ideal) ℓ)

/-- The result array after the run, given what the four computed window arrays hold when the region is entered:
    the dense stack of those arrays and the weight arguments. -/
theorem final_dense (c : Dev nD)
    (A0 : FVec Ideal Cert.ReferenceIdeal.S32768x512 .f32) (A1 A2 : FVec Ideal Cert.ReferenceIdeal.S32768x256 .f32)
    (h18 : V m c main_v18 = A0) (h62 : V m c main_v62 = A1) (h91 : V m c main_v91 = A2)
    (h92 : V m c main_v92 = K.others (F := Ideal) (m ((c : Thread nD τ).loc main_arg6)) (m ((c : Thread nD τ).loc main_arg7)) (m ((c : Thread nD τ).loc main_arg8))) :
    (dats m 0 c).arrAt 8 cfg0.N
      = R.dense A0 A1 A2 (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  refine final_of_rows m c _ fun t => ?_
  rw [out0_8_eq, ld_rX, ld_rY, ld_rY, ld_rY, ld_rP, ld_rQ, whole0_4_arg, whole0_5_arg, whole0_6_arg, whole0_7_arg]
  have r0 := rows0_0 m c t
  have r1 := rows0_1 m c t
  have r2 := rows0_2 m c t
  have r3 := rows0_3 m c t
  rw [h18] at r0
  rw [h62] at r1
  rw [h91] at r2
  rw [h92] at r3
  exact (payload_eq _ _ _ _ _ _ _ _).symm ▸ rows_dense r0 r1 r2 _ _ _ r3 _ _ _ _

end Cert.KernelIdeal.Hand

end
-- ==== Proof.KernelEntry.lean ====
/-
  The four computed window arrays at the region's entry, as named functions of the argument arrays, at any
  float instance `F`.

  Before the region the program runs 123 host operations in five stretches. Each writes one buffer of its own, once,
  so the contents of a buffer at the region's entry is the value of the operation that writes it, applied to the
  contents of the buffers it reads. The stretches are read in eleven consecutive segments, each ending where one
  of the named functions ends; a buffer no operation of a segment writes passes through that segment unchanged.
-/
import proofs.«105842_j30374008717369_2_alg».proof.Proof.RegionData
import proofs.«105842_j30374008717369_2_alg».proof.Proof.LibAfter
import proofs.«105842_j30374008717369_2_alg».proof.Proof.LibTRef
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F]

/-! ## The window arrays at the region's entry, as functions of the argument arrays

Each definition is the composition of the host operations that compute the value, in program order,
one line per operation. -/

/-- The value of %18: for each of the 32768 pairs, the two gathered rows of the table side by side
    (a negative row index counts from the table's end). -/
def pairs (X : FVec F S65536x256 .f32) (ei : IVec S2x32768 32) : FVec F S32768x512 .f32 :=
  have v0 : (⟨S1x32768, .i32⟩ : BufTy).Contents (Elt F) := ((extractStridedSlice S1x32768 ![0, 0] · slices_S2x32768_S1x32768_0_0) : (⟨S2x32768, .i32⟩ : BufTy).Contents (Elt F) → (⟨S1x32768, .i32⟩ : BufTy).Contents (Elt F)) ei
  have v1 := shapeCast S32768 v0 shapeCasts_S1x32768_S32768
  have v2 : (⟨S1x32768, .i32⟩ : BufTy).Contents (Elt F) := ((extractStridedSlice S1x32768 ![1, 0] · slices_S2x32768_S1x32768_1_0) : (⟨S2x32768, .i32⟩ : BufTy).Contents (Elt F) → (⟨S1x32768, .i32⟩ : BufTy).Contents (Elt F)) ei
  have v3 := shapeCast S32768 v2 shapeCasts_S1x32768_S32768
  have c : (⟨S_, .i32⟩ : BufTy).Contents (Elt F) := (constantI S_ 32 0#32)
  have v4 : (⟨S32768, .i32⟩ : BufTy).Contents (Elt F) := (broadcastInDim S32768 ![] bcast_S_S32768 : (⟨S_, .i32⟩ : BufTy).Contents (Elt F) → (⟨S32768, .i32⟩ : BufTy).Contents (Elt F)) c
  have v5 : (⟨S32768, .i1⟩ : BufTy).Contents (Elt F) := (cmpi .slt : (⟨S32768, .i32⟩ : BufTy).Contents (Elt F) → (⟨S32768, .i32⟩ : BufTy).Contents (Elt F) → (⟨S32768, .i1⟩ : BufTy).Contents (Elt F)) v1 v4
  have c_0 : (⟨S_, .i32⟩ : BufTy).Contents (Elt F) := (constantI S_ 32 65536#32)
  have v6 : (⟨S32768, .i32⟩ : BufTy).Contents (Elt F) := (broadcastInDim S32768 ![] bcast_S_S32768 : (⟨S_, .i32⟩ : BufTy).Contents (Elt F) → (⟨S32768, .i32⟩ : BufTy).Contents (Elt F)) c_0
  have v7 : (⟨S32768, .i32⟩ : BufTy).Contents (Elt F) := (addi : (⟨S32768, .i32⟩ : BufTy).Contents (Elt F) → (⟨S32768, .i32⟩ : BufTy).Contents (Elt F) → (⟨S32768, .i32⟩ : BufTy).Contents (Elt F)) v1 v6
  have v8 : (⟨S32768, .i32⟩ : BufTy).Contents (Elt F) := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) v5 v7 v1
  have v9 : (⟨S32768x1, .i32⟩ : BufTy).Contents (Elt F) := (broadcastInDim S32768x1 ![0] bcast_S32768_S32768x1_0 : (⟨S32768, .i32⟩ : BufTy).Contents (Elt F) → (⟨S32768x1, .i32⟩ : BufTy).Contents (Elt F)) v8
  have v10 : (⟨S32768x256, .f32⟩ : BufTy).Contents (Elt F) := ((fun x i => Host.gather gather_S65536x256_S32768x1_S32768x256_1_0_n_n_0_1_1256 x i) : (⟨S65536x256, .f32⟩ : BufTy).Contents (Elt F) → (⟨S32768x1, .i32⟩ : BufTy).Contents (Elt F) → (⟨S32768x256, .f32⟩ : BufTy).Contents (Elt F)) X v9
  have c_1 : (⟨S_, .i32⟩ : BufTy).Contents (Elt F) := (constantI S_ 32 0#32)
  have v11 : (⟨S32768, .i32⟩ : BufTy).Contents (Elt F) := (broadcastInDim S32768 ![] bcast_S_S32768 : (⟨S_, .i32⟩ : BufTy).Contents (Elt F) → (⟨S32768, .i32⟩ : BufTy).Contents (Elt F)) c_1
  have v12 : (⟨S32768, .i1⟩ : BufTy).Contents (Elt F) := (cmpi .slt : (⟨S32768, .i32⟩ : BufTy).Contents (Elt F) → (⟨S32768, .i32⟩ : BufTy).Contents (Elt F) → (⟨S32768, .i1⟩ : BufTy).Contents (Elt F)) v3 v11
  have c_2 : (⟨S_, .i32⟩ : BufTy).Contents (Elt F) := (constantI S_ 32 65536#32)
  have v13 : (⟨S32768, .i32⟩ : BufTy).Contents (Elt F) := (broadcastInDim S32768 ![] bcast_S_S32768 : (⟨S_, .i32⟩ : BufTy).Contents (Elt F) → (⟨S32768, .i32⟩ : BufTy).Contents (Elt F)) c_2
  have v14 : (⟨S32768, .i32⟩ : BufTy).Contents (Elt F) := (addi : (⟨S32768, .i32⟩ : BufTy).Contents (Elt F) → (⟨S32768, .i32⟩ : BufTy).Contents (Elt F) → (⟨S32768, .i32⟩ : BufTy).Contents (Elt F)) v3 v13
  have v15 : (⟨S32768, .i32⟩ : BufTy).Contents (Elt F) := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) v12 v14 v3
  have v16 : (⟨S32768x1, .i32⟩ : BufTy).Contents (Elt F) := (broadcastInDim S32768x1 ![0] bcast_S32768_S32768x1_0 : (⟨S32768, .i32⟩ : BufTy).Contents (Elt F) → (⟨S32768x1, .i32⟩ : BufTy).Contents (Elt F)) v15
  have v17 : (⟨S32768x256, .f32⟩ : BufTy).Contents (Elt F) := ((fun x i => Host.gather gather_S65536x256_S32768x1_S32768x256_1_0_n_n_0_1_1256 x i) : (⟨S65536x256, .f32⟩ : BufTy).Contents (Elt F) → (⟨S32768x1, .i32⟩ : BufTy).Contents (Elt F) → (⟨S32768x256, .f32⟩ : BufTy).Contents (Elt F)) X v16
  have v18 : (⟨S32768x512, .f32⟩ : BufTy).Contents (Elt F) := ((fun a b => concatenate S32768x512 1 [⟨S32768x256, a⟩, ⟨S32768x256, b⟩] concatenates_S32768x256_S32768x256_S32768x512_d1) : (⟨S32768x256, .f32⟩ : BufTy).Contents (Elt F) → (⟨S32768x256, .f32⟩ : BufTy).Contents (Elt F) → (⟨S32768x512, .f32⟩ : BufTy).Contents (Elt F)) v10 v17
  v18

/-- The value of %33: for each pair, the offset of its first member's group, read through two tables
    (negative indices counting from the end), as a one-column array. -/
def offs (ei : IVec S2x32768 32) (bv : IVec S65536 32) (ptr : IVec S65 32) : IVec S32768x1 32 :=
  have v0 : IVec S1x32768 32 := ((extractStridedSlice S1x32768 ![0, 0] · slices_S2x32768_S1x32768_0_0) : IVec S2x32768 32 → IVec S1x32768 32) ei
  have v1 := shapeCast S32768 v0 shapeCasts_S1x32768_S32768
  have c_3 : IVec S_ 32 := (constantI S_ 32 0#32)
  have v19 : IVec S32768 32 := (broadcastInDim S32768 ![] bcast_S_S32768 : IVec S_ 32 → IVec S32768 32) c_3
  have v20 : IVec S32768 1 := (cmpi .slt : IVec S32768 32 → IVec S32768 32 → IVec S32768 1) v1 v19
  have c_4 : IVec S_ 32 := (constantI S_ 32 65536#32)
  have v21 : IVec S32768 32 := (broadcastInDim S32768 ![] bcast_S_S32768 : IVec S_ 32 → IVec S32768 32) c_4
  have v22 : IVec S32768 32 := (addi : IVec S32768 32 → IVec S32768 32 → IVec S32768 32) v1 v21
  have v23 : IVec S32768 32 := (select : IVec S32768 1 → IVec S32768 32 → IVec S32768 32 → IVec S32768 32) v20 v22 v1
  have v24 : IVec S32768x1 32 := (broadcastInDim S32768x1 ![0] bcast_S32768_S32768x1_0 : IVec S32768 32 → IVec S32768x1 32) v23
  have v25 : IVec S32768 32 := ((fun x i => Host.gather gather_S65536_S32768x1_S32768_n_0_n_n_0_1_1 x i) : IVec S65536 32 → IVec S32768x1 32 → IVec S32768 32) bv v24
  have c_5 : IVec S_ 32 := (constantI S_ 32 0#32)
  have v26 : IVec S32768 32 := (broadcastInDim S32768 ![] bcast_S_S32768 : IVec S_ 32 → IVec S32768 32) c_5
  have v27 : IVec S32768 1 := (cmpi .slt : IVec S32768 32 → IVec S32768 32 → IVec S32768 1) v25 v26
  have c_6 : IVec S_ 32 := (constantI S_ 32 65#32)
  have v28 : IVec S32768 32 := (broadcastInDim S32768 ![] bcast_S_S32768 : IVec S_ 32 → IVec S32768 32) c_6
  have v29 : IVec S32768 32 := (addi : IVec S32768 32 → IVec S32768 32 → IVec S32768 32) v25 v28
  have v30 : IVec S32768 32 := (select : IVec S32768 1 → IVec S32768 32 → IVec S32768 32 → IVec S32768 32) v27 v29 v25
  have v31 : IVec S32768x1 32 := (broadcastInDim S32768x1 ![0] bcast_S32768_S32768x1_0 : IVec S32768 32 → IVec S32768x1 32) v30
  have v32 : IVec S32768 32 := ((fun x i => Host.gather gather_S65_S32768x1_S32768_n_0_n_n_0_1_1 x i) : IVec S65 32 → IVec S32768x1 32 → IVec S32768 32) ptr v31
  have v33 : IVec S32768x1 32 := (broadcastInDim S32768x1 ![0] bcast_S32768_S32768x1_0 : IVec S32768 32 → IVec S32768x1 32) v32
  v33

/-- The value of %36 (and of %65): the local neighbour indices shifted by the group offset, flattened. -/
def flatIdx (idx : IVec S32768x24 32) (o : IVec S32768x1 32) : IVec S786432 32 :=
  have v34 : IVec S32768x24 32 := (broadcastInDim S32768x24 ![0, 1] bcast_S32768x1_S32768x24_0_1 : IVec S32768x1 32 → IVec S32768x24 32) o
  have v35 : IVec S32768x24 32 := (addi : IVec S32768x24 32 → IVec S32768x24 32 → IVec S32768x24 32) idx v34
  have v36 := shapeCast S786432 v35 shapeCasts_S32768x24_S786432
  v36

/-- The value of %39 (and of %68): 1 where the flat index is not the all-ones word, else 0. -/
def rowMask (flat : IVec S786432 32) : FVec F S786432 .f32 :=
  have c_7 : (⟨S_, .i32⟩ : BufTy).Contents (Elt F) := (constantI S_ 32 4294967295#32)
  have v37 : (⟨S786432, .i32⟩ : BufTy).Contents (Elt F) := (broadcastInDim S786432 ![] bcast_S_S786432 : (⟨S_, .i32⟩ : BufTy).Contents (Elt F) → (⟨S786432, .i32⟩ : BufTy).Contents (Elt F)) c_7
  have v38 : (⟨S786432, .i1⟩ : BufTy).Contents (Elt F) := (cmpi .ne : (⟨S786432, .i32⟩ : BufTy).Contents (Elt F) → (⟨S786432, .i32⟩ : BufTy).Contents (Elt F) → (⟨S786432, .i1⟩ : BufTy).Contents (Elt F)) flat v37
  have v39 : (⟨S786432, .f32⟩ : BufTy).Contents (Elt F) := (uitofp .f32 : (⟨S786432, .i1⟩ : BufTy).Contents (Elt F) → (⟨S786432, .f32⟩ : BufTy).Contents (Elt F)) v38
  v39

/-- The value of %49 (and of %78): the gathered neighbour rows, each multiplied by its mask entry. -/
def gathered (X : FVec F S65536x256 .f32) (flat : IVec S786432 32) (msk : FVec F S786432 .f32) : FVec F S786432x256 .f32 :=
  have c_8 : (⟨S_, .i32⟩ : BufTy).Contents (Elt F) := (constantI S_ 32 0#32)
  have v40 : (⟨S786432, .i32⟩ : BufTy).Contents (Elt F) := (broadcastInDim S786432 ![] bcast_S_S786432 : (⟨S_, .i32⟩ : BufTy).Contents (Elt F) → (⟨S786432, .i32⟩ : BufTy).Contents (Elt F)) c_8
  have v41 : (⟨S786432, .i1⟩ : BufTy).Contents (Elt F) := (cmpi .slt : (⟨S786432, .i32⟩ : BufTy).Contents (Elt F) → (⟨S786432, .i32⟩ : BufTy).Contents (Elt F) → (⟨S786432, .i1⟩ : BufTy).Contents (Elt F)) flat v40
  have c_9 : (⟨S_, .i32⟩ : BufTy).Contents (Elt F) := (constantI S_ 32 65536#32)
  have v42 : (⟨S786432, .i32⟩ : BufTy).Contents (Elt F) := (broadcastInDim S786432 ![] bcast_S_S786432 : (⟨S_, .i32⟩ : BufTy).Contents (Elt F) → (⟨S786432, .i32⟩ : BufTy).Contents (Elt F)) c_9
  have v43 : (⟨S786432, .i32⟩ : BufTy).Contents (Elt F) := (addi : (⟨S786432, .i32⟩ : BufTy).Contents (Elt F) → (⟨S786432, .i32⟩ : BufTy).Contents (Elt F) → (⟨S786432, .i32⟩ : BufTy).Contents (Elt F)) flat v42
  have v44 : (⟨S786432, .i32⟩ : BufTy).Contents (Elt F) := (select : (⟨S786432, .i1⟩ : BufTy).Contents (Elt F) → (⟨S786432, .i32⟩ : BufTy).Contents (Elt F) → (⟨S786432, .i32⟩ : BufTy).Contents (Elt F) → (⟨S786432, .i32⟩ : BufTy).Contents (Elt F)) v41 v43 flat
  have v45 : (⟨S786432x1, .i32⟩ : BufTy).Contents (Elt F) := (broadcastInDim S786432x1 ![0] bcast_S786432_S786432x1_0 : (⟨S786432, .i32⟩ : BufTy).Contents (Elt F) → (⟨S786432x1, .i32⟩ : BufTy).Contents (Elt F)) v44
  have v46 : (⟨S786432x256, .f32⟩ : BufTy).Contents (Elt F) := ((fun x i => Host.gather gather_S65536x256_S786432x1_S786432x256_1_0_n_n_0_1_1256 x i) : (⟨S65536x256, .f32⟩ : BufTy).Contents (Elt F) → (⟨S786432x1, .i32⟩ : BufTy).Contents (Elt F) → (⟨S786432x256, .f32⟩ : BufTy).Contents (Elt F)) X v45
  have v47 : (⟨S786432x1, .f32⟩ : BufTy).Contents (Elt F) := (broadcastInDim S786432x1 ![0] bcast_S786432_S786432x1_0 : (⟨S786432, .f32⟩ : BufTy).Contents (Elt F) → (⟨S786432x1, .f32⟩ : BufTy).Contents (Elt F)) msk
  have v48 : (⟨S786432x256, .f32⟩ : BufTy).Contents (Elt F) := (broadcastInDim S786432x256 ![0, 1] bcast_S786432x1_S786432x256_0_1 : (⟨S786432x1, .f32⟩ : BufTy).Contents (Elt F) → (⟨S786432x256, .f32⟩ : BufTy).Contents (Elt F)) v47
  have v49 : (⟨S786432x256, .f32⟩ : BufTy).Contents (Elt F) := (mulf : (⟨S786432x256, .f32⟩ : BufTy).Contents (Elt F) → (⟨S786432x256, .f32⟩ : BufTy).Contents (Elt F) → (⟨S786432x256, .f32⟩ : BufTy).Contents (Elt F)) v46 v48
  v49

/-- The value of %62 (and of %91): per pair, the sum of its 24 masked rows divided by the count of unmasked ones
    (at least 1), and zero where the count is zero. -/
def pooled (G : FVec F S786432x256 .f32) (msk : FVec F S786432 .f32) : FVec F S32768x256 .f32 :=
  have v50 := shapeCast S32768x24x256 G shapeCasts_S786432x256_S32768x24x256
  have v51 := shapeCast S32768x24 msk shapeCasts_S786432_S32768x24
  have cst : (⟨S_, .f32⟩ : BufTy).Contents (Elt F) := (constant S_ .f32 0x00000000#32)
  have v52 : (⟨S32768x256, .f32⟩ : BufTy).Contents (Elt F) := ((fun x v => Host.reduceAdd x v reducesTo_S32768x24x256_S32768x256_d1 h_S_) : (⟨S32768x24x256, .f32⟩ : BufTy).Contents (Elt F) → (⟨S_, .f32⟩ : BufTy).Contents (Elt F) → (⟨S32768x256, .f32⟩ : BufTy).Contents (Elt F)) v50 cst
  have cst_10 : (⟨S_, .f32⟩ : BufTy).Contents (Elt F) := (constant S_ .f32 0x00000000#32)
  have v53 : (⟨S32768, .f32⟩ : BufTy).Contents (Elt F) := ((fun x v => Host.reduceAdd x v reducesTo_S32768x24_S32768_d1 h_S_) : (⟨S32768x24, .f32⟩ : BufTy).Contents (Elt F) → (⟨S_, .f32⟩ : BufTy).Contents (Elt F) → (⟨S32768, .f32⟩ : BufTy).Contents (Elt F)) v51 cst_10
  have v54 : (⟨S32768x1, .f32⟩ : BufTy).Contents (Elt F) := (broadcastInDim S32768x1 ![0] bcast_S32768_S32768x1_0 : (⟨S32768, .f32⟩ : BufTy).Contents (Elt F) → (⟨S32768x1, .f32⟩ : BufTy).Contents (Elt F)) v53
  have cst_11 : (⟨S_, .f32⟩ : BufTy).Contents (Elt F) := (constant S_ .f32 0x00000000#32)
  have v55 : (⟨S32768x1, .f32⟩ : BufTy).Contents (Elt F) := (broadcastInDim S32768x1 ![] bcast_S_S32768x1 : (⟨S_, .f32⟩ : BufTy).Contents (Elt F) → (⟨S32768x1, .f32⟩ : BufTy).Contents (Elt F)) cst_11
  have v56 : (⟨S32768x1, .i1⟩ : BufTy).Contents (Elt F) := (cmpf .ogt : (⟨S32768x1, .f32⟩ : BufTy).Contents (Elt F) → (⟨S32768x1, .f32⟩ : BufTy).Contents (Elt F) → (⟨S32768x1, .i1⟩ : BufTy).Contents (Elt F)) v54 v55
  have cst_12 : (⟨S_, .f32⟩ : BufTy).Contents (Elt F) := (constant S_ .f32 0x3F800000#32)
  have v57 : (⟨S32768, .f32⟩ : BufTy).Contents (Elt F) := (broadcastInDim S32768 ![] bcast_S_S32768 : (⟨S_, .f32⟩ : BufTy).Contents (Elt F) → (⟨S32768, .f32⟩ : BufTy).Contents (Elt F)) cst_12
  have v58 : (⟨S32768, .f32⟩ : BufTy).Contents (Elt F) := (maximumf : (⟨S32768, .f32⟩ : BufTy).Contents (Elt F) → (⟨S32768, .f32⟩ : BufTy).Contents (Elt F) → (⟨S32768, .f32⟩ : BufTy).Contents (Elt F)) v53 v57
  have v59 : (⟨S32768x1, .f32⟩ : BufTy).Contents (Elt F) := (broadcastInDim S32768x1 ![0] bcast_S32768_S32768x1_0 : (⟨S32768, .f32⟩ : BufTy).Contents (Elt F) → (⟨S32768x1, .f32⟩ : BufTy).Contents (Elt F)) v58
  have v60 : (⟨S32768x256, .f32⟩ : BufTy).Contents (Elt F) := (broadcastInDim S32768x256 ![0, 1] bcast_S32768x1_S32768x256_0_1 : (⟨S32768x1, .f32⟩ : BufTy).Contents (Elt F) → (⟨S32768x256, .f32⟩ : BufTy).Contents (Elt F)) v59
  have v61 : (⟨S32768x256, .f32⟩ : BufTy).Contents (Elt F) := (Host.divf : (⟨S32768x256, .f32⟩ : BufTy).Contents (Elt F) → (⟨S32768x256, .f32⟩ : BufTy).Contents (Elt F) → (⟨S32768x256, .f32⟩ : BufTy).Contents (Elt F)) v52 v60
  have cst_13 : (⟨S_, .f32⟩ : BufTy).Contents (Elt F) := (constant S_ .f32 0x00000000#32)
  have call0_v0 : (⟨S_, .f32⟩ : BufTy).Contents (Elt F) := (id) cst_13
  have call0_v1 : (⟨S32768x256, .i1⟩ : BufTy).Contents (Elt F) := ((broadcastInDim S32768x256 ![0, 1] bcast_S32768x1_S32768x256_0_1)) v56
  have call0_v2 : (⟨S32768x256, .f32⟩ : BufTy).Contents (Elt F) := ((broadcastInDim S32768x256 ![] bcast_S_S32768x256)) call0_v0
  have v62 : (⟨S32768x256, .f32⟩ : BufTy).Contents (Elt F) := (select) call0_v1 v61 call0_v2
  v62

/-- The value of %92: the three remaining feature arrays side by side. -/
def others (a6 : FVec F S32768x24 .f32) (a7 : FVec F S32768x200 .f32) (a8 : FVec F S32768x32 .f32) : FVec F S32768x256 .f32 :=
  have v92 : (⟨S32768x256, .f32⟩ : BufTy).Contents (Elt F) := concatenate S32768x256 1 [⟨S32768x24, a6⟩, ⟨S32768x200, a7⟩, ⟨S32768x32, a8⟩] concatenates_S32768x24_S32768x200_S32768x32_S32768x256_d1
  v92

/-! ## The segments -/

/-- An operation that writes only the buffer `y` writes within any list of references holding `y`. -/
theorem wsub {Wl : List (Ref sig .tc)} (y : Ref sig .tc) (hy : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map.mpr ⟨y, hy, rfl⟩))

def segA : List (HloOp τ sig (Elt F)) :=
  [ StableHlo.unary main_arg1 main_v0 ((extractStridedSlice S1x32768 ![0, 0] · slices_S2x32768_S1x32768_0_0) : (⟨S2x32768, .i32⟩ : BufTy).Contents (Elt F) → (⟨S1x32768, .i32⟩ : BufTy).Contents (Elt F)),
    StableHlo.reshape main_v0 main_v1 rfl shapeCasts_S1x32768_S32768,
    StableHlo.unary main_arg1 main_v2 ((extractStridedSlice S1x32768 ![1, 0] · slices_S2x32768_S1x32768_1_0) : (⟨S2x32768, .i32⟩ : BufTy).Contents (Elt F) → (⟨S1x32768, .i32⟩ : BufTy).Contents (Elt F)),
    StableHlo.reshape main_v2 main_v3 rfl shapeCasts_S1x32768_S32768,
    StableHlo.nullary main_c (constantI S_ 32 0#32),
    StableHlo.unary main_c main_v4 (broadcastInDim S32768 ![] bcast_S_S32768 : (⟨S_, .i32⟩ : BufTy).Contents (Elt F) → (⟨S32768, .i32⟩ : BufTy).Contents (Elt F)),
    StableHlo.binary main_v1 main_v4 main_v5 (cmpi .slt : (⟨S32768, .i32⟩ : BufTy).Contents (Elt F) → (⟨S32768, .i32⟩ : BufTy).Contents (Elt F) → (⟨S32768, .i1⟩ : BufTy).Contents (Elt F)),
    StableHlo.nullary main_c_0 (constantI S_ 32 65536#32),
    StableHlo.unary main_c_0 main_v6 (broadcastInDim S32768 ![] bcast_S_S32768 : (⟨S_, .i32⟩ : BufTy).Contents (Elt F) → (⟨S32768, .i32⟩ : BufTy).Contents (Elt F)),
    StableHlo.binary main_v1 main_v6 main_v7 (addi : (⟨S32768, .i32⟩ : BufTy).Contents (Elt F) → (⟨S32768, .i32⟩ : BufTy).Contents (Elt F) → (⟨S32768, .i32⟩ : BufTy).Contents (Elt F)),
    StableHlo.ternary main_v5 main_v7 main_v1 main_v8 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v8 main_v9 (broadcastInDim S32768x1 ![0] bcast_S32768_S32768x1_0 : (⟨S32768, .i32⟩ : BufTy).Contents (Elt F) → (⟨S32768x1, .i32⟩ : BufTy).Contents (Elt F)),
    StableHlo.binary main_arg0 main_v9 main_v10 ((fun x i => Host.gather gather_S65536x256_S32768x1_S32768x256_1_0_n_n_0_1_1256 x i) : (⟨S65536x256, .f32⟩ : BufTy).Contents (Elt F) → (⟨S32768x1, .i32⟩ : BufTy).Contents (Elt F) → (⟨S32768x256, .f32⟩ : BufTy).Contents (Elt F)),
    StableHlo.nullary main_c_1 (constantI S_ 32 0#32),
    StableHlo.unary main_c_1 main_v11 (broadcastInDim S32768 ![] bcast_S_S32768 : (⟨S_, .i32⟩ : BufTy).Contents (Elt F) → (⟨S32768, .i32⟩ : BufTy).Contents (Elt F)),
    StableHlo.binary main_v3 main_v11 main_v12 (cmpi .slt : (⟨S32768, .i32⟩ : BufTy).Contents (Elt F) → (⟨S32768, .i32⟩ : BufTy).Contents (Elt F) → (⟨S32768, .i1⟩ : BufTy).Contents (Elt F)),
    StableHlo.nullary main_c_2 (constantI S_ 32 65536#32),
    StableHlo.unary main_c_2 main_v13 (broadcastInDim S32768 ![] bcast_S_S32768 : (⟨S_, .i32⟩ : BufTy).Contents (Elt F) → (⟨S32768, .i32⟩ : BufTy).Contents (Elt F)),
    StableHlo.binary main_v3 main_v13 main_v14 (addi : (⟨S32768, .i32⟩ : BufTy).Contents (Elt F) → (⟨S32768, .i32⟩ : BufTy).Contents (Elt F) → (⟨S32768, .i32⟩ : BufTy).Contents (Elt F)),
    StableHlo.ternary main_v12 main_v14 main_v3 main_v15 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v15 main_v16 (broadcastInDim S32768x1 ![0] bcast_S32768_S32768x1_0 : (⟨S32768, .i32⟩ : BufTy).Contents (Elt F) → (⟨S32768x1, .i32⟩ : BufTy).Contents (Elt F)),
    StableHlo.binary main_arg0 main_v16 main_v17 ((fun x i => Host.gather gather_S65536x256_S32768x1_S32768x256_1_0_n_n_0_1_1256 x i) : (⟨S65536x256, .f32⟩ : BufTy).Contents (Elt F) → (⟨S32768x1, .i32⟩ : BufTy).Contents (Elt F) → (⟨S32768x256, .f32⟩ : BufTy).Contents (Elt F)),
    StableHlo.binary main_v10 main_v17 main_v18 ((fun a b => concatenate S32768x512 1 [⟨S32768x256, a⟩, ⟨S32768x256, b⟩] concatenates_S32768x256_S32768x256_S32768x512_d1) : (⟨S32768x256, .f32⟩ : BufTy).Contents (Elt F) → (⟨S32768x256, .f32⟩ : BufTy).Contents (Elt F) → (⟨S32768x512, .f32⟩ : BufTy).Contents (Elt F)) ]
def segA_writes : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18]
theorem segA_hW : (segA : List (HloOp τ sig (Elt F))).Forall fun op => op.writes ⊆ ((segA_writes).map (Proc.devRef (τ := τ) .tc)).toFinset :=
  ⟨wsub main_v0 (by decide), wsub main_v1 (by decide), wsub main_v2 (by decide), wsub main_v3 (by decide), wsub main_c (by decide), wsub main_v4 (by decide), wsub main_v5 (by decide), wsub main_c_0 (by decide), wsub main_v6 (by decide), wsub main_v7 (by decide), wsub main_v8 (by decide), wsub main_v9 (by decide), wsub main_v10 (by decide), wsub main_c_1 (by decide), wsub main_v11 (by decide), wsub main_v12 (by decide), wsub main_c_2 (by decide), wsub main_v13 (by decide), wsub main_v14 (by decide), wsub main_v15 (by decide), wsub main_v16 (by decide), wsub main_v17 (by decide), wsub main_v18 (by decide)⟩
theorem segA_keep (W : Valuation τ sig (Elt F)) (r : Ref sig .tc) (hr : r ∉ segA_writes) :
    after segA W (Proc.devRef .tc r) = W (Proc.devRef .tc r) :=
  after_of_writes_sub segA W segA_hW hr

def segB : List (HloOp τ sig (Elt F)) :=
  [ StableHlo.nullary main_c_3 (constantI S_ 32 0#32),
    StableHlo.unary main_c_3 main_v19 (broadcastInDim S32768 ![] bcast_S_S32768 : (⟨S_, .i32⟩ : BufTy).Contents (Elt F) → (⟨S32768, .i32⟩ : BufTy).Contents (Elt F)),
    StableHlo.binary main_v1 main_v19 main_v20 (cmpi .slt : (⟨S32768, .i32⟩ : BufTy).Contents (Elt F) → (⟨S32768, .i32⟩ : BufTy).Contents (Elt F) → (⟨S32768, .i1⟩ : BufTy).Contents (Elt F)),
    StableHlo.nullary main_c_4 (constantI S_ 32 65536#32),
    StableHlo.unary main_c_4 main_v21 (broadcastInDim S32768 ![] bcast_S_S32768 : (⟨S_, .i32⟩ : BufTy).Contents (Elt F) → (⟨S32768, .i32⟩ : BufTy).Contents (Elt F)),
    StableHlo.binary main_v1 main_v21 main_v22 (addi : (⟨S32768, .i32⟩ : BufTy).Contents (Elt F) → (⟨S32768, .i32⟩ : BufTy).Contents (Elt F) → (⟨S32768, .i32⟩ : BufTy).Contents (Elt F)),
    StableHlo.ternary main_v20 main_v22 main_v1 main_v23 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v23 main_v24 (broadcastInDim S32768x1 ![0] bcast_S32768_S32768x1_0 : (⟨S32768, .i32⟩ : BufTy).Contents (Elt F) → (⟨S32768x1, .i32⟩ : BufTy).Contents (Elt F)),
    StableHlo.binary main_arg2 main_v24 main_v25 ((fun x i => Host.gather gather_S65536_S32768x1_S32768_n_0_n_n_0_1_1 x i) : (⟨S65536, .i32⟩ : BufTy).Contents (Elt F) → (⟨S32768x1, .i32⟩ : BufTy).Contents (Elt F) → (⟨S32768, .i32⟩ : BufTy).Contents (Elt F)),
    StableHlo.nullary main_c_5 (constantI S_ 32 0#32),
    StableHlo.unary main_c_5 main_v26 (broadcastInDim S32768 ![] bcast_S_S32768 : (⟨S_, .i32⟩ : BufTy).Contents (Elt F) → (⟨S32768, .i32⟩ : BufTy).Contents (Elt F)),
    StableHlo.binary main_v25 main_v26 main_v27 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 65#32),
    StableHlo.unary main_c_6 main_v28 (broadcastInDim S32768 ![] bcast_S_S32768 : (⟨S_, .i32⟩ : BufTy).Contents (Elt F) → (⟨S32768, .i32⟩ : BufTy).Contents (Elt F)),
    StableHlo.binary main_v25 main_v28 main_v29 (addi : (⟨S32768, .i32⟩ : BufTy).Contents (Elt F) → (⟨S32768, .i32⟩ : BufTy).Contents (Elt F) → (⟨S32768, .i32⟩ : BufTy).Contents (Elt F)),
    StableHlo.ternary main_v27 main_v29 main_v25 main_v30 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v30 main_v31 (broadcastInDim S32768x1 ![0] bcast_S32768_S32768x1_0 : (⟨S32768, .i32⟩ : BufTy).Contents (Elt F) → (⟨S32768x1, .i32⟩ : BufTy).Contents (Elt F)),
    StableHlo.binary main_arg3 main_v31 main_v32 ((fun x i => Host.gather gather_S65_S32768x1_S32768_n_0_n_n_0_1_1 x i) : (⟨S65, .i32⟩ : BufTy).Contents (Elt F) → (⟨S32768x1, .i32⟩ : BufTy).Contents (Elt F) → (⟨S32768, .i32⟩ : BufTy).Contents (Elt F)),
    StableHlo.unary main_v32 main_v33 (broadcastInDim S32768x1 ![0] bcast_S32768_S32768x1_0 : (⟨S32768, .i32⟩ : BufTy).Contents (Elt F) → (⟨S32768x1, .i32⟩ : BufTy).Contents (Elt F)) ]
def segB_writes : List (Ref sig .tc) := [main_c_3, main_v19, main_v20, main_c_4, main_v21, main_v22, main_v23, main_v24, main_v25, main_c_5, main_v26, main_v27, main_c_6, main_v28, main_v29, main_v30, main_v31, main_v32, main_v33]
theorem segB_hW : (segB : List (HloOp τ sig (Elt F))).Forall fun op => op.writes ⊆ ((segB_writes).map (Proc.devRef (τ := τ) .tc)).toFinset :=
  ⟨wsub main_c_3 (by decide), wsub main_v19 (by decide), wsub main_v20 (by decide), wsub main_c_4 (by decide), wsub main_v21 (by decide), wsub main_v22 (by decide), wsub main_v23 (by decide), wsub main_v24 (by decide), wsub main_v25 (by decide), wsub main_c_5 (by decide), wsub main_v26 (by decide), wsub main_v27 (by decide), wsub main_c_6 (by decide), wsub main_v28 (by decide), wsub main_v29 (by decide), wsub main_v30 (by decide), wsub main_v31 (by decide), wsub main_v32 (by decide), wsub main_v33 (by decide)⟩
theorem segB_keep (W : Valuation τ sig (Elt F)) (r : Ref sig .tc) (hr : r ∉ segB_writes) :
    after segB W (Proc.devRef .tc r) = W (Proc.devRef .tc r) :=
  after_of_writes_sub segB W segB_hW hr

def segC : List (HloOp τ sig (Elt F)) :=
  [ StableHlo.unary main_v33 main_v34 (broadcastInDim S32768x24 ![0, 1] bcast_S32768x1_S32768x24_0_1 : (⟨S32768x1, .i32⟩ : BufTy).Contents (Elt F) → (⟨S32768x24, .i32⟩ : BufTy).Contents (Elt F)),
    StableHlo.binary main_arg4 main_v34 main_v35 (addi : (⟨S32768x24, .i32⟩ : BufTy).Contents (Elt F) → (⟨S32768x24, .i32⟩ : BufTy).Contents (Elt F) → (⟨S32768x24, .i32⟩ : BufTy).Contents (Elt F)),
    StableHlo.reshape main_v35 main_v36 rfl shapeCasts_S32768x24_S786432 ]
def segC_writes : List (Ref sig .tc) := [main_v34, main_v35, main_v36]
theorem segC_hW : (segC : List (HloOp τ sig (Elt F))).Forall fun op => op.writes ⊆ ((segC_writes).map (Proc.devRef (τ := τ) .tc)).toFinset :=
  ⟨wsub main_v34 (by decide), wsub main_v35 (by decide), wsub main_v36 (by decide)⟩
theorem segC_keep (W : Valuation τ sig (Elt F)) (r : Ref sig .tc) (hr : r ∉ segC_writes) :
    after segC W (Proc.devRef .tc r) = W (Proc.devRef .tc r) :=
  after_of_writes_sub segC W segC_hW hr

def segD : List (HloOp τ sig (Elt F)) :=
  [ StableHlo.nullary main_c_7 (constantI S_ 32 4294967295#32),
    StableHlo.unary main_c_7 main_v37 (broadcastInDim S786432 ![] bcast_S_S786432 : (⟨S_, .i32⟩ : BufTy).Contents (Elt F) → (⟨S786432, .i32⟩ : BufTy).Contents (Elt F)),
    StableHlo.binary main_v36 main_v37 main_v38 (cmpi .ne : (⟨S786432, .i32⟩ : BufTy).Contents (Elt F) → (⟨S786432, .i32⟩ : BufTy).Contents (Elt F) → (⟨S786432, .i1⟩ : BufTy).Contents (Elt F)),
    StableHlo.unary main_v38 main_v39 (uitofp .f32 : (⟨S786432, .i1⟩ : BufTy).Contents (Elt F) → (⟨S786432, .f32⟩ : BufTy).Contents (Elt F)) ]
def segD_writes : List (Ref sig .tc) := [main_c_7, main_v37, main_v38, main_v39]
theorem segD_hW : (segD : List (HloOp τ sig (Elt F))).Forall fun op => op.writes ⊆ ((segD_writes).map (Proc.devRef (τ := τ) .tc)).toFinset :=
  ⟨wsub main_c_7 (by decide), wsub main_v37 (by decide), wsub main_v38 (by decide), wsub main_v39 (by decide)⟩
theorem segD_keep (W : Valuation τ sig (Elt F)) (r : Ref sig .tc) (hr : r ∉ segD_writes) :
    after segD W (Proc.devRef .tc r) = W (Proc.devRef .tc r) :=
  after_of_writes_sub segD W segD_hW hr

def segE : List (HloOp τ sig (Elt F)) :=
  [ StableHlo.nullary main_c_8 (constantI S_ 32 0#32),
    StableHlo.unary main_c_8 main_v40 (broadcastInDim S786432 ![] bcast_S_S786432 : (⟨S_, .i32⟩ : BufTy).Contents (Elt F) → (⟨S786432, .i32⟩ : BufTy).Contents (Elt F)),
    StableHlo.binary main_v36 main_v40 main_v41 (cmpi .slt : (⟨S786432, .i32⟩ : BufTy).Contents (Elt F) → (⟨S786432, .i32⟩ : BufTy).Contents (Elt F) → (⟨S786432, .i1⟩ : BufTy).Contents (Elt F)),
    StableHlo.nullary main_c_9 (constantI S_ 32 65536#32),
    StableHlo.unary main_c_9 main_v42 (broadcastInDim S786432 ![] bcast_S_S786432 : (⟨S_, .i32⟩ : BufTy).Contents (Elt F) → (⟨S786432, .i32⟩ : BufTy).Contents (Elt F)),
    StableHlo.binary main_v36 main_v42 main_v43 (addi : (⟨S786432, .i32⟩ : BufTy).Contents (Elt F) → (⟨S786432, .i32⟩ : BufTy).Contents (Elt F) → (⟨S786432, .i32⟩ : BufTy).Contents (Elt F)),
    StableHlo.ternary main_v41 main_v43 main_v36 main_v44 (select : (⟨S786432, .i1⟩ : BufTy).Contents (Elt F) → (⟨S786432, .i32⟩ : BufTy).Contents (Elt F) → (⟨S786432, .i32⟩ : BufTy).Contents (Elt F) → (⟨S786432, .i32⟩ : BufTy).Contents (Elt F)),
    StableHlo.unary main_v44 main_v45 (broadcastInDim S786432x1 ![0] bcast_S786432_S786432x1_0 : (⟨S786432, .i32⟩ : BufTy).Contents (Elt F) → (⟨S786432x1, .i32⟩ : BufTy).Contents (Elt F)),
    StableHlo.binary main_arg0 main_v45 main_v46 ((fun x i => Host.gather gather_S65536x256_S786432x1_S786432x256_1_0_n_n_0_1_1256 x i) : (⟨S65536x256, .f32⟩ : BufTy).Contents (Elt F) → (⟨S786432x1, .i32⟩ : BufTy).Contents (Elt F) → (⟨S786432x256, .f32⟩ : BufTy).Contents (Elt F)),
    StableHlo.unary main_v39 main_v47 (broadcastInDim S786432x1 ![0] bcast_S786432_S786432x1_0 : (⟨S786432, .f32⟩ : BufTy).Contents (Elt F) → (⟨S786432x1, .f32⟩ : BufTy).Contents (Elt F)),
    StableHlo.unary main_v47 main_v48 (broadcastInDim S786432x256 ![0, 1] bcast_S786432x1_S786432x256_0_1 : (⟨S786432x1, .f32⟩ : BufTy).Contents (Elt F) → (⟨S786432x256, .f32⟩ : BufTy).Contents (Elt F)),
    StableHlo.binary main_v46 main_v48 main_v49 (mulf : (⟨S786432x256, .f32⟩ : BufTy).Contents (Elt F) → (⟨S786432x256, .f32⟩ : BufTy).Contents (Elt F) → (⟨S786432x256, .f32⟩ : BufTy).Contents (Elt F)) ]
def segE_writes : List (Ref sig .tc) := [main_c_8, main_v40, main_v41, main_c_9, main_v42, main_v43, main_v44, main_v45, main_v46, main_v47, main_v48, main_v49]
theorem segE_hW : (segE : List (HloOp τ sig (Elt F))).Forall fun op => op.writes ⊆ ((segE_writes).map (Proc.devRef (τ := τ) .tc)).toFinset :=
  ⟨wsub main_c_8 (by decide), wsub main_v40 (by decide), wsub main_v41 (by decide), wsub main_c_9 (by decide), wsub main_v42 (by decide), wsub main_v43 (by decide), wsub main_v44 (by decide), wsub main_v45 (by decide), wsub main_v46 (by decide), wsub main_v47 (by decide), wsub main_v48 (by decide), wsub main_v49 (by decide)⟩
theorem segE_keep (W : Valuation τ sig (Elt F)) (r : Ref sig .tc) (hr : r ∉ segE_writes) :
    after segE W (Proc.devRef .tc r) = W (Proc.devRef .tc r) :=
  after_of_writes_sub segE W segE_hW hr

def segF : List (HloOp τ sig (Elt F)) :=
  [ StableHlo.reshape main_v49 main_v50 rfl shapeCasts_S786432x256_S32768x24x256,
    StableHlo.reshape main_v39 main_v51 rfl shapeCasts_S786432_S32768x24,
    StableHlo.nullary main_cst (constant S_ .f32 0x00000000#32),
    StableHlo.binary main_v50 main_cst main_v52 ((fun x v => Host.reduceAdd x v reducesTo_S32768x24x256_S32768x256_d1 h_S_) : (⟨S32768x24x256, .f32⟩ : BufTy).Contents (Elt F) → (⟨S_, .f32⟩ : BufTy).Contents (Elt F) → (⟨S32768x256, .f32⟩ : BufTy).Contents (Elt F)),
    StableHlo.nullary main_cst_10 (constant S_ .f32 0x00000000#32),
    StableHlo.binary main_v51 main_cst_10 main_v53 ((fun x v => Host.reduceAdd x v reducesTo_S32768x24_S32768_d1 h_S_) : (⟨S32768x24, .f32⟩ : BufTy).Contents (Elt F) → (⟨S_, .f32⟩ : BufTy).Contents (Elt F) → (⟨S32768, .f32⟩ : BufTy).Contents (Elt F)),
    StableHlo.unary main_v53 main_v54 (broadcastInDim S32768x1 ![0] bcast_S32768_S32768x1_0 : (⟨S32768, .f32⟩ : BufTy).Contents (Elt F) → (⟨S32768x1, .f32⟩ : BufTy).Contents (Elt F)),
    StableHlo.nullary main_cst_11 (constant S_ .f32 0x00000000#32),
    StableHlo.unary main_cst_11 main_v55 (broadcastInDim S32768x1 ![] bcast_S_S32768x1 : (⟨S_, .f32⟩ : BufTy).Contents (Elt F) → (⟨S32768x1, .f32⟩ : BufTy).Contents (Elt F)),
    StableHlo.binary main_v54 main_v55 main_v56 (cmpf .ogt : (⟨S32768x1, .f32⟩ : BufTy).Contents (Elt F) → (⟨S32768x1, .f32⟩ : BufTy).Contents (Elt F) → (⟨S32768x1, .i1⟩ : BufTy).Contents (Elt F)),
    StableHlo.nullary main_cst_12 (constant S_ .f32 0x3F800000#32),
    StableHlo.unary main_cst_12 main_v57 (broadcastInDim S32768 ![] bcast_S_S32768 : (⟨S_, .f32⟩ : BufTy).Contents (Elt F) → (⟨S32768, .f32⟩ : BufTy).Contents (Elt F)),
    StableHlo.binary main_v53 main_v57 main_v58 (maximumf : (⟨S32768, .f32⟩ : BufTy).Contents (Elt F) → (⟨S32768, .f32⟩ : BufTy).Contents (Elt F) → (⟨S32768, .f32⟩ : BufTy).Contents (Elt F)),
    StableHlo.unary main_v58 main_v59 (broadcastInDim S32768x1 ![0] bcast_S32768_S32768x1_0 : (⟨S32768, .f32⟩ : BufTy).Contents (Elt F) → (⟨S32768x1, .f32⟩ : BufTy).Contents (Elt F)),
    StableHlo.unary main_v59 main_v60 (broadcastInDim S32768x256 ![0, 1] bcast_S32768x1_S32768x256_0_1 : (⟨S32768x1, .f32⟩ : BufTy).Contents (Elt F) → (⟨S32768x256, .f32⟩ : BufTy).Contents (Elt F)),
    StableHlo.binary main_v52 main_v60 main_v61 (Host.divf : (⟨S32768x256, .f32⟩ : BufTy).Contents (Elt F) → (⟨S32768x256, .f32⟩ : BufTy).Contents (Elt F) → (⟨S32768x256, .f32⟩ : BufTy).Contents (Elt F)),
    StableHlo.nullary main_cst_13 (constant S_ .f32 0x00000000#32),
    StableHlo.TRef.unary (.of main_cst_13 : StableHlo.TRef sig ⟨S_, .f32⟩) (.of main_call0_v0 : StableHlo.TRef sig ⟨S_, .f32⟩) id,
    StableHlo.TRef.unary (.of main_v56 : StableHlo.TRef sig ⟨S32768x1, .i1⟩) (.of main_call0_v1 : StableHlo.TRef sig ⟨S32768x256, .i1⟩) (broadcastInDim S32768x256 ![0, 1] bcast_S32768x1_S32768x256_0_1),
    StableHlo.TRef.unary (.of main_call0_v0 : StableHlo.TRef sig ⟨S_, .f32⟩) (.of main_call0_v2 : StableHlo.TRef sig ⟨S32768x256, .f32⟩) (broadcastInDim S32768x256 ![] bcast_S_S32768x256),
    StableHlo.TRef.ternary (.of main_call0_v1 : StableHlo.TRef sig ⟨S32768x256, .i1⟩) (.of main_v61 : StableHlo.TRef sig ⟨S32768x256, .f32⟩) (.of main_call0_v2 : StableHlo.TRef sig ⟨S32768x256, .f32⟩) (.of main_v62 : StableHlo.TRef sig ⟨S32768x256, .f32⟩) select ]
def segF_writes : List (Ref sig .tc) := [main_v50, main_v51, main_cst, main_v52, main_cst_10, main_v53, main_v54, main_cst_11, main_v55, main_v56, main_cst_12, main_v57, main_v58, main_v59, main_v60, main_v61, main_cst_13, main_call0_v0, main_call0_v1, main_call0_v2, main_v62]
theorem segF_hW : (segF : List (HloOp τ sig (Elt F))).Forall fun op => op.writes ⊆ ((segF_writes).map (Proc.devRef (τ := τ) .tc)).toFinset :=
  ⟨wsub main_v50 (by decide), wsub main_v51 (by decide), wsub main_cst (by decide), wsub main_v52 (by decide), wsub main_cst_10 (by decide), wsub main_v53 (by decide), wsub main_v54 (by decide), wsub main_cst_11 (by decide), wsub main_v55 (by decide), wsub main_v56 (by decide), wsub main_cst_12 (by decide), wsub main_v57 (by decide), wsub main_v58 (by decide), wsub main_v59 (by decide), wsub main_v60 (by decide), wsub main_v61 (by decide), wsub main_cst_13 (by decide), wsub main_call0_v0 (by decide), wsub main_call0_v1 (by decide), wsub main_call0_v2 (by decide), wsub main_v62 (by decide)⟩
theorem segF_keep (W : Valuation τ sig (Elt F)) (r : Ref sig .tc) (hr : r ∉ segF_writes) :
    after segF W (Proc.devRef .tc r) = W (Proc.devRef .tc r) :=
  after_of_writes_sub segF W segF_hW hr

def segC2 : List (HloOp τ sig (Elt F)) :=
  [ StableHlo.unary main_v33 main_v63 (broadcastInDim S32768x24 ![0, 1] bcast_S32768x1_S32768x24_0_1 : (⟨S32768x1, .i32⟩ : BufTy).Contents (Elt F) → (⟨S32768x24, .i32⟩ : BufTy).Contents (Elt F)),
    StableHlo.binary main_arg5 main_v63 main_v64 (addi : (⟨S32768x24, .i32⟩ : BufTy).Contents (Elt F) → (⟨S32768x24, .i32⟩ : BufTy).Contents (Elt F) → (⟨S32768x24, .i32⟩ : BufTy).Contents (Elt F)),
    StableHlo.reshape main_v64 main_v65 rfl shapeCasts_S32768x24_S786432 ]
def segC2_writes : List (Ref sig .tc) := [main_v63, main_v64, main_v65]
theorem segC2_hW : (segC2 : List (HloOp τ sig (Elt F))).Forall fun op => op.writes ⊆ ((segC2_writes).map (Proc.devRef (τ := τ) .tc)).toFinset :=
  ⟨wsub main_v63 (by decide), wsub main_v64 (by decide), wsub main_v65 (by decide)⟩
theorem segC2_keep (W : Valuation τ sig (Elt F)) (r : Ref sig .tc) (hr : r ∉ segC2_writes) :
    after segC2 W (Proc.devRef .tc r) = W (Proc.devRef .tc r) :=
  after_of_writes_sub segC2 W segC2_hW hr

def segD2 : List (HloOp τ sig (Elt F)) :=
  [ StableHlo.nullary main_c_14 (constantI S_ 32 4294967295#32),
    StableHlo.unary main_c_14 main_v66 (broadcastInDim S786432 ![] bcast_S_S786432 : (⟨S_, .i32⟩ : BufTy).Contents (Elt F) → (⟨S786432, .i32⟩ : BufTy).Contents (Elt F)),
    StableHlo.binary main_v65 main_v66 main_v67 (cmpi .ne : (⟨S786432, .i32⟩ : BufTy).Contents (Elt F) → (⟨S786432, .i32⟩ : BufTy).Contents (Elt F) → (⟨S786432, .i1⟩ : BufTy).Contents (Elt F)),
    StableHlo.unary main_v67 main_v68 (uitofp .f32 : (⟨S786432, .i1⟩ : BufTy).Contents (Elt F) → (⟨S786432, .f32⟩ : BufTy).Contents (Elt F)) ]
def segD2_writes : List (Ref sig .tc) := [main_c_14, main_v66, main_v67, main_v68]
theorem segD2_hW : (segD2 : List (HloOp τ sig (Elt F))).Forall fun op => op.writes ⊆ ((segD2_writes).map (Proc.devRef (τ := τ) .tc)).toFinset :=
  ⟨wsub main_c_14 (by decide), wsub main_v66 (by decide), wsub main_v67 (by decide), wsub main_v68 (by decide)⟩
theorem segD2_keep (W : Valuation τ sig (Elt F)) (r : Ref sig .tc) (hr : r ∉ segD2_writes) :
    after segD2 W (Proc.devRef .tc r) = W (Proc.devRef .tc r) :=
  after_of_writes_sub segD2 W segD2_hW hr

def segE2 : List (HloOp τ sig (Elt F)) :=
  [ StableHlo.nullary main_c_15 (constantI S_ 32 0#32),
    StableHlo.unary main_c_15 main_v69 (broadcastInDim S786432 ![] bcast_S_S786432 : (⟨S_, .i32⟩ : BufTy).Contents (Elt F) → (⟨S786432, .i32⟩ : BufTy).Contents (Elt F)),
    StableHlo.binary main_v65 main_v69 main_v70 (cmpi .slt : (⟨S786432, .i32⟩ : BufTy).Contents (Elt F) → (⟨S786432, .i32⟩ : BufTy).Contents (Elt F) → (⟨S786432, .i1⟩ : BufTy).Contents (Elt F)),
    StableHlo.nullary main_c_16 (constantI S_ 32 65536#32),
    StableHlo.unary main_c_16 main_v71 (broadcastInDim S786432 ![] bcast_S_S786432 : (⟨S_, .i32⟩ : BufTy).Contents (Elt F) → (⟨S786432, .i32⟩ : BufTy).Contents (Elt F)),
    StableHlo.binary main_v65 main_v71 main_v72 (addi : (⟨S786432, .i32⟩ : BufTy).Contents (Elt F) → (⟨S786432, .i32⟩ : BufTy).Contents (Elt F) → (⟨S786432, .i32⟩ : BufTy).Contents (Elt F)),
    StableHlo.ternary main_v70 main_v72 main_v65 main_v73 (select : (⟨S786432, .i1⟩ : BufTy).Contents (Elt F) → (⟨S786432, .i32⟩ : BufTy).Contents (Elt F) → (⟨S786432, .i32⟩ : BufTy).Contents (Elt F) → (⟨S786432, .i32⟩ : BufTy).Contents (Elt F)),
    StableHlo.unary main_v73 main_v74 (broadcastInDim S786432x1 ![0] bcast_S786432_S786432x1_0 : (⟨S786432, .i32⟩ : BufTy).Contents (Elt F) → (⟨S786432x1, .i32⟩ : BufTy).Contents (Elt F)),
    StableHlo.binary main_arg0 main_v74 main_v75 ((fun x i => Host.gather gather_S65536x256_S786432x1_S786432x256_1_0_n_n_0_1_1256 x i) : (⟨S65536x256, .f32⟩ : BufTy).Contents (Elt F) → (⟨S786432x1, .i32⟩ : BufTy).Contents (Elt F) → (⟨S786432x256, .f32⟩ : BufTy).Contents (Elt F)),
    StableHlo.unary main_v68 main_v76 (broadcastInDim S786432x1 ![0] bcast_S786432_S786432x1_0 : (⟨S786432, .f32⟩ : BufTy).Contents (Elt F) → (⟨S786432x1, .f32⟩ : BufTy).Contents (Elt F)),
    StableHlo.unary main_v76 main_v77 (broadcastInDim S786432x256 ![0, 1] bcast_S786432x1_S786432x256_0_1 : (⟨S786432x1, .f32⟩ : BufTy).Contents (Elt F) → (⟨S786432x256, .f32⟩ : BufTy).Contents (Elt F)),
    StableHlo.binary main_v75 main_v77 main_v78 (mulf : (⟨S786432x256, .f32⟩ : BufTy).Contents (Elt F) → (⟨S786432x256, .f32⟩ : BufTy).Contents (Elt F) → (⟨S786432x256, .f32⟩ : BufTy).Contents (Elt F)) ]
def segE2_writes : List (Ref sig .tc) := [main_c_15, main_v69, main_v70, main_c_16, main_v71, main_v72, main_v73, main_v74, main_v75, main_v76, main_v77, main_v78]
theorem segE2_hW : (segE2 : List (HloOp τ sig (Elt F))).Forall fun op => op.writes ⊆ ((segE2_writes).map (Proc.devRef (τ := τ) .tc)).toFinset :=
  ⟨wsub main_c_15 (by decide), wsub main_v69 (by decide), wsub main_v70 (by decide), wsub main_c_16 (by decide), wsub main_v71 (by decide), wsub main_v72 (by decide), wsub main_v73 (by decide), wsub main_v74 (by decide), wsub main_v75 (by decide), wsub main_v76 (by decide), wsub main_v77 (by decide), wsub main_v78 (by decide)⟩
theorem segE2_keep (W : Valuation τ sig (Elt F)) (r : Ref sig .tc) (hr : r ∉ segE2_writes) :
    after segE2 W (Proc.devRef .tc r) = W (Proc.devRef .tc r) :=
  after_of_writes_sub segE2 W segE2_hW hr

def segF2 : List (HloOp τ sig (Elt F)) :=
  [ StableHlo.reshape main_v78 main_v79 rfl shapeCasts_S786432x256_S32768x24x256,
    StableHlo.reshape main_v68 main_v80 rfl shapeCasts_S786432_S32768x24,
    StableHlo.nullary main_cst_17 (constant S_ .f32 0x00000000#32),
    StableHlo.binary main_v79 main_cst_17 main_v81 ((fun x v => Host.reduceAdd x v reducesTo_S32768x24x256_S32768x256_d1 h_S_) : (⟨S32768x24x256, .f32⟩ : BufTy).Contents (Elt F) → (⟨S_, .f32⟩ : BufTy).Contents (Elt F) → (⟨S32768x256, .f32⟩ : BufTy).Contents (Elt F)),
    StableHlo.nullary main_cst_18 (constant S_ .f32 0x00000000#32),
    StableHlo.binary main_v80 main_cst_18 main_v82 ((fun x v => Host.reduceAdd x v reducesTo_S32768x24_S32768_d1 h_S_) : (⟨S32768x24, .f32⟩ : BufTy).Contents (Elt F) → (⟨S_, .f32⟩ : BufTy).Contents (Elt F) → (⟨S32768, .f32⟩ : BufTy).Contents (Elt F)),
    StableHlo.unary main_v82 main_v83 (broadcastInDim S32768x1 ![0] bcast_S32768_S32768x1_0 : (⟨S32768, .f32⟩ : BufTy).Contents (Elt F) → (⟨S32768x1, .f32⟩ : BufTy).Contents (Elt F)),
    StableHlo.nullary main_cst_19 (constant S_ .f32 0x00000000#32),
    StableHlo.unary main_cst_19 main_v84 (broadcastInDim S32768x1 ![] bcast_S_S32768x1 : (⟨S_, .f32⟩ : BufTy).Contents (Elt F) → (⟨S32768x1, .f32⟩ : BufTy).Contents (Elt F)),
    StableHlo.binary main_v83 main_v84 main_v85 (cmpf .ogt : (⟨S32768x1, .f32⟩ : BufTy).Contents (Elt F) → (⟨S32768x1, .f32⟩ : BufTy).Contents (Elt F) → (⟨S32768x1, .i1⟩ : BufTy).Contents (Elt F)),
    StableHlo.nullary main_cst_20 (constant S_ .f32 0x3F800000#32),
    StableHlo.unary main_cst_20 main_v86 (broadcastInDim S32768 ![] bcast_S_S32768 : (⟨S_, .f32⟩ : BufTy).Contents (Elt F) → (⟨S32768, .f32⟩ : BufTy).Contents (Elt F)),
    StableHlo.binary main_v82 main_v86 main_v87 (maximumf : (⟨S32768, .f32⟩ : BufTy).Contents (Elt F) → (⟨S32768, .f32⟩ : BufTy).Contents (Elt F) → (⟨S32768, .f32⟩ : BufTy).Contents (Elt F)),
    StableHlo.unary main_v87 main_v88 (broadcastInDim S32768x1 ![0] bcast_S32768_S32768x1_0 : (⟨S32768, .f32⟩ : BufTy).Contents (Elt F) → (⟨S32768x1, .f32⟩ : BufTy).Contents (Elt F)),
    StableHlo.unary main_v88 main_v89 (broadcastInDim S32768x256 ![0, 1] bcast_S32768x1_S32768x256_0_1 : (⟨S32768x1, .f32⟩ : BufTy).Contents (Elt F) → (⟨S32768x256, .f32⟩ : BufTy).Contents (Elt F)),
    StableHlo.binary main_v81 main_v89 main_v90 (Host.divf : (⟨S32768x256, .f32⟩ : BufTy).Contents (Elt F) → (⟨S32768x256, .f32⟩ : BufTy).Contents (Elt F) → (⟨S32768x256, .f32⟩ : BufTy).Contents (Elt F)),
    StableHlo.nullary main_cst_21 (constant S_ .f32 0x00000000#32),
    StableHlo.TRef.unary (.of main_cst_21 : StableHlo.TRef sig ⟨S_, .f32⟩) (.of main_call1_v0 : StableHlo.TRef sig ⟨S_, .f32⟩) id,
    StableHlo.TRef.unary (.of main_v85 : StableHlo.TRef sig ⟨S32768x1, .i1⟩) (.of main_call1_v1 : StableHlo.TRef sig ⟨S32768x256, .i1⟩) (broadcastInDim S32768x256 ![0, 1] bcast_S32768x1_S32768x256_0_1),
    StableHlo.TRef.unary (.of main_call1_v0 : StableHlo.TRef sig ⟨S_, .f32⟩) (.of main_call1_v2 : StableHlo.TRef sig ⟨S32768x256, .f32⟩) (broadcastInDim S32768x256 ![] bcast_S_S32768x256),
    StableHlo.TRef.ternary (.of main_call1_v1 : StableHlo.TRef sig ⟨S32768x256, .i1⟩) (.of main_v90 : StableHlo.TRef sig ⟨S32768x256, .f32⟩) (.of main_call1_v2 : StableHlo.TRef sig ⟨S32768x256, .f32⟩) (.of main_v91 : StableHlo.TRef sig ⟨S32768x256, .f32⟩) select ]
def segF2_writes : List (Ref sig .tc) := [main_v79, main_v80, main_cst_17, main_v81, main_cst_18, main_v82, main_v83, main_cst_19, main_v84, main_v85, main_cst_20, main_v86, main_v87, main_v88, main_v89, main_v90, main_cst_21, main_call1_v0, main_call1_v1, main_call1_v2, main_v91]
theorem segF2_hW : (segF2 : List (HloOp τ sig (Elt F))).Forall fun op => op.writes ⊆ ((segF2_writes).map (Proc.devRef (τ := τ) .tc)).toFinset :=
  ⟨wsub main_v79 (by decide), wsub main_v80 (by decide), wsub main_cst_17 (by decide), wsub main_v81 (by decide), wsub main_cst_18 (by decide), wsub main_v82 (by decide), wsub main_v83 (by decide), wsub main_cst_19 (by decide), wsub main_v84 (by decide), wsub main_v85 (by decide), wsub main_cst_20 (by decide), wsub main_v86 (by decide), wsub main_v87 (by decide), wsub main_v88 (by decide), wsub main_v89 (by decide), wsub main_v90 (by decide), wsub main_cst_21 (by decide), wsub main_call1_v0 (by decide), wsub main_call1_v1 (by decide), wsub main_call1_v2 (by decide), wsub main_v91 (by decide)⟩
theorem segF2_keep (W : Valuation τ sig (Elt F)) (r : Ref sig .tc) (hr : r ∉ segF2_writes) :
    after segF2 W (Proc.devRef .tc r) = W (Proc.devRef .tc r) :=
  after_of_writes_sub segF2 W segF2_hW hr

def segG : List (HloOp τ sig (Elt F)) :=
  [ StableHlo.nary ![main_arg6, main_arg7, main_arg8] main_v92 (fun u => concatenate S32768x256 1 [⟨S32768x24, u 0⟩, ⟨S32768x200, u 1⟩, ⟨S32768x32, u 2⟩] concatenates_S32768x24_S32768x200_S32768x32_S32768x256_d1) ]
def segG_writes : List (Ref sig .tc) := [main_v92]
theorem segG_hW : (segG : List (HloOp τ sig (Elt F))).Forall fun op => op.writes ⊆ ((segG_writes).map (Proc.devRef (τ := τ) .tc)).toFinset :=
  wsub main_v92 (by decide)
theorem segG_keep (W : Valuation τ sig (Elt F)) (r : Ref sig .tc) (hr : r ∉ segG_writes) :
    after segG W (Proc.devRef .tc r) = W (Proc.devRef .tc r) :=
  after_of_writes_sub segG W segG_hW hr

/-- The five stretches before the region are the eleven segments in order. -/
theorem stretches_eq : (List.flatten [hostOps0, hostOps0_1, hostOps0_2, hostOps0_3, hostOps0_4] : List (HloOp τ sig (Elt F)))
    = segA ++ (segB ++ (segC ++ (segD ++ (segE ++ (segF ++ (segC2 ++ (segD2 ++ (segE2 ++ (segF2 ++ segG))))))))) := rfl

/-! ## Each segment's result, from any contents `W` before it -/

/-- A concatenate of three literal operands: the result with each operand's contents at its own reference. -/
theorem nary3_result {x a b y : Ref sig .tc}
    (f : ((k : Fin 3) → ((![x, a, b] : Fin 3 → Ref sig .tc) k).ty.Contents (Elt F)) → y.ty.Contents (Elt F)) (hxs hy)
    (W : Valuation τ sig (Elt F)) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

set_option maxHeartbeats 4000000 in
theorem A_v18 (W : Valuation τ sig (Elt F)) :
    after segA W (Proc.devRef .tc main_v18) = pairs (W (Proc.devRef .tc main_arg0)) (W (Proc.devRef .tc main_arg1)) := by
  unfold segA; after_results; rfl

theorem A_v1 (W : Valuation τ sig (Elt F)) :
    after segA W (Proc.devRef .tc main_v1)
      = shapeCast S32768 (extractStridedSlice S1x32768 ![0, 0] (W (Proc.devRef .tc main_arg1)) slices_S2x32768_S1x32768_0_0) shapeCasts_S1x32768_S32768 := by
  unfold segA; after_results; rfl

set_option maxHeartbeats 4000000 in
theorem B_v33 (W : Valuation τ sig (Elt F)) (ei : IVec S2x32768 32)
    (hv1 : W (Proc.devRef .tc main_v1) = shapeCast S32768 (extractStridedSlice S1x32768 ![0, 0] ei slices_S2x32768_S1x32768_0_0) shapeCasts_S1x32768_S32768) :
    after segB W (Proc.devRef .tc main_v33) = offs ei (W (Proc.devRef .tc main_arg2)) (W (Proc.devRef .tc main_arg3)) := by
  unfold segB; after_results; rw [hv1]; rfl

theorem C_v36 (W : Valuation τ sig (Elt F)) :
    after segC W (Proc.devRef .tc main_v36) = flatIdx (W (Proc.devRef .tc main_arg4)) (W (Proc.devRef .tc main_v33)) := by
  unfold segC; after_results; rfl

theorem D_v39 (W : Valuation τ sig (Elt F)) :
    after segD W (Proc.devRef .tc main_v39) = rowMask (W (Proc.devRef .tc main_v36)) := by
  unfold segD; after_results; rfl

set_option maxHeartbeats 4000000 in
theorem E_v49 (W : Valuation τ sig (Elt F)) :
    after segE W (Proc.devRef .tc main_v49) = gathered (W (Proc.devRef .tc main_arg0)) (W (Proc.devRef .tc main_v36)) (W (Proc.devRef .tc main_v39)) := by
  unfold segE; after_results; rfl

set_option maxHeartbeats 4000000 in
theorem F_v62 (W : Valuation τ sig (Elt F)) :
    after segF W (Proc.devRef .tc main_v62) = pooled (W (Proc.devRef .tc main_v49)) (W (Proc.devRef .tc main_v39)) := by
  unfold segF; after_results; rfl

theorem C2_v65 (W : Valuation τ sig (Elt F)) :
    after segC2 W (Proc.devRef .tc main_v65) = flatIdx (W (Proc.devRef .tc main_arg5)) (W (Proc.devRef .tc main_v33)) := by
  unfold segC2; after_results; rfl

theorem D2_v68 (W : Valuation τ sig (Elt F)) :
    after segD2 W (Proc.devRef .tc main_v68) = rowMask (W (Proc.devRef .tc main_v65)) := by
  unfold segD2; after_results; rfl

set_option maxHeartbeats 4000000 in
theorem E2_v78 (W : Valuation τ sig (Elt F)) :
    after segE2 W (Proc.devRef .tc main_v78) = gathered (W (Proc.devRef .tc main_arg0)) (W (Proc.devRef .tc main_v65)) (W (Proc.devRef .tc main_v68)) := by
  unfold segE2; after_results; rfl

set_option maxHeartbeats 4000000 in
theorem F2_v91 (W : Valuation τ sig (Elt F)) :
    after segF2 W (Proc.devRef .tc main_v91) = pooled (W (Proc.devRef .tc main_v78)) (W (Proc.devRef .tc main_v68)) := by
  unfold segF2; after_results; rfl

theorem G_v92 (W : Valuation τ sig (Elt F)) :
    after segG W (Proc.devRef .tc main_v92) = others (W (Proc.devRef .tc main_arg6)) (W (Proc.devRef .tc main_arg7)) (W (Proc.devRef .tc main_arg8)) := by
  unfold segG
  simp only [after_cons, after_nil]
  rw [nary3_result]; rfl

/-! ## The window arrays at the region's entry -/

variable (m : (ℓ : Loc nD τ sig) → Buf (Elt F) ℓ)

/-- The region-entry contents, read segment by segment from the launch contents. -/
theorem V_split (c : Dev nD) (r : Ref sig .tc) :
    V m c r = after segG (after segF2 (after segE2 (after segD2 (after segC2 (after segF (after segE (after segD (after segC (after segB
      (after segA (fun b => m (c, b)))))))))))) (Proc.devRef .tc r) := by
  show after (List.flatten [hostOps0, hostOps0_1, hostOps0_2, hostOps0_3, hostOps0_4]) (fun b => m (c, b)) (Proc.devRef .tc r) = _
  rw [stretches_eq]
  simp only [Cert.LibAfter.after_append]

/-- Window 0's array: the gathered pairs of table rows. -/
theorem V_v18 (c : Dev nD) : V m c main_v18 = pairs (m ((c : Thread nD τ).loc main_arg0)) (m ((c : Thread nD τ).loc main_arg1)) := by
  rw [V_split]
  rw [segG_keep _ main_v18 (by decide),
    segF2_keep _ main_v18 (by decide),
    segE2_keep _ main_v18 (by decide),
    segD2_keep _ main_v18 (by decide),
    segC2_keep _ main_v18 (by decide),
    segF_keep _ main_v18 (by decide),
    segE_keep _ main_v18 (by decide),
    segD_keep _ main_v18 (by decide),
    segC_keep _ main_v18 (by decide),
    segB_keep _ main_v18 (by decide)]
  rw [A_v18]

/-- Window 1's array: the pooled neighbour rows through the first index array. -/
theorem V_v62 (c : Dev nD) : V m c main_v62 = pooled (gathered (m ((c : Thread nD τ).loc main_arg0)) (flatIdx (m ((c : Thread nD τ).loc main_arg4)) (offs (m ((c : Thread nD τ).loc main_arg1)) (m ((c : Thread nD τ).loc main_arg2)) (m ((c : Thread nD τ).loc main_arg3)))) (rowMask (flatIdx (m ((c : Thread nD τ).loc main_arg4)) (offs (m ((c : Thread nD τ).loc main_arg1)) (m ((c : Thread nD τ).loc main_arg2)) (m ((c : Thread nD τ).loc main_arg3)))))) (rowMask (flatIdx (m ((c : Thread nD τ).loc main_arg4)) (offs (m ((c : Thread nD τ).loc main_arg1)) (m ((c : Thread nD τ).loc main_arg2)) (m ((c : Thread nD τ).loc main_arg3))))) := by
  rw [V_split]
  rw [segG_keep _ main_v62 (by decide),
    segF2_keep _ main_v62 (by decide),
    segE2_keep _ main_v62 (by decide),
    segD2_keep _ main_v62 (by decide),
    segC2_keep _ main_v62 (by decide)]
  rw [F_v62]
  rw [E_v49,
    segE_keep _ main_v39 (by decide)]
  rw [D_v39,
    segD_keep _ main_arg0 (by decide),
    segD_keep _ main_v36 (by decide)]
  rw [C_v36,
    segC_keep _ main_arg0 (by decide)]
  rw [B_v33 _ _ (A_v1 _)]
  rw [segB_keep _ main_arg0 (by decide),
    segA_keep _ main_arg0 (by decide),
    segB_keep _ main_arg4 (by decide),
    segA_keep _ main_arg4 (by decide),
    segA_keep _ main_arg2 (by decide),
    segA_keep _ main_arg3 (by decide)]

/-- Window 2's array: the pooled neighbour rows through the second index array. -/
theorem V_v91 (c : Dev nD) : V m c main_v91 = pooled (gathered (m ((c : Thread nD τ).loc main_arg0)) (flatIdx (m ((c : Thread nD τ).loc main_arg5)) (offs (m ((c : Thread nD τ).loc main_arg1)) (m ((c : Thread nD τ).loc main_arg2)) (m ((c : Thread nD τ).loc main_arg3)))) (rowMask (flatIdx (m ((c : Thread nD τ).loc main_arg5)) (offs (m ((c : Thread nD τ).loc main_arg1)) (m ((c : Thread nD τ).loc main_arg2)) (m ((c : Thread nD τ).loc main_arg3)))))) (rowMask (flatIdx (m ((c : Thread nD τ).loc main_arg5)) (offs (m ((c : Thread nD τ).loc main_arg1)) (m ((c : Thread nD τ).loc main_arg2)) (m ((c : Thread nD τ).loc main_arg3))))) := by
  rw [V_split]
  rw [segG_keep _ main_v91 (by decide)]
  rw [F2_v91]
  rw [E2_v78,
    segE2_keep _ main_v68 (by decide)]
  rw [D2_v68,
    segD2_keep _ main_arg0 (by decide),
    segD2_keep _ main_v65 (by decide)]
  rw [C2_v65,
    segC2_keep _ main_arg0 (by decide)]
  rw [segF_keep _ main_v33 (by decide),
    segE_keep _ main_v33 (by decide),
    segD_keep _ main_v33 (by decide),
    segC_keep _ main_v33 (by decide)]
  rw [B_v33 _ _ (A_v1 _)]
  rw [segF_keep _ main_arg0 (by decide),
    segE_keep _ main_arg0 (by decide),
    segD_keep _ main_arg0 (by decide),
    segC_keep _ main_arg0 (by decide),
    segB_keep _ main_arg0 (by decide),
    segA_keep _ main_arg0 (by decide),
    segF_keep _ main_arg5 (by decide),
    segE_keep _ main_arg5 (by decide),
    segD_keep _ main_arg5 (by decide),
    segC_keep _ main_arg5 (by decide),
    segB_keep _ main_arg5 (by decide),
    segA_keep _ main_arg5 (by decide),
    segA_keep _ main_arg2 (by decide),
    segA_keep _ main_arg3 (by decide)]

/-- Window 3's array: the three remaining feature arrays side by side. -/
theorem V_v92 (c : Dev nD) : V m c main_v92 = others (m ((c : Thread nD τ).loc main_arg6)) (m ((c : Thread nD τ).loc main_arg7)) (m ((c : Thread nD τ).loc main_arg8)) := by
  rw [V_split, G_v92]
  rw [segF2_keep _ main_arg6 (by decide),
    segE2_keep _ main_arg6 (by decide),
    segD2_keep _ main_arg6 (by decide),
    segC2_keep _ main_arg6 (by decide),
    segF_keep _ main_arg6 (by decide),
    segE_keep _ main_arg6 (by decide),
    segD_keep _ main_arg6 (by decide),
    segC_keep _ main_arg6 (by decide),
    segB_keep _ main_arg6 (by decide),
    segA_keep _ main_arg6 (by decide),
    segF2_keep _ main_arg7 (by decide),
    segE2_keep _ main_arg7 (by decide),
    segD2_keep _ main_arg7 (by decide),
    segC2_keep _ main_arg7 (by decide),
    segF_keep _ main_arg7 (by decide),
    segE_keep _ main_arg7 (by decide),
    segD_keep _ main_arg7 (by decide),
    segC_keep _ main_arg7 (by decide),
    segB_keep _ main_arg7 (by decide),
    segA_keep _ main_arg7 (by decide),
    segF2_keep _ main_arg8 (by decide),
    segE2_keep _ main_arg8 (by decide),
    segD2_keep _ main_arg8 (by decide),
    segC2_keep _ main_arg8 (by decide),
    segF_keep _ main_arg8 (by decide),
    segE_keep _ main_arg8 (by decide),
    segD_keep _ main_arg8 (by decide),
    segC_keep _ main_arg8 (by decide),
    segB_keep _ main_arg8 (by decide),
    segA_keep _ main_arg8 (by decide)]

end Cert.KernelIdeal.Hand

end
-- ==== Proof.LibGroupRows.lean ====
/-
  Rows taken in consecutive groups, for any extents.

  An `[m, d]` array regarded as `[n, g, d]` (row `r * g + j` becomes entry `(r, j)`: `n` consecutive groups of `g`
  rows) read at an index given by coordinates, and the sum over the middle axis of an `[n, g, d]` array read at
  `(r, c)` as the sum of the `g` entries `(r, j, c)`. Together: the sum of each group's rows.
-/
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx

/-- An `[m, d]` array cast to `[n, g, d]` reads, at `(r, j, c)`, the operand's row `r * g + j` at column `c`:
    the two indices have the same row-major position `(r * g + j) * d + c`. -/
theorem shapeCast_groups_apply {α : Type} {m n g d : ℕ} (x : (⟨2, ![m, d]⟩ : Shape).Idx → α)
    (h : (⟨2, ![m, d]⟩ : Shape).ShapeCasts ⟨3, ![n, g, d]⟩) (r : Fin n) (j : Fin g) (c : Fin d)
    (hr : r.val * g + j.val < m) :
    shapeCast ⟨3, ![n, g, d]⟩ x h (ix3 r j c) = x (ix2 ⟨r.val * g + j.val, hr⟩ c) :=
  shapeCast_apply x h _ _ (by
    rw [Shape.rowMajor_val_two, Shape.rowMajor_val_three]
    rfl)

/-- A float sum over the middle axis of an `[n, g, d]` array, read at the extended reals at `(r, c)`, is the sum over
    `j` of the entries `(r, j, c)`: the reduced index with `j` inserted at the middle axis is `(r, j, c)`. -/
theorem multiReduction_add_mid_apply {φ : FTy} {n g d : ℕ} (src : FVec Ideal ⟨3, ![n, g, d]⟩ φ) (acc : BitVec φ.bits)
    (h : (⟨3, ![n, g, d]⟩ : Shape).Reduces [1] ⟨2, ![n, d]⟩) (hφ : FKind.Formats φ) (hacc : acc = FKind.add.neutral φ hφ)
    (r : Fin n) (c : Fin d) :
    multiReduction .add [1] ⟨2, ![n, d]⟩ src acc h hφ hacc (ix2 r c) = ∑ j : Fin g, src (ix3 r j c) := by
  refine (Ideal.multiReduction_add_single src acc h hφ hacc (ix2 r c)).trans ?_
  refine Finset.sum_congr rfl fun j _ => congrArg src (funext fun a => Fin.ext ?_)
  match a with
  | ⟨0, _⟩ => rfl
  | ⟨1, _⟩ => rfl
  | ⟨2, _⟩ => rfl

end Cert.Sage

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.SegmentIdx.lean ====
/-
  Where an update of a scatter lands, by coordinates, and the segment ids.

  A scatter adds update element `j` to the operand element whose index is, on every operand axis, the start
  read off the scatter indices plus `j`'s window coordinate; the update is dropped when that leaves the
  operand. So "update `j` lands on `i`" is the system of equations start + window = coordinate of `i`,
  one per operand axis. For a row scatter into a [32768, 256] array (row `u` of the updates goes to the row
  its scatter index names, column kept) and for the element scatter into a [32768] vector the system is
  solved here. The segment ids are the row numbers 0 … 32767 each repeated 24 times: entry `u` is `u / 24`.
-/
import proofs.«105842_j30374008717369_2_alg».proof.ReferenceIdeal
import Idealize.ShloMosaic.Lib.ValueIdx
import Idealize.ShloMosaic.Lib.Pipeline.Value
import Idealize.ShloMosaic.Lib.IdealHost

noncomputable section

namespace Cert.Bridge.Segments

open Idealize.ShloMosaic Idealize.ShloMosaic.ValueIdx
open scoped BigOperators

/-- Update `j` lands on operand element `i` exactly when, on every operand axis, the start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hc
      have h1 := congrArg Fin.val (congrFun (Option.some.inj h) a)
      have h2 := hc a
      simp only at h1
      omega
    · cases h
  · intro h
    have hc : ∀ a, 0 ≤ d.start j idx a + (d.window j a : Int) ∧ d.start j idx a + (d.window j a : Int) < s.size a :=
      fun a => by have := h a; have := (i a).isLt; omega
    rw [dif_pos hc]
    refine congrArg some (funext fun a => Fin.ext ?_)
    have := h a
    simp only
    omega

/-- A word of 32 bits made from a number below 32768 reads, signed, that number. -/
theorem toInt_ofNat_small (n : Nat) (h : n < 32768) : (BitVec.ofNat 32 n).toInt = (n : Int) := by
  rw [BitVec.toInt_eq_toNat_of_lt (by rw [BitVec.toNat_ofNat]; omega), BitVec.toNat_ofNat]
  omega

/-- A float scatter with an add body, at the extended reals, read at an operand index: the operand's element plus
    the sum of the update elements that land on it. -/
theorem scatterAdd_apply {s si su : Shape} {w : Nat} {φ : FTy} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

variable [Cert.ReferenceIdeal.Facts]
open Cert.ReferenceIdeal

/-- The row scatter's dimension numbers. -/
abbrev dRows : ScatterDims S32768x256 S786432x1 S786432x256 := scatter_S32768x256_S786432x1_S786432x256_1_0_0_1
/-- The element scatter's dimension numbers. -/
abbrev dVec : ScatterDims S32768 S786432x1 S786432 := scatter_S32768_S786432x1_S786432_n_0_0_1

/-! ### The row scatter -/

/-- On the row axis the start is the scatter index of the update's row, read signed … -/
theorem dRows_start0 (u : Fin 786432) (col : Fin 256) (idx : IVec S786432x1 32) :
    dRows.start (ix2 u col) idx 0 = (idx (ix2 u 0)).toInt := by
  unfold ScatterDims.start
  rw [dif_pos (show (0 : Fin S32768x256.rank) ∈ dRows.scatterDimsToOperandDims from List.mem_singleton.2 rfl)]
  refine congrArg (fun k => (idx k).toInt) (funext fun b => ?_)
  match b with
  | ⟨0, _⟩ => rfl
  | ⟨1, _⟩ => rfl

/-- … and the window adds nothing there; on the column axis the start is zero and the window coordinate is the
    update's column. -/
theorem dRows_sum0 (u : Fin 786432) (col : Fin 256) (idx : IVec S786432x1 32) :
    dRows.start (ix2 u col) idx 0 + (dRows.window (ix2 u col) 0 : Int) = (idx (ix2 u 0)).toInt := by
  rw [dRows_start0]
  show _ + ((0 : Nat) : Int) = _
  simp

theorem dRows_sum1 (u : Fin 786432) (col : Fin 256) (idx : IVec S786432x1 32) :
    dRows.start (ix2 u col) idx 1 + (dRows.window (ix2 u col) 1 : Int) = (col.val : Int) := by
  show (0 : Int) + ((col.val : Nat) : Int) = _
  simp

/-- Update `(u, col)` lands on `(e, c)` exactly when row `u`'s scatter index is `e` and the columns agree. -/
theorem dRows_lands (u : Fin 786432) (col : Fin 256) (idx : IVec S786432x1 32) (e : Fin 32768) (c : Fin 256) :
    dRows.resultIdx? (ix2 u col) idx = some (ix2 e c) ↔ (idx (ix2 u 0)).toInt = (e.val : Int) ∧ col = c := by
  rw [resultIdx?_eq_some_iff]
  constructor
  · intro h
    have h0 := h 0
    have h1 := h 1
    rw [dRows_sum0] at h0
    rw [dRows_sum1] at h1
    exact ⟨h0, Fin.ext (by exact_mod_cast h1)⟩
  · rintro ⟨h0, rfl⟩ a
    match a with
    | ⟨0, _⟩ => exact (dRows_sum0 u col idx).trans h0
    | ⟨1, _⟩ => exact dRows_sum1 u col idx

/-! ### The element scatter -/

theorem dVec_sum0 (u : Fin 786432) (idx : IVec S786432x1 32) :
    dVec.start (ix1 u) idx 0 + (dVec.window (ix1 u) 0 : Int) = (idx (ix2 u 0)).toInt := by
  have hs : dVec.start (ix1 u) idx 0 = (idx (ix2 u 0)).toInt := by
    unfold ScatterDims.start
    rw [dif_pos (show (0 : Fin S32768.rank) ∈ dVec.scatterDimsToOperandDims from List.mem_singleton.2 rfl)]
    refine congrArg (fun k => (idx k).toInt) (funext fun b => ?_)
    match b with
    | ⟨0, _⟩ => rfl
    | ⟨1, _⟩ => rfl
  rw [hs]
  show _ + ((0 : Nat) : Int) = _
  simp

/-- Update `u` lands on element `e` exactly when its scatter index is `e`. -/
theorem dVec_lands (u : Fin 786432) (idx : IVec S786432x1 32) (e : Fin 32768) :
    dVec.resultIdx? (ix1 u) idx = some (ix1 e) ↔ (idx (ix2 u 0)).toInt = (e.val : Int) := by
  rw [resultIdx?_eq_some_iff]
  constructor
  · intro h
    have h0 := h 0
    rw [dVec_sum0] at h0
    exact h0
  · intro h0 a
    match a with
    | ⟨0, _⟩ => exact (dVec_sum0 u idx).trans h0

/-! ### The segment ids -/

/-- The segment ids: the row numbers 0 … 32767, each repeated along a new axis of 24, flattened. -/
def seg : IVec S786432 32 :=
  shapeCast S786432 (broadcastInDim S32768x24 ![0] Facts₀.bcast_S32768_S32768x24_0 (iotaInDim S32768 32 0))
    Facts₀.shapeCasts_S32768x24_S786432

/-- Entry `u` of the segment ids is the word of `u / 24`. -/
theorem seg_apply (u : Fin 786432) : seg (ix1 u) = BitVec.ofNat 32 (u.val / 24) := by
  have hq : u.val / 24 < 32768 := by omega
  have hr : u.val % 24 < 24 := Nat.mod_lt _ (by decide)
  unfold seg
  rw [shapeCast_apply _ _ (ix1 u) (ix2 ⟨u.val / 24, hq⟩ ⟨u.val % 24, hr⟩) (by
    rw [Shape.rowMajor_val_two, Shape.rowMajor_val_one]
    show u.val / 24 * 24 + u.val % 24 = u.val
    omega)]
  rw [broadcastInDim_apply _ _ _ _ (ix1 ⟨u.val / 24, hq⟩) (by
    intro a
    match a with
    | ⟨0, _⟩ => rfl)]
  rfl

/-- The segment ids as a column of scatter indices read, signed, `u / 24` at row `u`. -/
theorem segCol_toInt (u : Fin 786432) :
    ((broadcastInDim S786432x1 ![0] Facts₀.bcast_S786432_S786432x1_0 seg) (ix2 u 0)).toInt = ((u.val / 24 : Nat) : Int) := by
  rw [broadcastInDim_apply _ _ _ _ (ix1 u) (by
    intro a
    match a with
    | ⟨0, _⟩ => rfl)]
  rw [seg_apply]
  exact toInt_ofNat_small _ (by omega)

/-- So row `u`'s scatter index is `e` exactly when `u / 24 = e`. -/
theorem segCol_eq_iff (u : Fin 786432) (e : Fin 32768) :
    ((broadcastInDim S786432x1 ![0] Facts₀.bcast_S786432_S786432x1_0 seg) (ix2 u 0)).toInt = (e.val : Int)
      ↔ u.val / 24 = e.val := by
  rw [segCol_toInt]
  exact Int.ofNat_inj

end Cert.Bridge.Segments

end
-- ==== Proof.SegmentSums.lean ====
/-
  The sums of 24 consecutive rows, taken two ways.

  One program regards an array of 786432 rows as 32768 groups of 24 consecutive rows and sums each group
  along the new middle axis. The other adds row `u` into row `u / 24` of a zero array, for every `u`
  (a scatter with the segment ids 0,…,0,1,…,1,… each repeated 24 times). Both give, at row `e`, the sum
  of the rows `24 e`, …, `24 e + 23`: the rows `u` with `u / 24 = e` are exactly these. Only the
  commutativity and associativity of the addition are used, so the equality holds for every operand of
  extended reals, infinite entries included. The same for a vector in place of the array of rows.
-/
import proofs.«105842_j30374008717369_2_alg».proof.KernelIdeal
import proofs.«105842_j30374008717369_2_alg».proof.ReferenceIdeal
import Idealize.ShloMosaic.PureOps.Ideal.Laws
import Idealize.ShloMosaic.Lib.ValueIdx
import Idealize.ShloMosaic.Lib.Pipeline.Value
import Idealize.ShloMosaic.Lib.IdealHost
import proofs.«105842_j30374008717369_2_alg».proof.Proof.LibGroupRows
import proofs.«105842_j30374008717369_2_alg».proof.Proof.LibSumBlocks
import proofs.«105842_j30374008717369_2_alg».proof.Proof.SegmentIdx

noncomputable section

namespace Cert.Bridge.Segments

open Idealize.ShloMosaic Idealize.ShloMosaic.ValueIdx
open scoped BigOperators

/-! ### The terms `u` with `u / 24 = e` are one block of 24 -/

/-- A sum over 786432 terms that keeps only the terms `u` with `u / 24 = e` is the sum of the 24 terms
    `24 e`, …, `24 e + 23`. -/
theorem sum_segment {M : Type*} [AddCommMonoid M] (f : Fin 786432 → M) (e : Fin 32768) :
    ∑ u : Fin 786432, (if u.val / 24 = e.val then f u else 0)
      = ∑ k : Fin 24, f ⟨e.val * 24 + k.val, by omega⟩ := by
  calc ∑ u : Fin 786432, (if u.val / 24 = e.val then f u else 0)
      = ∑ a : Fin 32768, ∑ b : Fin 24,
          (if (finProdFinEquiv (a, b) : Fin (32768 * 24)).val / 24 = e.val then f (finProdFinEquiv (a, b)) else 0) :=
        Cert.SumBlocks.sum_blocks 32768 24 (fun u : Fin (32768 * 24) => if u.val / 24 = e.val then f u else 0)
    _ = ∑ a : Fin 32768, (if a = e then ∑ k : Fin 24, f ⟨e.val * 24 + k.val, by omega⟩ else 0) := by
        refine Finset.sum_congr rfl fun a _ => ?_
        by_cases hae : a = e
        · subst hae
          rw [if_pos rfl]
          refine Finset.sum_congr rfl fun b _ => ?_
          have hp := Cert.SumBlocks.block_pos 32768 24 a b
          rw [if_pos (by rw [hp]; omega)]
          exact congrArg f (Fin.ext (by rw [hp]; show b.val + 24 * a.val = a.val * 24 + b.val; omega))
        · rw [if_neg hae]
          refine Finset.sum_eq_zero fun b _ => ?_
          have hp := Cert.SumBlocks.block_pos 32768 24 a b
          rw [if_neg (by rw [hp]; intro h; exact hae (Fin.ext (by omega)))]
    _ = ∑ k : Fin 24, f ⟨e.val * 24 + k.val, by omega⟩ := by
        rw [Finset.sum_ite_eq' Finset.univ e, if_pos (Finset.mem_univ _)]

/-- A rank-1 index set is its one coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

variable [Cert.KernelIdeal.Facts] [Cert.ReferenceIdeal.Facts]

/-! ### The grouped sum, read at an index -/

/-- The sum along the middle axis of the rows grouped by 24, at `(e, c)`: the sum of column `c` of the rows
    `24 e + k`. -/
theorem reduce_rows (G : FVec Ideal Cert.KernelIdeal.S786432x256 .f32) (e : Fin 32768) (c : Fin 256) :
    Host.reduceAdd (F := Ideal)
        (shapeCast Cert.KernelIdeal.S32768x24x256 G Cert.KernelIdeal.Facts₀.shapeCasts_S786432x256_S32768x24x256)
        (constant (F := Ideal) Cert.KernelIdeal.S_ .f32 0x00000000#32)
        Cert.KernelIdeal.Facts₀.reducesTo_S32768x24x256_S32768x256_d1 Cert.KernelIdeal.Facts₀.h_S_ (ix2 e c)
      = ∑ k : Fin 24, G (ix2 ⟨e.val * 24 + k.val, by omega⟩ c) := by
  have hR : Cert.KernelIdeal.S32768x24x256.Reduces [1] Cert.KernelIdeal.S32768x256 := by decide
  rw [hostReduceAdd_apply]
  refine (Ideal.hostReduceAdd_single _ hR _ _ _).trans ?_
  rw [constant_apply, Ideal.ofBits_zero_f32, zero_add]
  refine Finset.sum_congr rfl fun (k : Fin 24) _ => ?_
  have hl : hR.lift (ix2 e c) k = ix3 e k c := funext fun a => Fin.ext (by
    match a with
    | ⟨0, _⟩ => rfl
    | ⟨1, _⟩ => rfl
    | ⟨2, _⟩ => rfl)
  rw [hl]
  exact Cert.Sage.shapeCast_groups_apply G _ e k c (by omega)

/-- The sum along the second axis of a vector grouped by 24, at `e`: the sum of the entries `24 e + k`. -/
theorem reduce_vec (msk : FVec Ideal Cert.KernelIdeal.S786432 .f32) (e : Fin 32768) :
    Host.reduceAdd (F := Ideal)
        (shapeCast Cert.KernelIdeal.S32768x24 msk Cert.KernelIdeal.Facts₀.shapeCasts_S786432_S32768x24)
        (constant (F := Ideal) Cert.KernelIdeal.S_ .f32 0x00000000#32)
        Cert.KernelIdeal.Facts₀.reducesTo_S32768x24_S32768_d1 Cert.KernelIdeal.Facts₀.h_S_ (ix1 e)
      = ∑ k : Fin 24, msk (ix1 ⟨e.val * 24 + k.val, by omega⟩) := by
  have hR : Cert.KernelIdeal.S32768x24.Reduces [1] Cert.KernelIdeal.S32768 := by decide
  rw [hostReduceAdd_apply]
  refine (Ideal.hostReduceAdd_single _ hR _ _ _).trans ?_
  rw [constant_apply, Ideal.ofBits_zero_f32, zero_add]
  refine Finset.sum_congr rfl fun (k : Fin 24) _ => ?_
  have hl : hR.lift (ix1 e) k = ix2 e k := funext fun a => Fin.ext (by
    match a with
    | ⟨0, _⟩ => rfl
    | ⟨1, _⟩ => rfl)
  rw [hl]
  exact shapeCast_apply msk _ (ix2 e k) (ix1 ⟨e.val * 24 + k.val, by omega⟩) (by
    rw [Shape.rowMajor_val_two, Shape.rowMajor_val_one]
    rfl)

/-! ### The scatter with the segment ids, read at an index -/

/-- The scatter of the rows into a zero array by the segment ids, at `(e, c)`: the same 24-term sum. Of the
    updates `(u, col)` only those in column `c` whose row has `u / 24 = e` land on `(e, c)`. -/
theorem scatter_rows (G : FVec Ideal Cert.KernelIdeal.S786432x256 .f32) (e : Fin 32768) (c : Fin 256) :
    Host.scatterAdd (F := Ideal) Cert.ReferenceIdeal.scatter_S32768x256_S786432x1_S786432x256_1_0_0_1
        (broadcastInDim Cert.ReferenceIdeal.S32768x256 ![] Cert.ReferenceIdeal.Facts₀.bcast_S_S32768x256
          (constant (F := Ideal) Cert.ReferenceIdeal.S_ .f32 0x00000000#32))
        (broadcastInDim Cert.ReferenceIdeal.S786432x1 ![0] Cert.ReferenceIdeal.Facts₀.bcast_S786432_S786432x1_0 seg) G (ix2 e c)
      = ∑ k : Fin 24, G (ix2 ⟨e.val * 24 + k.val, by omega⟩ c) := by
  rw [scatterAdd_apply]
  rw [broadcastInDim_scalar_apply, constant_apply, Ideal.ofBits_zero_f32, zero_add, Finset.sum_filter, sum_idx2]
  refine Eq.trans (Finset.sum_congr rfl fun (u : Fin 786432) _ => ?_) (sum_segment (fun u => G (ix2 u c)) e)
  refine (Finset.sum_eq_single c (fun col _ hne => ?_) (fun h => absurd (Finset.mem_univ c) h)).trans ?_
  · exact if_neg (fun h => hne ((dRows_lands u col _ e c).1 h).2)
  · exact if_congr ((dRows_lands u c _ e c).trans
      ⟨fun h => (segCol_eq_iff u e).1 h.1, fun h => ⟨(segCol_eq_iff u e).2 h, rfl⟩⟩) rfl rfl

/-- The scatter of a vector into a zero vector by the segment ids, at `e`: the same 24-term sum. -/
theorem scatter_vec (msk : FVec Ideal Cert.KernelIdeal.S786432 .f32) (e : Fin 32768) :
    Host.scatterAdd (F := Ideal) Cert.ReferenceIdeal.scatter_S32768_S786432x1_S786432_n_0_0_1
        (broadcastInDim Cert.ReferenceIdeal.S32768 ![] Cert.ReferenceIdeal.Facts₀.bcast_S_S32768
          (constant (F := Ideal) Cert.ReferenceIdeal.S_ .f32 0x00000000#32))
        (broadcastInDim Cert.ReferenceIdeal.S786432x1 ![0] Cert.ReferenceIdeal.Facts₀.bcast_S786432_S786432x1_0 seg) msk (ix1 e)
      = ∑ k : Fin 24, msk (ix1 ⟨e.val * 24 + k.val, by omega⟩) := by
  rw [scatterAdd_apply]
  rw [broadcastInDim_scalar_apply, constant_apply, Ideal.ofBits_zero_f32, zero_add, Finset.sum_filter, sum_idx1]
  refine Eq.trans (Finset.sum_congr rfl fun (u : Fin 786432) _ => ?_) (sum_segment (fun u => msk (ix1 u)) e)
  exact if_congr ((dVec_lands u _ e).trans (segCol_eq_iff u e)) rfl rfl

/-! ### The two programs' sums are the same array -/

/-- (A) The rows: the grouped sum is the scatter by the segment ids. -/
theorem reduce_eq_scatter_rows (G : FVec Ideal Cert.KernelIdeal.S786432x256 .f32) :
    Host.reduceAdd (F := Ideal)
        (shapeCast Cert.KernelIdeal.S32768x24x256 G Cert.KernelIdeal.Facts₀.shapeCasts_S786432x256_S32768x24x256)
        (constant (F := Ideal) Cert.KernelIdeal.S_ .f32 0x00000000#32)
        Cert.KernelIdeal.Facts₀.reducesTo_S32768x24x256_S32768x256_d1 Cert.KernelIdeal.Facts₀.h_S_
      = Host.scatterAdd (F := Ideal) Cert.ReferenceIdeal.scatter_S32768x256_S786432x1_S786432x256_1_0_0_1
        (broadcastInDim Cert.ReferenceIdeal.S32768x256 ![] Cert.ReferenceIdeal.Facts₀.bcast_S_S32768x256
          (constant (F := Ideal) Cert.ReferenceIdeal.S_ .f32 0x00000000#32))
        (broadcastInDim Cert.ReferenceIdeal.S786432x1 ![0] Cert.ReferenceIdeal.Facts₀.bcast_S786432_S786432x1_0 seg) G := by
  funext i
  obtain ⟨e, c, rfl⟩ : ∃ (e : Fin 32768) (c : Fin 256), i = ix2 e c := ⟨i 0, i 1, eq_ix2 i⟩
  exact (reduce_rows G e c).trans (scatter_rows G e c).symm

/-- (B) The vector: the grouped sum is the scatter by the segment ids. -/
theorem reduce_eq_scatter_vec (msk : FVec Ideal Cert.KernelIdeal.S786432 .f32) :
    Host.reduceAdd (F := Ideal)
        (shapeCast Cert.KernelIdeal.S32768x24 msk Cert.KernelIdeal.Facts₀.shapeCasts_S786432_S32768x24)
        (constant (F := Ideal) Cert.KernelIdeal.S_ .f32 0x00000000#32)
        Cert.KernelIdeal.Facts₀.reducesTo_S32768x24_S32768_d1 Cert.KernelIdeal.Facts₀.h_S_
      = Host.scatterAdd (F := Ideal) Cert.ReferenceIdeal.scatter_S32768_S786432x1_S786432_n_0_0_1
        (broadcastInDim Cert.ReferenceIdeal.S32768 ![] Cert.ReferenceIdeal.Facts₀.bcast_S_S32768
          (constant (F := Ideal) Cert.ReferenceIdeal.S_ .f32 0x00000000#32))
        (broadcastInDim Cert.ReferenceIdeal.S786432x1 ![0] Cert.ReferenceIdeal.Facts₀.bcast_S786432_S786432x1_0 seg) msk := by
  funext i
  obtain ⟨e, rfl⟩ : ∃ e : Fin 32768, i = ix1 e := ⟨i 0, eq_ix1 i⟩
  exact (reduce_vec msk e).trans (scatter_vec msk e).symm

end Cert.Bridge.Segments

end
-- ==== Proof.Pooled.lean ====
/-
  The pooled block, two ways.

  Both programs turn the gathered, masked rows G (786432 rows: 24 per edge) and the mask msk into one pooled row per
  edge: the sum of the edge's 24 rows divided by max(count, 1) where the count of unmasked rows is positive, and 0
  elsewhere. The kernel's program takes the sums by regrouping the rows as [32768, 24, ·] and summing the middle
  axis; the reference takes them by adding each row into the slot of its edge. The sums are the same arrays
  (the segment-sum theorems), and everything after the sums is the same text.
-/
import proofs.«105842_j30374008717369_2_alg».proof.Proof.SegmentSums
import proofs.«105842_j30374008717369_2_alg».proof.Proof.RefVal

set_option maxRecDepth 16384

noncomputable section

namespace Cert.Bridge

open Idealize.ShloMosaic Idealize.ShloMosaic.ValueIdx

namespace K

open Cert.KernelIdeal Cert.KernelIdeal.Gen

variable {F : FTy → Type} [FloatOps F]

/-- The pooled block as the kernel's program computes it on the host. -/
def pooled (G : FVec F S786432x256 .f32) (msk : FVec F S786432 .f32) : FVec F S32768x256 .f32 :=
  select (broadcastInDim S32768x256 ![0, 1] Facts₀.bcast_S32768x1_S32768x256_0_1
      (cmpf .ogt (broadcastInDim S32768x1 ![0] Facts₀.bcast_S32768_S32768x1_0
          (Host.reduceAdd (shapeCast S32768x24 msk Facts₀.shapeCasts_S786432_S32768x24) (constant S_ .f32 0x00000000#32) Facts₀.reducesTo_S32768x24_S32768_d1 Facts₀.h_S_))
        (broadcastInDim S32768x1 ![] Facts₀.bcast_S_S32768x1 (constant S_ .f32 0x00000000#32))))
    (Host.divf
      (Host.reduceAdd (shapeCast S32768x24x256 G Facts₀.shapeCasts_S786432x256_S32768x24x256) (constant S_ .f32 0x00000000#32) Facts₀.reducesTo_S32768x24x256_S32768x256_d1 Facts₀.h_S_)
      (broadcastInDim S32768x256 ![0, 1] Facts₀.bcast_S32768x1_S32768x256_0_1
        (broadcastInDim S32768x1 ![0] Facts₀.bcast_S32768_S32768x1_0
          (maximumf (Host.reduceAdd (shapeCast S32768x24 msk Facts₀.shapeCasts_S786432_S32768x24) (constant S_ .f32 0x00000000#32) Facts₀.reducesTo_S32768x24_S32768_d1 Facts₀.h_S_)
            (broadcastInDim S32768 ![] Facts₀.bcast_S_S32768 (constant S_ .f32 0x3F800000#32))))))
    (broadcastInDim S32768x256 ![] Facts₀.bcast_S_S32768x256 (id (constant S_ .f32 0x00000000#32)))

end K

/-- The two pooled blocks are one array. -/
theorem pooled_eq (G : FVec Ideal Cert.KernelIdeal.S786432x256 .f32) (msk : FVec Ideal Cert.KernelIdeal.S786432 .f32) :
    K.pooled G msk = Cert.ReferenceIdeal.Hand.pooled G msk := by
  unfold K.pooled
  rw [Segments.reduce_eq_scatter_rows G, Segments.reduce_eq_scatter_vec msk]
  rfl

end Cert.Bridge

end
-- ==== Proof.lean ====
/-
  The kernel computes, for each of 32768 edges, a dense stack of three residual ELU layers and an output
  projection over features gathered from the node array: the two endpoint rows, two masked mean-pools of 24
  neighbour rows, and three per-edge feature arrays. Its program does the gathering and pooling on the host and
  the dense stack in one kernel over blocks of 1024 edges; the reference does everything on the host.

  The three programs run to the end and keep their arguments: the kernel's two programs by the run of their one
  pipelined region after the host operations that feed it, the reference by its list of host operations.
  The idealized kernel and the idealized reference end with equal results on the extended reals:
  • the gathered pairs, the per-edge offsets, the flattened indices, the masks and the gathered masked rows are
    the same operations on both sides;
  • the pooled sums — a regrouping [32768, 24, ·] summed over its middle axis against a scatter-add into the
    edge's slot — are the same arrays, addition on the extended reals being commutative and associative;
  • the features laid side by side in six pieces, or in three then four, hold the same entries;
  • a product with a weight matrix, a bias row, ELU (exp − 1 against 1 · expm1) and a residual sum act on each row
    by itself, so each block of 1024 rows of the kernel's result is the same rows of the reference's, and the 32
    blocks cover the result.
  No finiteness of the inputs is used.
-/
import proofs.«105842_j30374008717369_2_alg».proof.Defs
import proofs.«105842_j30374008717369_2_alg».proof.Proof.RegionRun
import proofs.«105842_j30374008717369_2_alg».proof.Proof.RegionRunBits
import proofs.«105842_j30374008717369_2_alg».proof.Proof.RefRun
import proofs.«105842_j30374008717369_2_alg».proof.Proof.RefVal
import proofs.«105842_j30374008717369_2_alg».proof.Proof.KernelValue
import proofs.«105842_j30374008717369_2_alg».proof.Proof.KernelEntry
import proofs.«105842_j30374008717369_2_alg».proof.Proof.Pooled
import proofs.«105842_j30374008717369_2_alg».proof.Proof.Gen.Pre_finite_inputs

set_option maxRecDepth 16384

noncomputable section

namespace Cert.Proof

open Idealize.ShloMosaic Idealize.ShloMosaic.TcCoe Idealize.SL.Sem Cert.Bridge

/-! ## The frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Hand.frame (F := Ideal) m ρ

/-- The ideal pass rewrote nothing. -/
theorem preserves : Cert.preserves_Kernel_KernelIdeal := trivial

/-! ## The same host operations on both sides -/

namespace Sides

theorem pairs_eq (X : FVec Ideal Cert.KernelIdeal.S65536x256 .f32) (ei : IVec Cert.KernelIdeal.S2x32768 32) :
    Cert.KernelIdeal.Hand.pairs X ei = Cert.ReferenceIdeal.Hand.pairs X ei := rfl
theorem offs_eq (ei : IVec Cert.KernelIdeal.S2x32768 32) (bv : IVec Cert.KernelIdeal.S65536 32) (ptr : IVec Cert.KernelIdeal.S65 32) :
    Cert.KernelIdeal.Hand.offs ei bv ptr = Cert.ReferenceIdeal.Hand.offs ei bv ptr := rfl
theorem flatIdx_eq (idx : IVec Cert.KernelIdeal.S32768x24 32) (o : IVec Cert.KernelIdeal.S32768x1 32) :
    Cert.KernelIdeal.Hand.flatIdx idx o = Cert.ReferenceIdeal.Hand.flatIdx idx o := rfl
theorem rowMask_eq (fl : IVec Cert.KernelIdeal.S786432 32) :
    Cert.KernelIdeal.Hand.rowMask (F := Ideal) fl = Cert.ReferenceIdeal.Hand.rowMask (F := Ideal) fl := rfl
theorem gathered_eq (X : FVec Ideal Cert.KernelIdeal.S65536x256 .f32) (fl : IVec Cert.KernelIdeal.S786432 32)
    (msk : FVec Ideal Cert.KernelIdeal.S786432 .f32) :
    Cert.KernelIdeal.Hand.gathered X fl msk = Cert.ReferenceIdeal.Hand.gathered X fl msk := rfl
theorem others_eq (a6 : FVec Ideal Cert.KernelIdeal.S32768x24 .f32) (a7 : FVec Ideal Cert.KernelIdeal.S32768x200 .f32)
    (a8 : FVec Ideal Cert.KernelIdeal.S32768x32 .f32) : Cert.KernelIdeal.Hand.others a6 a7 a8 = K.others a6 a7 a8 := rfl

/-- The pooled block of the kernel's program is the reference's. -/
theorem pooled_sides (G : FVec Ideal Cert.KernelIdeal.S786432x256 .f32) (msk : FVec Ideal Cert.KernelIdeal.S786432 .f32) :
    Cert.KernelIdeal.Hand.pooled G msk = Cert.ReferenceIdeal.Hand.pooled G msk :=
  (show Cert.KernelIdeal.Hand.pooled G msk = K.pooled G msk from rfl).trans (pooled_eq G msk)

end Sides

/-! ## The result both programs end with -/

section
open Cert.ReferenceIdeal Cert.ReferenceIdeal.Hand

/-- The result as a function of the thirteen argument arrays: the dense stack over the pairs, the two pooled blocks
    and the three per-edge feature arrays. -/
def resultOf (X : FVec Ideal S65536x256 .f32) (ei : IVec S2x32768 32) (bv : IVec S65536 32) (ptr : IVec S65 32)
    (a4 a5 : IVec S32768x24 32) (a6 : FVec Ideal S32768x24 .f32) (a7 : FVec Ideal S32768x200 .f32) (a8 : FVec Ideal S32768x32 .f32)
    (a9 : FVec Ideal S3x1280x1280 .f32) (a10 : FVec Ideal S3x1280 .f32) (a11 : FVec Ideal S1280x512 .f32) (a12 : FVec Ideal S512 .f32) :
    FVec Ideal S32768x512 .f32 :=
  R.dense (pairs X ei)
    (pooled (gathered X (flatIdx a4 (offs ei bv ptr)) (rowMask (F := Ideal) (flatIdx a4 (offs ei bv ptr)))) (rowMask (F := Ideal) (flatIdx a4 (offs ei bv ptr))))
    (pooled (gathered X (flatIdx a5 (offs ei bv ptr)) (rowMask (F := Ideal) (flatIdx a5 (offs ei bv ptr)))) (rowMask (F := Ideal) (flatIdx a5 (offs ei bv ptr))))
    a6 a7 a8 a9 a10 a11 a12

/-- The reference's result buffer after its operations is `resultOf` of its arguments. -/
theorem ref_result (m : (ℓ : Loc nD τ sig) → Buf (Elt Ideal) ℓ) (c : Dev nD) :
    StableHlo.after ops (StableHlo.launchContents m c) (Proc.devRef .tc main_v136)
      = resultOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) :=
  (result_eq (F := Ideal) m c).trans rfl
end

section
open Cert.KernelIdeal Cert.KernelIdeal.Hand

/-- The kernel's result array after its run is `resultOf` of its arguments: the window arrays at the region's
    entry are the pairs, the two pooled blocks (the reference's, by the segment sums) and the three feature arrays
    side by side, and the 32 blocks the region writes are the rows of the dense stack of those. -/
theorem kernel_result (m : (ℓ : Loc nD τ sig) → Buf (Elt Ideal) ℓ) (c : Dev nD) :
    (dats m 0 c).arrAt 8 cfg0.N
      = resultOf (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12)) := by
  have h18 : V m c main_v18 = Cert.ReferenceIdeal.Hand.pairs (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
    rw [V_v18, Sides.pairs_eq]
  have h62 : V m c main_v62 = Cert.ReferenceIdeal.Hand.pooled (F := Ideal)
      (Cert.ReferenceIdeal.Hand.gathered (F := Ideal) (m ((c.tc : Thread Cert.KernelIdeal.nD Cert.KernelIdeal.τ).loc Cert.KernelIdeal.main_arg0))
        (Cert.ReferenceIdeal.Hand.flatIdx (m ((c.tc : Thread Cert.KernelIdeal.nD Cert.KernelIdeal.τ).loc Cert.KernelIdeal.main_arg4)) (Cert.ReferenceIdeal.Hand.offs (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))
        (Cert.ReferenceIdeal.Hand.rowMask (F := Ideal) (Cert.ReferenceIdeal.Hand.flatIdx (m ((c.tc : Thread Cert.KernelIdeal.nD Cert.KernelIdeal.τ).loc Cert.KernelIdeal.main_arg4)) (Cert.ReferenceIdeal.Hand.offs (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))))
      (Cert.ReferenceIdeal.Hand.rowMask (F := Ideal) (Cert.ReferenceIdeal.Hand.flatIdx (m ((c.tc : Thread Cert.KernelIdeal.nD Cert.KernelIdeal.τ).loc Cert.KernelIdeal.main_arg4)) (Cert.ReferenceIdeal.Hand.offs (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))) := by
    rw [V_v62, Sides.pooled_sides, Sides.gathered_eq, Sides.rowMask_eq, Sides.flatIdx_eq, Sides.offs_eq]
  have h91 : V m c main_v91 = Cert.ReferenceIdeal.Hand.pooled (F := Ideal)
      (Cert.ReferenceIdeal.Hand.gathered (F := Ideal) (m ((c.tc : Thread Cert.KernelIdeal.nD Cert.KernelIdeal.τ).loc Cert.KernelIdeal.main_arg0))
        (Cert.ReferenceIdeal.Hand.flatIdx (m ((c.tc : Thread Cert.KernelIdeal.nD Cert.KernelIdeal.τ).loc Cert.KernelIdeal.main_arg5)) (Cert.ReferenceIdeal.Hand.offs (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))
        (Cert.ReferenceIdeal.Hand.rowMask (F := Ideal) (Cert.ReferenceIdeal.Hand.flatIdx (m ((c.tc : Thread Cert.KernelIdeal.nD Cert.KernelIdeal.τ).loc Cert.KernelIdeal.main_arg5)) (Cert.ReferenceIdeal.Hand.offs (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))))
      (Cert.ReferenceIdeal.Hand.rowMask (F := Ideal) (Cert.ReferenceIdeal.Hand.flatIdx (m ((c.tc : Thread Cert.KernelIdeal.nD Cert.KernelIdeal.τ).loc Cert.KernelIdeal.main_arg5)) (Cert.ReferenceIdeal.Hand.offs (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))) := by
    rw [V_v91, Sides.pooled_sides, Sides.gathered_eq, Sides.rowMask_eq, Sides.flatIdx_eq, Sides.offs_eq]
  have h92 : V m c main_v92 = K.others (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
    rw [V_v92, Sides.others_eq]
  exact final_dense m c _ _ _ h18 h62 h91 h92
end

/-! ## The idealized programs end with equal results -/

/-- From memories that agree on the arguments, both idealized programs run to the end, keep their arguments and
    end with `resultOf` of the arguments in their result buffers. -/
theorem algebraic : Cert.algebraic_KernelIdeal_ReferenceIdeal := by
  intro m ρ m' ρ' _ hagree
  refine ⟨fun c => resultOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono (fun r h c => ⟨(h c).1.trans (kernel_result m c), (h c).2⟩)
      (Cert.KernelIdeal.Hand.run_value (F := Ideal) m ρ)
  · refine (θ_run Cert.ReferenceIdeal.defs _ _).mono (fun r h c => ?_) (Cert.ReferenceIdeal.Hand.run_after (F := Ideal) m' ρ')
    obtain ⟨e0, e1, e2, e3, e4, e5, e6, e7, e8, e9, e10, e11, e12⟩ := hagree c
    refine ⟨?_, (h c _).trans (Cert.ReferenceIdeal.Hand.kept_main_arg0 m' c), (h c _).trans (Cert.ReferenceIdeal.Hand.kept_main_arg1 m' c),
      (h c _).trans (Cert.ReferenceIdeal.Hand.kept_main_arg2 m' c), (h c _).trans (Cert.ReferenceIdeal.Hand.kept_main_arg3 m' c),
      (h c _).trans (Cert.ReferenceIdeal.Hand.kept_main_arg4 m' c), (h c _).trans (Cert.ReferenceIdeal.Hand.kept_main_arg5 m' c),
      (h c _).trans (Cert.ReferenceIdeal.Hand.kept_main_arg6 m' c), (h c _).trans (Cert.ReferenceIdeal.Hand.kept_main_arg7 m' c),
      (h c _).trans (Cert.ReferenceIdeal.Hand.kept_main_arg8 m' c), (h c _).trans (Cert.ReferenceIdeal.Hand.kept_main_arg9 m' c),
      (h c _).trans (Cert.ReferenceIdeal.Hand.kept_main_arg10 m' c), (h c _).trans (Cert.ReferenceIdeal.Hand.kept_main_arg11 m' c),
      (h c _).trans (Cert.ReferenceIdeal.Hand.kept_main_arg12 m' c)⟩
    rw [h c Cert.ReferenceIdeal.main_v136, ref_result m' c, e0, e1, e2, e3, e4, e5, e6, e7, e8, e9, e10, e11, e12]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
